-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x39x1 : Shape := ⟨3, ![8192, 39, 1]⟩
abbrev S8192x39 : Shape := ⟨2, ![8192, 39]⟩
abbrev S13x64 : Shape := ⟨2, ![13, 64]⟩
abbrev S26x40000x64 : Shape := ⟨3, ![26, 40000, 64]⟩
abbrev S2496x512 : Shape := ⟨2, ![2496, 512]⟩
abbrev S512 : Shape := ⟨1, ![512]⟩
abbrev S512x256 : Shape := ⟨2, ![512, 256]⟩
abbrev S256 : Shape := ⟨1, ![256]⟩
abbrev S8192 : Shape := ⟨1, ![8192]⟩
abbrev S_ : Shape := ⟨0, ![]⟩

class Facts : Prop where
  bcast_S_S8192x39 : S_.BroadcastsInDim S8192x39 (![] : Fin 0 → Fin S8192x39.rank)
  reducesTo_S8192x39_S_d0_1 : S8192x39.ReducesTo [0, 1] S_
  h_S_ : 0 < S_.numel
  bcast_S_S13x64 : S_.BroadcastsInDim S13x64 (![] : Fin 0 → Fin S13x64.rank)
  reducesTo_S13x64_S_d0_1 : S13x64.ReducesTo [0, 1] S_
  bcast_S_S26x40000x64 : S_.BroadcastsInDim S26x40000x64 (![] : Fin 0 → Fin S26x40000x64.rank)
  reducesTo_S26x40000x64_S_d0_1_2 : S26x40000x64.ReducesTo [0, 1, 2] S_
  bcast_S_S2496x512 : S_.BroadcastsInDim S2496x512 (![] : Fin 0 → Fin S2496x512.rank)
  reducesTo_S2496x512_S_d0_1 : S2496x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S8192 : S_.BroadcastsInDim S8192 (![] : Fin 0 → Fin S8192.rank)
  reducesTo_S8192_S_d0 : S8192.ReducesTo [0] S_

variable [Facts]

def fn_part4 {F : FTy → Type} [FloatOps F] (main_arg15 : FVec F S256 .f32) (main_arg16 : FVec F S8192 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S8192 .f32 := Host.absf main_arg16
  let main_cst_28 : FVec F S_ .f32 := constant S_ .f32 0x7F800000#32
  let main_v75 : FVec F S8192 .f32 := broadcastInDim S8192 ![] bcast_S_S8192 main_cst_28
  let main_v76 : IVec S8192 1 := cmpf .olt main_v74 main_v75
  let main_c_29 : IVec S_ 1 := constantI S_ 1 1#1
  let main_v77 : IVec S_ 1 := (fun x v => Host.reduce IntOp.andi x v reducesTo_S8192_S_d0 h_S_) main_v76 main_c_29
  let main_v78 : IVec S_ 1 := andi main_v73 main_v77
  main_v78

def fn_part3 {F : FTy → Type} [FloatOps F] (main_arg12 : FVec F S512x256 .f32) (main_arg13 : FVec F S256 .f32) (main_arg14 : FVec F S256 .f32) (main_arg15 : FVec F S256 .f32) (main_arg16 : FVec F S8192 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x256 .f32 := Host.absf main_arg12
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_v63 main_v67

def fn_part2 {F : FTy → Type} [FloatOps F] (main_arg8 : FVec F S2496x512 .f32) (main_arg9 : FVec F S512 .f32) (main_arg10 : FVec F S512 .f32) (main_arg11 : FVec F S512 .f32) (main_arg12 : FVec F S512x256 .f32) (main_arg13 : FVec F S256 .f32) (main_arg14 : FVec F S256 .f32) (main_arg15 : FVec F S256 .f32) (main_arg16 : FVec F S8192 .f32) (main_v33 : IVec S_ 1) : IVec S_ 1 :=
  let main_v34 : FVec F S2496x512 .f32 := Host.absf main_arg8
  let main_cst_12 : FVec F S_ .f32 := constant S_ .f32 0x7F800000#32
  let main_v35 : FVec F S2496x512 .f32 := broadcastInDim S2496x512 ![] bcast_S_S2496x512 main_cst_12
  let main_v36 : IVec S2496x512 1 := cmpf .olt main_v34 main_v35
  let main_c_13 : IVec S_ 1 := constantI S_ 1 1#1
  let main_v37 : IVec S_ 1 := (fun x v => Host.reduce IntOp.andi x v reducesTo_S2496x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_arg16 main_v48 main_v49 main_v50

def fn_part1 {F : FTy → Type} [FloatOps F] (main_arg5 : FVec F S13x64 .f32) (main_arg6 : FVec F S13x64 .f32) (main_arg7 : FVec F S26x40000x64 .f32) (main_arg8 : FVec F S2496x512 .f32) (main_arg9 : FVec F S512 .f32) (main_arg10 : FVec F S512 .f32) (main_arg11 : FVec F S512 .f32) (main_arg12 : FVec F S512x256 .f32) (main_arg13 : FVec F S256 .f32) (main_arg14 : FVec F S256 .f32) (main_arg15 : FVec F S256 .f32) (main_arg16 : FVec F S8192 .f32) (main_v13 : IVec S_ 1) (main_v16 : IVec S26x40000x64 1) : IVec S_ 1 :=
  let main_c_5 : IVec S_ 1 := constantI S_ 1 1#1
  let main_v17 : IVec S_ 1 := (fun x v => Host.reduce IntOp.andi x v reducesTo_S26x40000x64_S_d0_1_2 h_S_) main_v16 main_c_5
  let main_v18 : IVec S_ 1 := andi main_v13 main_v17
  let main_v19 : FVec F S13x64 .f32 := Host.absf main_arg5
  let main_cst_6 : FVec F S_ .f32 := constant S_ .f32 0x7F800000#32
  let main_v20 : FVec F S13x64 .f32 := broadcastInDim S13x64 ![] bcast_S_S13x64 main_cst_6
  let main_v21 : IVec S13x64 1 := cmpf .olt main_v19 main_v20
  let main_c_7 : IVec S_ 1 := constantI S_ 1 1#1
  let main_v22 : IVec S_ 1 := (fun x v => Host.reduce IntOp.andi x v reducesTo_S13x64_S_d0_1 h_S_) main_v21 main_c_7
  let main_v23 : IVec S_ 1 := andi main_v18 main_v22
  let main_v24 : FVec F S13x64 .f32 := Host.absf main_arg6
  let main_cst_8 : FVec F S_ .f32 := constant S_ .f32 0x7F800000#32
  let main_v25 : FVec F S13x64 .f32 := broadcastInDim S13x64 ![] bcast_S_S13x64 main_cst_8
  let main_v26 : IVec S13x64 1 := cmpf .olt main_v24 main_v25
  let main_c_9 : IVec S_ 1 := constantI S_ 1 1#1
  let main_v27 : IVec S_ 1 := (fun x v => Host.reduce IntOp.andi x v reducesTo_S13x64_S_d0_1 h_S_) main_v26 main_c_9
  let main_v28 : IVec S_ 1 := andi main_v23 main_v27
  let main_v29 : FVec F S26x40000x64 .f32 := Host.absf main_arg7
  let main_cst_10 : FVec F S_ .f32 := constant S_ .f32 0x7F800000#32
  let main_v30 : FVec F S26x40000x64 .f32 := broadcastInDim S26x40000x64 ![] bcast_S_S26x40000x64 main_cst_10
  let main_v31 : IVec S26x40000x64 1 := cmpf .olt main_v29 main_v30
  let main_c_11 : IVec S_ 1 := constantI S_ 1 1#1
  let main_v32 : IVec S_ 1 := (fun x v => Host.reduce IntOp.andi x v reducesTo_S26x40000x64_S_d0_1_2 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : IVec S8192x39x1 32) (main_arg1 : FVec F S8192x39 .f32) (main_arg2 : FVec F S13x64 .f32) (main_arg3 : FVec F S13x64 .f32) (main_arg4 : FVec F S26x40000x64 .f32) (main_arg5 : FVec F S13x64 .f32) (main_arg6 : FVec F S13x64 .f32) (main_arg7 : FVec F S26x40000x64 .f32) (main_arg8 : FVec F S2496x512 .f32) (main_arg9 : FVec F S512 .f32) (main_arg10 : FVec F S512 .f32) (main_arg11 : FVec F S512 .f32) (main_arg12 : FVec F S512x256 .f32) (main_arg13 : FVec F S256 .f32) (main_arg14 : FVec F S256 .f32) (main_arg15 : FVec F S256 .f32) (main_arg16 : FVec F S8192 .f32) : IVec S_ 1 :=
  let main_v0 : FVec F S8192x39 .f32 := Host.absf main_arg1
  let main_cst : FVec F S_ .f32 := constant S_ .f32 0x7F800000#32
  let main_v1 : FVec F S8192x39 .f32 := broadcastInDim S8192x39 ![] bcast_S_S8192x39 main_cst
  let main_v2 : IVec S8192x39 1 := cmpf .olt main_v0 main_v1
  let main_c : IVec S_ 1 := constantI S_ 1 1#1
  let main_v3 : IVec S_ 1 := (fun x v => Host.reduce IntOp.andi x v reducesTo_S8192x39_S_d0_1 h_S_) main_v2 main_c
  let main_v4 : FVec F S13x64 .f32 := Host.absf main_arg2
  let main_cst_0 : FVec F S_ .f32 := constant S_ .f32 0x7F800000#32
  let main_v5 : FVec F S13x64 .f32 := broadcastInDim S13x64 ![] bcast_S_S13x64 main_cst_0
  let main_v6 : IVec S13x64 1 := cmpf .olt main_v4 main_v5
  let main_c_1 : IVec S_ 1 := constantI S_ 1 1#1
  let main_v7 : IVec S_ 1 := (fun x v => Host.reduce IntOp.andi x v reducesTo_S13x64_S_d0_1 h_S_) main_v6 main_c_1
  let main_v8 : IVec S_ 1 := andi main_v3 main_v7
  let main_v9 : FVec F S13x64 .f32 := Host.absf main_arg3
  let main_cst_2 : FVec F S_ .f32 := constant S_ .f32 0x7F800000#32
  let main_v10 : FVec F S13x64 .f32 := broadcastInDim S13x64 ![] bcast_S_S13x64 main_cst_2
  let main_v11 : IVec S13x64 1 := cmpf .olt main_v9 main_v10
  let main_c_3 : IVec S_ 1 := constantI S_ 1 1#1
  let main_v12 : IVec S_ 1 := (fun x v => Host.reduce IntOp.andi x v reducesTo_S13x64_S_d0_1 h_S_) main_v11 main_c_3
  let main_v13 : IVec S_ 1 := andi main_v8 main_v12
  let main_v14 : FVec F S26x40000x64 .f32 := Host.absf main_arg4
  let main_cst_4 : FVec F S_ .f32 := constant S_ .f32 0x7F800000#32
  let main_v15 : FVec F S26x40000x64 .f32 := broadcastInDim S26x40000x64 ![] bcast_S_S26x40000x64 main_cst_4
  let main_v16 : IVec S26x40000x64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S8192x39x1 : Shape := ⟨3, ![8192, 39, 1]⟩
abbrev S8192x39 : Shape := ⟨2, ![8192, 39]⟩
abbrev S13x64 : Shape := ⟨2, ![13, 64]⟩
abbrev S26x40000x64 : Shape := ⟨3, ![26, 40000, 64]⟩
abbrev S2496x512 : Shape := ⟨2, ![2496, 512]⟩
abbrev S512 : Shape := ⟨1, ![512]⟩
abbrev S512x256 : Shape := ⟨2, ![512, 256]⟩
abbrev S256 : Shape := ⟨1, ![256]⟩
abbrev S8192 : Shape := ⟨1, ![8192]⟩
abbrev S8192x13 : Shape := ⟨2, ![8192, 13]⟩
abbrev S8192x26 : Shape := ⟨2, ![8192, 26]⟩
abbrev S26 : Shape := ⟨1, ![26]⟩
abbrev S_ : Shape := ⟨0, ![]⟩
abbrev S26x8192 : Shape := ⟨2, ![26, 8192]⟩
abbrev S26x8192x1 : Shape := ⟨3, ![26, 8192, 1]⟩
abbrev S26x8192x64 : Shape := ⟨3, ![26, 8192, 64]⟩
abbrev S8192x26x64 : Shape := ⟨3, ![8192, 26, 64]⟩
abbrev S1x512 : Shape := ⟨2, ![1, 512]⟩
abbrev S1x256 : Shape := ⟨2, ![1, 256]⟩
abbrev S8192x512 : Shape := ⟨2, ![8192, 512]⟩
abbrev S8192x1 : Shape := ⟨2, ![8192, 1]⟩
abbrev S256x13 : Shape := ⟨2, ![256, 13]⟩
abbrev S256x26 : Shape := ⟨2, ![256, 26]⟩
abbrev S256x26x64 : Shape := ⟨3, ![256, 26, 64]⟩
abbrev S256x512 : Shape := ⟨2, ![256, 512]⟩
abbrev S256x1 : Shape := ⟨2, ![256, 1]⟩
abbrev S256x13x1 : Shape := ⟨3, ![256, 13, 1]⟩
abbrev S1x13x64 : Shape := ⟨3, ![1, 13, 64]⟩
abbrev S256x13x64 : Shape := ⟨3, ![256, 13, 64]⟩
abbrev S256x26x1 : Shape := ⟨3, ![256, 26, 1]⟩
abbrev S256x64 : Shape := ⟨2, ![256, 64]⟩
abbrev S256x39x64 : Shape := ⟨3, ![256, 39, 64]⟩
abbrev S256x2496 : Shape := ⟨2, ![256, 2496]⟩
abbrev S8192x256 : Shape := ⟨2, ![8192, 256]⟩
abbrev S1024x512 : Shape := ⟨2, ![1024, 512]⟩
abbrev S1024x256 : Shape := ⟨2, ![1024, 256]⟩

abbrev nBuf : Space → Nat
  | .hbm => 147
  | .vmem => 28
  | .smem => 0
  | _ => 0

abbrev hbmTy0_0 (i : Nat) : BufTy := match i % 128 with
  | 0 => ⟨S8192x39x1, .i32⟩
  | 1 => ⟨S8192x39, .f32⟩
  | 2 => ⟨S13x64, .f32⟩
  | 3 => ⟨S13x64, .f32⟩
  | 4 => ⟨S26x40000x64, .f32⟩
  | 5 => ⟨S13x64, .f32⟩
  | 6 => ⟨S13x64, .f32⟩
  | 7 => ⟨S26x40000x64, .f32⟩
  | 8 => ⟨S2496x512, .f32⟩
  | 9 => ⟨S512, .f32⟩
  | 10 => ⟨S512, .f32⟩
  | 11 => ⟨S512, .f32⟩
  | 12 => ⟨S512x256, .f32⟩
  | 13 => ⟨S256, .f32⟩
  | 14 => ⟨S256, .f32⟩
  | 15 => ⟨S256, .f32⟩
  | 16 => ⟨S8192, .f32⟩
  | 17 => ⟨S8192x39, .i32⟩
  | 18 => ⟨S8192x13, .i32⟩
  | 19 => ⟨S8192x13, .f32⟩
  | 20 => ⟨S8192x26, .i32⟩
  | 21 => ⟨S8192x13, .f32⟩
  | 22 => ⟨S8192x26, .f32⟩
  | 23 => ⟨S26, .i32⟩
  | 24 => ⟨S_, .i32⟩
  | 25 => ⟨S8192x26, .i32⟩
  | 26 => ⟨S8192x26, .i1⟩
  | 27 => ⟨S_, .i32⟩
  | 28 => ⟨S8192x26, .i32⟩
  | 29 => ⟨S8192x26, .i32⟩
  | 30 => ⟨S8192x26, .i32⟩
  | 31 => ⟨S26x8192, .i32⟩
  | 32 => ⟨S26x8192x1, .i32⟩
  | 33 => ⟨S26x8192x64, .f32⟩
  | 34 => ⟨S8192x26x64, .f32⟩
  | 35 => ⟨S_, .i32⟩
  | 36 => ⟨S8192x26, .i32⟩
  | 37 => ⟨S8192x26, .i1⟩
  | 38 => ⟨S_, .i32⟩
  | 39 => ⟨S8192x26, .i32⟩
  | 40 => ⟨S8192x26, .i32⟩
  | 41 => ⟨S8192x26, .i32⟩
  | 42 => ⟨S26x8192, .i32⟩
  | 43 => ⟨S26x8192x1, .i32⟩
  | 44 => ⟨S26x8192x64, .f32⟩
  | 45 => ⟨S8192x26x64, .f32⟩
  | 46 => ⟨S1x512, .f32⟩
  | 47 => ⟨S1x256, .f32⟩
  | 48 => ⟨S8192x512, .f32⟩
  | 49 => ⟨S8192x1, .f32⟩
  | 50 => ⟨S8192x1, .f32⟩
  | 51 => ⟨S_, .f32⟩
  | 52 => ⟨S512, .f32⟩
  | 53 => ⟨S_, .f32⟩
  | 54 => ⟨S512, .f32⟩
  | 55 => ⟨S512, .f32⟩
  | 56 => ⟨S_, .i32⟩
  | 57 => ⟨S_, .f32⟩
  | 58 => ⟨S512, .f32⟩
  | 59 => ⟨S1x512, .f32⟩
  | 60 => ⟨S_, .f32⟩
  | 61 => ⟨S1x512, .f32⟩
  | 62 => ⟨S1x512, .f32⟩
  | 63 => ⟨S8192x512, .f32⟩
  | 64 => ⟨S8192x512, .f32⟩
  | 65 => ⟨S8192x512, .f32⟩
  | 66 => ⟨S_, .f32⟩
  | 67 => ⟨S_, .f32⟩
  | 68 => ⟨S_, .f32⟩
  | 69 => ⟨S_, .f32⟩
  | 70 => ⟨S512, .f32⟩
  | 71 => ⟨S512, .f32⟩
  | 72 => ⟨S512, .f32⟩
  | 73 => ⟨S_, .f32⟩
  | 74 => ⟨S_, .i1⟩
  | 75 => ⟨S_, .f32⟩
  | 76 => ⟨S_, .f32⟩
  | 77 => ⟨S512, .f32⟩
  | 78 => ⟨S512, .f32⟩
  | 79 => ⟨S1x512, .f32⟩
  | 80 => ⟨S8192x512, .f32⟩
  | 81 => ⟨S8192x512, .f32⟩
  | 82 => ⟨S1x512, .f32⟩
  | 83 => ⟨S8192x512, .f32⟩
  | 84 => ⟨S8192x512, .f32⟩
  | 85 => ⟨S_, .f32⟩
  | 86 => ⟨S512, .f32⟩
  | 87 => ⟨S512, .f32⟩
  | 88 => ⟨S512, .f32⟩
  | 89 => ⟨S1x512, .f32⟩
  | 90 => ⟨S8192x512, .f32⟩
  | 91 => ⟨S8192x512, .f32⟩
  | 92 => ⟨S1x512, .f32⟩
  | 93 => ⟨S8192x512, .f32⟩
  | 94 => ⟨S8192x512, .f32⟩
  | 95 => ⟨S8192x256, .f32⟩
  | 96 => ⟨S_, .f32⟩
  | 97 => ⟨S256, .f32⟩
  | 98 => ⟨S_, .f32⟩
  | 99 => ⟨S256, .f32⟩
  | 100 => ⟨S256, .f32⟩
  | 101 => ⟨S_, .i32⟩
  | 102 => ⟨S_, .f32⟩
  | 103 => ⟨S256, .f32⟩
  | 104 => ⟨S1x256, .f32⟩
  | 105 => ⟨S_, .f32⟩
  | 106 => ⟨S1x256, .f32⟩
  | 107 => ⟨S1x256, .f32⟩
  | 108 => ⟨S8192x256, .f32⟩
  | 109 => ⟨S8192x256, .f32⟩
  | 110 => ⟨S8192x256, .f32⟩
  | 111 => ⟨S_, .f32⟩
  | 112 => ⟨S_, .f32⟩
  | 113 => ⟨S_, .f32⟩
  | 114 => ⟨S_, .f32⟩
  | 115 => ⟨S256, .f32⟩
  | 116 => ⟨S256, .f32⟩
  | 117 => ⟨S256, .f32⟩
  | 118 => ⟨S_, .f32⟩
  | 119 => ⟨S_, .i1⟩
  | 120 => ⟨S_, .f32⟩
  | 121 => ⟨S_, .f32⟩
  | 122 => ⟨S256, .f32⟩
  | 123 => ⟨S256, .f32⟩
  | 124 => ⟨S1x256, .f32⟩
  | 125 => ⟨S8192x256, .f32⟩
  | 126 => ⟨S8192x256, .f32⟩
  | 127 => ⟨S1x256, .f32⟩
  | _ => ⟨S8192x39x1, .i32⟩

abbrev hbmTy0_1 (i : Nat) : BufTy := match i % 128 with
  | 0 => ⟨S8192x256, .f32⟩
  | 1 => ⟨S8192x256, .f32⟩
  | 2 => ⟨S_, .f32⟩
  | 3 => ⟨S256, .f32⟩
  | 4 => ⟨S256, .f32⟩
  | 5 => ⟨S256, .f32⟩
  | 6 => ⟨S1x256, .f32⟩
  | 7 => ⟨S8192x256, .f32⟩
  | 8 => ⟨S8192x256, .f32⟩
  | 9 => ⟨S1x256, .f32⟩
  | 10 => ⟨S8192x256, .f32⟩
  | 11 => ⟨S8192x256, .f32⟩
  | 12 => ⟨S8192, .f32⟩
  | 13 => ⟨S8192, .f32⟩
  | 14 => ⟨S8192, .f32⟩
  | 15 => ⟨S_, .f32⟩
  | 16 => ⟨S8192, .f32⟩
  | 17 => ⟨S8192, .f32⟩
  | 18 => ⟨S8192, .f32⟩
  | _ => ⟨S8192x39x1, .i32⟩

abbrev hbmTy (i : Nat) : BufTy := match i / 128 with
  | 0 => hbmTy0_0 i
  | 1 => hbmTy0_1 i
  | _ => ⟨S8192x39x1, .i32⟩

abbrev bufTy : (tb : Table) → Fin (tcTables nBuf tb) → BufTy
  | .hbm, ⟨i, _⟩ => hbmTy i
  | .local _ .vmem, ⟨0, _⟩ => ⟨S256x13, .f32⟩
  | .local _ .vmem, ⟨1, _⟩ => ⟨S256x13, .f32⟩
  | .local _ .vmem, ⟨2, _⟩ => ⟨S256x13, .f32⟩
  | .local _ .vmem, ⟨3, _⟩ => ⟨S256x13, .f32⟩
  | .local _ .vmem, ⟨4, _⟩ => ⟨S256x26, .f32⟩
  | .local _ .vmem, ⟨5, _⟩ => ⟨S256x26, .f32⟩
  | .local _ .vmem, ⟨6, _⟩ => ⟨S256x26x64, .f32⟩
  | .local _ .vmem, ⟨7, _⟩ => ⟨S256x26x64, .f32⟩
  | .local _ .vmem, ⟨8, _⟩ => ⟨S256x26x64, .f32⟩
  | .local _ .vmem, ⟨9, _⟩ => ⟨S256x26x64, .f32⟩
  | .local _ .vmem, ⟨10, _⟩ => ⟨S13x64, .f32⟩
  | .local _ .vmem, ⟨11, _⟩ => ⟨S13x64, .f32⟩
  | .local _ .vmem, ⟨12, _⟩ => ⟨S13x64, .f32⟩
  | .local _ .vmem, ⟨13, _⟩ => ⟨S13x64, .f32⟩
  | .local _ .vmem, ⟨14, _⟩ => ⟨S2496x512, .f32⟩
  | .local _ .vmem, ⟨15, _⟩ => ⟨S1x512, .f32⟩
  | .local _ .vmem, ⟨16, _⟩ => ⟨S256x512, .f32⟩
  | .local _ .vmem, ⟨17, _⟩ => ⟨S256x512, .f32⟩
  | .local _ .vmem, ⟨18, _⟩ => ⟨S256x1, .f32⟩
  | .local _ .vmem, ⟨19, _⟩ => ⟨S256x1, .f32⟩
  | .local _ .vmem, ⟨20, _⟩ => ⟨S256x1, .f32⟩
  | .local _ .vmem, ⟨21, _⟩ => ⟨S256x1, .f32⟩
  | .local _ .vmem, ⟨22, _⟩ => ⟨S1024x512, .f32⟩
  | .local _ .vmem, ⟨23, _⟩ => ⟨S1024x512, .f32⟩
  | .local _ .vmem, ⟨24, _⟩ => ⟨S512x256, .f32⟩
  | .local _ .vmem, ⟨25, _⟩ => ⟨S1x256, .f32⟩
  | .local _ .vmem, ⟨26, _⟩ => ⟨S1024x256, .f32⟩
  | .local _ .vmem, ⟨27, _⟩ => ⟨S1024x256, .f32⟩
  | _, _ => ⟨S8192x39x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c : Ref sig .tc := ⟨.hbm, 24, rfl⟩
abbrev main_v7 : Ref sig .tc := ⟨.hbm, 25, rfl⟩
abbrev main_v8 : Ref sig .tc := ⟨.hbm, 26, rfl⟩
abbrev main_c_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27_0 : Ref sig .tc := ⟨.hbm, 48, rfl⟩
abbrev main_v27_1 : Ref sig .tc := ⟨.hbm, 49, rfl⟩
abbrev main_v27_2 : Ref sig .tc := ⟨.hbm, 50, rfl⟩
abbrev main_cst : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_c_4 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_cst_0 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_cst_1 : Ref sig .tc := ⟨.hbm, 67, rfl⟩
abbrev main_call0_v8 : Ref sig .tc := ⟨.hbm, 68, rfl⟩
abbrev main_call0_cst_2 : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_cst_3 : Ref sig .tc := ⟨.hbm, 73, rfl⟩
abbrev main_call0_v12 : Ref sig .tc := ⟨.hbm, 74, rfl⟩
abbrev main_call0_cst_4 : Ref sig .tc := ⟨.hbm, 75, rfl⟩
abbrev main_call0_call0_v0 : Ref sig .tc := ⟨.hbm, 76, rfl⟩
abbrev main_call0_call0_v1 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_cst_5 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_6 : Ref sig .tc := ⟨.hbm, 96, rfl⟩
abbrev main_v48 : Ref sig .tc := ⟨.hbm, 97, rfl⟩
abbrev main_cst_7 : Ref sig .tc := ⟨.hbm, 98, rfl⟩
abbrev main_v49 : Ref sig .tc := ⟨.hbm, 99, rfl⟩
abbrev main_v50 : Ref sig .tc := ⟨.hbm, 100, rfl⟩
abbrev main_c_8 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_cst_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_cst_1 : Ref sig .tc := ⟨.hbm, 112, rfl⟩
abbrev main_call1_v8 : Ref sig .tc := ⟨.hbm, 113, rfl⟩
abbrev main_call1_cst_2 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_cst_3 : Ref sig .tc := ⟨.hbm, 118, rfl⟩
abbrev main_call1_v12 : Ref sig .tc := ⟨.hbm, 119, rfl⟩
abbrev main_call1_cst_4 : Ref sig .tc := ⟨.hbm, 120, rfl⟩
abbrev main_call1_call0_v0 : Ref sig .tc := ⟨.hbm, 121, rfl⟩
abbrev main_call1_call0_v1 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_cst_9 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_cst_10 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc1_sem0_0 : DmaSem sig := 22
abbrev cc1_sem0_1 : DmaSem sig := 23
abbrev cc1_sem1_0 : DmaSem sig := 24
abbrev cc1_sem2_0 : DmaSem sig := 25
abbrev cc1_sem3_0 : DmaSem sig := 26
abbrev cc1_sem3_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x13 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x26 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x26x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x26x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S13x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S13x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S13x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S13x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2496x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S8192x39x1_S8192x39 : S8192x39x1.ShapeCasts S8192x39
  slices_S8192x39_S8192x13_0_0 : S8192x39.Slices ![0, 0] S8192x13
  slices_S8192x39_S8192x26_0_13 : S8192x39.Slices ![0, 13] S8192x26
  bcast_S_S8192x26 : S_.BroadcastsInDim S8192x26 (![] : Fin 0 → Fin S8192x26.rank)
  transposes_S8192x26_S26x8192_1_0 : S8192x26.Transposes [1, 0] S26x8192
  bcast_S26x8192_S26x8192x1_0_1 : S26x8192.BroadcastsInDim S26x8192x1 (![0, 1] : Fin 2 → Fin S26x8192x1.rank)
  transposes_S26x8192x64_S8192x26x64_1_0_2 : S26x8192x64.Transposes [1, 0, 2] S8192x26x64
  shapeCasts_S512_S1x512 : S512.ShapeCasts S1x512
  shapeCasts_S256_S1x256 : S256.ShapeCasts S1x256
  inb_S256x13_S256x13_0_0 : ∀ a, (![0, 0] : Fin 2 → Nat) a + S256x13.size a ≤ S256x13.size a
  h_S256x13 : 0 < S256x13.numel
  shapeCasts_S256x13_S256x13 : S256x13.ShapeCasts S256x13
  inb_S256x26_S256x26_0_0 : ∀ a, (![0, 0] : Fin 2 → Nat) a + S256x26.size a ≤ S256x26.size a
  h_S256x26 : 0 < S256x26.numel
  shapeCasts_S256x26_S256x26 : S256x26.ShapeCasts S256x26
  inb_S256x26x64_S256x26x64_0_0_0 : ∀ a, (![0, 0, 0] : Fin 3 → Nat) a + S256x26x64.size a ≤ S256x26x64.size a
  h_S256x26x64 : 0 < S256x26x64.numel
  shapeCasts_S256x26x64_S256x26x64 : S256x26x64.ShapeCasts S256x26x64
  inb_S13x64_S13x64_0_0 : ∀ a, (![0, 0] : Fin 2 → Nat) a + S13x64.size a ≤ S13x64.size a
  h_S13x64 : 0 < S13x64.numel
  shapeCasts_S256x13_S256x13x1 : S256x13.ShapeCasts S256x13x1
  shapeCasts_S13x64_S1x13x64 : S13x64.ShapeCasts S1x13x64
  broadcasts_S256x13x1_S256x13x64 : S256x13x1.Broadcasts S256x13x64
  broadcasts_S1x13x64_S256x13x64 : S1x13x64.Broadcasts S256x13x64
  shapeCasts_S256x26_S256x26x1 : S256x26.ShapeCasts S256x26x1
  broadcasts_S256x26x1_S256x26x64 : S256x26x1.Broadcasts S256x26x64
  reduces_S256x13x64_S256x13 : S256x13x64.Reduces [2] S256x13
  reduces_S256x13_S256 : S256x13.Reduces [1] S256
  reduces_S256x26x64_S256x26 : S256x26x64.Reduces [2] S256x26
  reduces_S256x26_S256 : S256x26.Reduces [1] S256
  reduces_S256x13x64_S256x64 : S256x13x64.Reduces [1] S256x64
  reduces_S256x26x64_S256x64 : S256x26x64.Reduces [1] S256x64
  reduces_S256x64_S256 : S256x64.Reduces [1] S256
  concatenates_S256x13x64_S256x26x64_S256x39x64_d1 : Shape.Concatenates [S256x13x64, S256x26x64] S256x39x64 1
  shapeCasts_S256x39x64_S256x2496 : S256x39x64.ShapeCasts S256x2496
  inb_S2496x512_S2496x512_0_0 : ∀ a, (![0, 0] : Fin 2 → Nat) a + S2496x512.size a ≤ S2496x512.size a
  h_S2496x512 : 0 < S2496x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  shapeCasts_S256_S256x1 : S256.ShapeCasts S256x1
  inb_S256x1_S256x1_0_0 : ∀ a, (![0, 0] : Fin 2 → Nat) a + S256x1.size a ≤ S256x1.size a
  h_S256x1 : 0 < S256x1.numel
  reducesTo_S8192x512_S512_d0 : S8192x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S8192x512_0_1 : S1x512.BroadcastsInDim S8192x512 (![0, 1] : Fin 2 → Fin S8192x512.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  reducesTo_S8192x256_S256_d0 : S8192x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S8192x256_0_1 : S1x256.BroadcastsInDim S8192x256 (![0, 1] : Fin 2 → Fin S8192x256.rank)
  shapeCasts_S8192x1_S8192 : S8192x1.ShapeCasts S8192
  reducesTo_S8192x256_S8192_d1 : S8192x256.ReducesTo [1] S8192
  gather_S26x40000x64_S26x8192x1_S26x8192x64_2_1_0_0_1_2_1164_wf : GatherDims.WF S26x40000x64 S26x8192x1 S26x8192x64 [2] [1] [0] [1] [0] 2 ![1, 1, 64]
  dot_S256x2496_S2496x512_S256x512_1_0_0_1_n_n_wf : DotDims.WF S256x2496 S2496x512 S256x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x13.size a ≤ S8192x13.size a
  hwx0_0 : ∀ i : grid0.Coords, EltTy.bits .f32 = 32 ∨ (Rect.block (s := S8192x13) S256x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x13.size a ≤ S8192x13.size a
  hwx0_1 : ∀ i : grid0.Coords, EltTy.bits .f32 = 32 ∨ (Rect.block (s := S8192x13) S256x13.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x26.size a ≤ S8192x26.size a
  hwx0_2 : ∀ i : grid0.Coords, EltTy.bits .f32 = 32 ∨ (Rect.block (s := S8192x26) S256x26.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x26x64.size a ≤ S8192x26x64.size a
  hwx0_3 : ∀ i : grid0.Coords, EltTy.bits .f32 = 32 ∨ (Rect.block (s := S8192x26x64) S256x26x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x26x64.size a ≤ S8192x26x64.size a
  hwx0_4 : ∀ i : grid0.Coords, EltTy.bits .f32 = 32 ∨ (Rect.block (s := S8192x26x64) S256x26x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S13x64.size a ≤ S13x64.size a
  hwx0_5 : ∀ i : grid0.Coords, EltTy.bits .f32 = 32 ∨ (Rect.block (s := S13x64) S13x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S13x64.size a ≤ S13x64.size a
  hwx0_6 : ∀ i : grid0.Coords, EltTy.bits .f32 = 32 ∨ (Rect.block (s := S13x64) S13x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S13x64.size a ≤ S13x64.size a
  hwx0_7 : ∀ i : grid0.Coords, EltTy.bits .f32 = 32 ∨ (Rect.block (s := S13x64) S13x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S13x64.size a ≤ S13x64.size a
  hwx0_8 : ∀ i : grid0.Coords, EltTy.bits .f32 = 32 ∨ (Rect.block (s := S13x64) S13x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2496x512.size a ≤ S2496x512.size a
  hwx0_9 : ∀ i : grid0.Coords, EltTy.bits .f32 = 32 ∨ (Rect.block (s := S2496x512) S2496x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S8192x512.size a
  hwx0_11 : ∀ i : grid0.Coords, EltTy.bits .f32 = 32 ∨ (Rect.block (s := S8192x512) S256x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1.size a ≤ S8192x1.size a
  hwx0_12 : ∀ i : grid0.Coords, EltTy.bits .f32 = 32 ∨ (Rect.block (s := S8192x1) S256x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x1.size a ≤ S8192x1.size a
  hwx0_13 : ∀ i : grid0.Coords, EltTy.bits .f32 = 32 ∨ (Rect.block (s := S8192x1) S256x1.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)

variable [Facts₀]

def gather_S26x40000x64_S26x8192x1_S26x8192x64_2_1_0_0_1_2_1164 : GatherDims S26x40000x64 S26x8192x1 S26x8192x64 where
  offsetDims := [2]
  collapsedSliceDims := [1]
  operandBatchingDims := [0]
  startIndicesBatchingDims := [0]
  startIndexMap := [1]
  indexVectorDim := 2
  sliceSizes := ![1, 1, 64]
  wf := gather_S26x40000x64_S26x8192x1_S26x8192x64_2_1_0_0_1_2_1164_wf
def dot_S256x2496_S2496x512_S256x512_1_0_0_1_n_n : DotDims S256x2496 S2496x512 S256x512 where
  lhsContracting := [1]
  rhsContracting := [0]
  lhsNonContracting := [0]
  rhsNonContracting := [1]
  lhsBatch := []
  rhsBatch := []
  wf := dot_S256x2496_S2496x512_S256x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v2) S256x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x13.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x26.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S256x26x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S256x26x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S13x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S13x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S13x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S13x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S2496x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27_0) S256x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v27_1) S256x1.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v27_2) S256x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v46) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x39x1 : Shape := ⟨3, ![8192, 39, 1]⟩
abbrev S8192x39 : Shape := ⟨2, ![8192, 39]⟩
abbrev S13x64 : Shape := ⟨2, ![13, 64]⟩
abbrev S26x40000x64 : Shape := ⟨3, ![26, 40000, 64]⟩
abbrev S2496x512 : Shape := ⟨2, ![2496, 512]⟩
abbrev S512 : Shape := ⟨1, ![512]⟩
abbrev S512x256 : Shape := ⟨2, ![512, 256]⟩
abbrev S256 : Shape := ⟨1, ![256]⟩
abbrev S8192 : Shape := ⟨1, ![8192]⟩
abbrev S8192x13 : Shape := ⟨2, ![8192, 13]⟩
abbrev S8192x26 : Shape := ⟨2, ![8192, 26]⟩
abbrev S26 : Shape := ⟨1, ![26]⟩
abbrev S8192x13x1 : Shape := ⟨3, ![8192, 13, 1]⟩
abbrev S1x13x64 : Shape := ⟨3, ![1, 13, 64]⟩
abbrev S8192x13x64 : Shape := ⟨3, ![8192, 13, 64]⟩
abbrev S_ : Shape := ⟨0, ![]⟩
abbrev S8192x26x1 : Shape := ⟨3, ![8192, 26, 1]⟩
abbrev S8192x26x2 : Shape := ⟨3, ![8192, 26, 2]⟩
abbrev S8192x26x64 : Shape := ⟨3, ![8192, 26, 64]⟩
abbrev S8192x832 : Shape := ⟨2, ![8192, 832]⟩
abbrev S8192x1664 : Shape := ⟨2, ![8192, 1664]⟩
abbrev S8192x2496 : Shape := ⟨2, ![8192, 2496]⟩
abbrev S8192x39x64 : Shape := ⟨3, ![8192, 39, 64]⟩
abbrev S8192x64 : Shape := ⟨2, ![8192, 64]⟩
abbrev S8192x512 : Shape := ⟨2, ![8192, 512]⟩
abbrev S1x512 : Shape := ⟨2, ![1, 512]⟩
abbrev S8192x256 : Shape := ⟨2, ![8192, 256]⟩
abbrev S1x256 : Shape := ⟨2, ![1, 256]⟩

abbrev nBuf : Space → Nat
  | .hbm => 209
  | .vmem => 0
  | .smem => 0
  | _ => 0

abbrev hbmTy0_0 (i : Nat) : BufTy := match i % 128 with
  | 0 => ⟨S8192x39x1, .i32⟩
  | 1 => ⟨S8192x39, .f32⟩
  | 2 => ⟨S13x64, .f32⟩
  | 3 => ⟨S13x64, .f32⟩
  | 4 => ⟨S26x40000x64, .f32⟩
  | 5 => ⟨S13x64, .f32⟩
  | 6 => ⟨S13x64, .f32⟩
  | 7 => ⟨S26x40000x64, .f32⟩
  | 8 => ⟨S2496x512, .f32⟩
  | 9 => ⟨S512, .f32⟩
  | 10 => ⟨S512, .f32⟩
  | 11 => ⟨S512, .f32⟩
  | 12 => ⟨S512x256, .f32⟩
  | 13 => ⟨S256, .f32⟩
  | 14 => ⟨S256, .f32⟩
  | 15 => ⟨S256, .f32⟩
  | 16 => ⟨S8192, .f32⟩
  | 17 => ⟨S8192x39, .i32⟩
  | 18 => ⟨S8192x13, .i32⟩
  | 19 => ⟨S8192x13, .f32⟩
  | 20 => ⟨S8192x26, .i32⟩
  | 21 => ⟨S8192x13, .f32⟩
  | 22 => ⟨S8192x26, .f32⟩
  | 23 => ⟨S26, .i32⟩
  | 24 => ⟨S8192x13x1, .f32⟩
  | 25 => ⟨S1x13x64, .f32⟩
  | 26 => ⟨S8192x13x64, .f32⟩
  | 27 => ⟨S8192x13x64, .f32⟩
  | 28 => ⟨S8192x13x64, .f32⟩
  | 29 => ⟨S1x13x64, .f32⟩
  | 30 => ⟨S8192x13x64, .f32⟩
  | 31 => ⟨S8192x13x64, .f32⟩
  | 32 => ⟨S8192x13x1, .f32⟩
  | 33 => ⟨S8192x13x64, .f32⟩
  | 34 => ⟨S8192x13x64, .f32⟩
  | 35 => ⟨S_, .i32⟩
  | 36 => ⟨S26, .i32⟩
  | 37 => ⟨S26, .i1⟩
  | 38 => ⟨S_, .i32⟩
  | 39 => ⟨S26, .i32⟩
  | 40 => ⟨S26, .i32⟩
  | 41 => ⟨S26, .i32⟩
  | 42 => ⟨S_, .i32⟩
  | 43 => ⟨S8192x26, .i32⟩
  | 44 => ⟨S8192x26, .i1⟩
  | 45 => ⟨S_, .i32⟩
  | 46 => ⟨S8192x26, .i32⟩
  | 47 => ⟨S8192x26, .i32⟩
  | 48 => ⟨S8192x26, .i32⟩
  | 49 => ⟨S8192x26, .i32⟩
  | 50 => ⟨S8192x26x1, .i32⟩
  | 51 => ⟨S8192x26x1, .i32⟩
  | 52 => ⟨S8192x26x2, .i32⟩
  | 53 => ⟨S8192x26x64, .f32⟩
  | 54 => ⟨S8192x26x1, .f32⟩
  | 55 => ⟨S8192x26x64, .f32⟩
  | 56 => ⟨S8192x26x64, .f32⟩
  | 57 => ⟨S8192x832, .f32⟩
  | 58 => ⟨S8192x1664, .f32⟩
  | 59 => ⟨S8192x2496, .f32⟩
  | 60 => ⟨S8192x13x1, .f32⟩
  | 61 => ⟨S1x13x64, .f32⟩
  | 62 => ⟨S8192x13x64, .f32⟩
  | 63 => ⟨S8192x13x64, .f32⟩
  | 64 => ⟨S8192x13x64, .f32⟩
  | 65 => ⟨S1x13x64, .f32⟩
  | 66 => ⟨S8192x13x64, .f32⟩
  | 67 => ⟨S8192x13x64, .f32⟩
  | 68 => ⟨S_, .i32⟩
  | 69 => ⟨S26, .i32⟩
  | 70 => ⟨S26, .i1⟩
  | 71 => ⟨S_, .i32⟩
  | 72 => ⟨S26, .i32⟩
  | 73 => ⟨S26, .i32⟩
  | 74 => ⟨S26, .i32⟩
  | 75 => ⟨S_, .i32⟩
  | 76 => ⟨S8192x26, .i32⟩
  | 77 => ⟨S8192x26, .i1⟩
  | 78 => ⟨S_, .i32⟩
  | 79 => ⟨S8192x26, .i32⟩
  | 80 => ⟨S8192x26, .i32⟩
  | 81 => ⟨S8192x26, .i32⟩
  | 82 => ⟨S8192x26, .i32⟩
  | 83 => ⟨S8192x26x1, .i32⟩
  | 84 => ⟨S8192x26x1, .i32⟩
  | 85 => ⟨S8192x26x2, .i32⟩
  | 86 => ⟨S8192x26x64, .f32⟩
  | 87 => ⟨S8192x26x1, .f32⟩
  | 88 => ⟨S8192x26x64, .f32⟩
  | 89 => ⟨S8192x26x64, .f32⟩
  | 90 => ⟨S8192x39x64, .f32⟩
  | 91 => ⟨S_, .f32⟩
  | 92 => ⟨S8192x64, .f32⟩
  | 93 => ⟨S8192x64, .f32⟩
  | 94 => ⟨S8192x39x64, .f32⟩
  | 95 => ⟨S_, .f32⟩
  | 96 => ⟨S8192x64, .f32⟩
  | 97 => ⟨S8192x64, .f32⟩
  | 98 => ⟨S_, .f32⟩
  | 99 => ⟨S8192x64, .f32⟩
  | 100 => ⟨S8192x64, .f32⟩
  | 101 => ⟨S8192x832, .f32⟩
  | 102 => ⟨S8192x1664, .f32⟩
  | 103 => ⟨S8192x2496, .f32⟩
  | 104 => ⟨S8192x512, .f32⟩
  | 105 => ⟨S1x512, .f32⟩
  | 106 => ⟨S8192x512, .f32⟩
  | 107 => ⟨S8192x512, .f32⟩
  | 108 => ⟨S_, .f32⟩
  | 109 => ⟨S512, .f32⟩
  | 110 => ⟨S_, .f32⟩
  | 111 => ⟨S512, .f32⟩
  | 112 => ⟨S512, .f32⟩
  | 113 => ⟨S_, .i32⟩
  | 114 => ⟨S_, .f32⟩
  | 115 => ⟨S512, .f32⟩
  | 116 => ⟨S1x512, .f32⟩
  | 117 => ⟨S_, .f32⟩
  | 118 => ⟨S1x512, .f32⟩
  | 119 => ⟨S1x512, .f32⟩
  | 120 => ⟨S8192x512, .f32⟩
  | 121 => ⟨S8192x512, .f32⟩
  | 122 => ⟨S8192x512, .f32⟩
  | 123 => ⟨S_, .f32⟩
  | 124 => ⟨S_, .f32⟩
  | 125 => ⟨S_, .f32⟩
  | 126 => ⟨S_, .f32⟩
  | 127 => ⟨S512, .f32⟩
  | _ => ⟨S8192x39x1, .i32⟩

abbrev hbmTy0_1 (i : Nat) : BufTy := match i % 128 with
  | 0 => ⟨S512, .f32⟩
  | 1 => ⟨S512, .f32⟩
  | 2 => ⟨S_, .f32⟩
  | 3 => ⟨S_, .i1⟩
  | 4 => ⟨S_, .f32⟩
  | 5 => ⟨S_, .f32⟩
  | 6 => ⟨S512, .f32⟩
  | 7 => ⟨S512, .f32⟩
  | 8 => ⟨S1x512, .f32⟩
  | 9 => ⟨S8192x512, .f32⟩
  | 10 => ⟨S8192x512, .f32⟩
  | 11 => ⟨S1x512, .f32⟩
  | 12 => ⟨S8192x512, .f32⟩
  | 13 => ⟨S8192x512, .f32⟩
  | 14 => ⟨S_, .f32⟩
  | 15 => ⟨S512, .f32⟩
  | 16 => ⟨S512, .f32⟩
  | 17 => ⟨S512, .f32⟩
  | 18 => ⟨S1x512, .f32⟩
  | 19 => ⟨S8192x512, .f32⟩
  | 20 => ⟨S8192x512, .f32⟩
  | 21 => ⟨S1x512, .f32⟩
  | 22 => ⟨S8192x512, .f32⟩
  | 23 => ⟨S8192x512, .f32⟩
  | 24 => ⟨S8192x256, .f32⟩
  | 25 => ⟨S1x256, .f32⟩
  | 26 => ⟨S8192x256, .f32⟩
  | 27 => ⟨S8192x256, .f32⟩
  | 28 => ⟨S_, .f32⟩
  | 29 => ⟨S256, .f32⟩
  | 30 => ⟨S_, .f32⟩
  | 31 => ⟨S256, .f32⟩
  | 32 => ⟨S256, .f32⟩
  | 33 => ⟨S_, .i32⟩
  | 34 => ⟨S_, .f32⟩
  | 35 => ⟨S256, .f32⟩
  | 36 => ⟨S1x256, .f32⟩
  | 37 => ⟨S_, .f32⟩
  | 38 => ⟨S1x256, .f32⟩
  | 39 => ⟨S1x256, .f32⟩
  | 40 => ⟨S8192x256, .f32⟩
  | 41 => ⟨S8192x256, .f32⟩
  | 42 => ⟨S8192x256, .f32⟩
  | 43 => ⟨S_, .f32⟩
  | 44 => ⟨S_, .f32⟩
  | 45 => ⟨S_, .f32⟩
  | 46 => ⟨S_, .f32⟩
  | 47 => ⟨S256, .f32⟩
  | 48 => ⟨S256, .f32⟩
  | 49 => ⟨S256, .f32⟩
  | 50 => ⟨S_, .f32⟩
  | 51 => ⟨S_, .i1⟩
  | 52 => ⟨S_, .f32⟩
  | 53 => ⟨S_, .f32⟩
  | 54 => ⟨S256, .f32⟩
  | 55 => ⟨S256, .f32⟩
  | 56 => ⟨S1x256, .f32⟩
  | 57 => ⟨S8192x256, .f32⟩
  | 58 => ⟨S8192x256, .f32⟩
  | 59 => ⟨S1x256, .f32⟩
  | 60 => ⟨S8192x256, .f32⟩
  | 61 => ⟨S8192x256, .f32⟩
  | 62 => ⟨S_, .f32⟩
  | 63 => ⟨S256, .f32⟩
  | 64 => ⟨S256, .f32⟩
  | 65 => ⟨S256, .f32⟩
  | 66 => ⟨S1x256, .f32⟩
  | 67 => ⟨S8192x256, .f32⟩
  | 68 => ⟨S8192x256, .f32⟩
  | 69 => ⟨S1x256, .f32⟩
  | 70 => ⟨S8192x256, .f32⟩
  | 71 => ⟨S8192x256, .f32⟩
  | 72 => ⟨S_, .f32⟩
  | 73 => ⟨S8192, .f32⟩
  | 74 => ⟨S_, .f32⟩
  | 75 => ⟨S8192, .f32⟩
  | 76 => ⟨S8192, .f32⟩
  | 77 => ⟨S_, .f32⟩
  | 78 => ⟨S8192, .f32⟩
  | 79 => ⟨S8192, .f32⟩
  | 80 => ⟨S8192, .f32⟩
  | _ => ⟨S8192x39x1, .i32⟩

abbrev hbmTy (i : Nat) : BufTy := match i / 128 with
  | 0 => hbmTy0_0 i
  | 1 => hbmTy0_1 i
  | _ => ⟨S8192x39x1, .i32⟩

abbrev bufTy : (tb : Table) → Fin (tcTables nBuf tb) → BufTy
  | .hbm, ⟨i, _⟩ => hbmTy i
  | _, _ => ⟨S8192x39x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_1 : Ref sig .tc := ⟨.hbm, 42, rfl⟩
abbrev main_v23 : Ref sig .tc := ⟨.hbm, 43, rfl⟩
abbrev main_v24 : Ref sig .tc := ⟨.hbm, 44, rfl⟩
abbrev main_c_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_3 : Ref sig .tc := ⟨.hbm, 68, rfl⟩
abbrev main_v47 : Ref sig .tc := ⟨.hbm, 69, rfl⟩
abbrev main_v48 : Ref sig .tc := ⟨.hbm, 70, rfl⟩
abbrev main_c_4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_5 : Ref sig .tc := ⟨.hbm, 75, rfl⟩
abbrev main_v52 : Ref sig .tc := ⟨.hbm, 76, rfl⟩
abbrev main_v53 : Ref sig .tc := ⟨.hbm, 77, rfl⟩
abbrev main_c_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_7 : Ref sig .tc := ⟨.hbm, 95, rfl⟩
abbrev main_v69 : Ref sig .tc := ⟨.hbm, 96, rfl⟩
abbrev main_v70 : Ref sig .tc := ⟨.hbm, 97, rfl⟩
abbrev main_cst_8 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_9 : Ref sig .tc := ⟨.hbm, 108, rfl⟩
abbrev main_v80 : Ref sig .tc := ⟨.hbm, 109, rfl⟩
abbrev main_cst_10 : Ref sig .tc := ⟨.hbm, 110, rfl⟩
abbrev main_v81 : Ref sig .tc := ⟨.hbm, 111, rfl⟩
abbrev main_v82 : Ref sig .tc := ⟨.hbm, 112, rfl⟩
abbrev main_c_11 : Ref sig .tc := ⟨.hbm, 113, rfl⟩
abbrev main_call0_cst : Ref sig .tc := ⟨.hbm, 114, rfl⟩
abbrev main_call0_v0 : Ref sig .tc := ⟨.hbm, 115, rfl⟩
abbrev main_call0_v1 : Ref sig .tc := ⟨.hbm, 116, rfl⟩
abbrev main_call0_cst_0 : Ref sig .tc := ⟨.hbm, 117, rfl⟩
abbrev main_call0_v2 : Ref sig .tc := ⟨.hbm, 118, rfl⟩
abbrev main_call0_v3 : Ref sig .tc := ⟨.hbm, 119, rfl⟩
abbrev main_call0_v4 : Ref sig .tc := ⟨.hbm, 120, rfl⟩
abbrev main_call0_v5 : Ref sig .tc := ⟨.hbm, 121, rfl⟩
abbrev main_call0_v6 : Ref sig .tc := ⟨.hbm, 122, rfl⟩
abbrev main_call0_v7 : Ref sig .tc := ⟨.hbm, 123, rfl⟩
abbrev main_call0_cst_1 : Ref sig .tc := ⟨.hbm, 124, rfl⟩
abbrev main_call0_v8 : Ref sig .tc := ⟨.hbm, 125, rfl⟩
abbrev main_call0_cst_2 : Ref sig .tc := ⟨.hbm, 126, rfl⟩
abbrev main_call0_v9 : Ref sig .tc := ⟨.hbm, 127, rfl⟩
abbrev main_call0_v10 : Ref sig .tc := ⟨.hbm, 128, rfl⟩
abbrev main_call0_v11 : Ref sig .tc := ⟨.hbm, 129, rfl⟩
abbrev main_call0_cst_3 : Ref sig .tc := ⟨.hbm, 130, rfl⟩
abbrev main_call0_v12 : Ref sig .tc := ⟨.hbm, 131, rfl⟩
abbrev main_call0_cst_4 : Ref sig .tc := ⟨.hbm, 132, rfl⟩
abbrev main_call0_call0_v0 : Ref sig .tc := ⟨.hbm, 133, rfl⟩
abbrev main_call0_call0_v1 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_cst_12 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_13 : Ref sig .tc := ⟨.hbm, 156, rfl⟩
abbrev main_v103 : Ref sig .tc := ⟨.hbm, 157, rfl⟩
abbrev main_cst_14 : Ref sig .tc := ⟨.hbm, 158, rfl⟩
abbrev main_v104 : Ref sig .tc := ⟨.hbm, 159, rfl⟩
abbrev main_v105 : Ref sig .tc := ⟨.hbm, 160, rfl⟩
abbrev main_c_15 : Ref sig .tc := ⟨.hbm, 161, rfl⟩
abbrev main_call1_cst : Ref sig .tc := ⟨.hbm, 162, rfl⟩
abbrev main_call1_v0 : Ref sig .tc := ⟨.hbm, 163, rfl⟩
abbrev main_call1_v1 : Ref sig .tc := ⟨.hbm, 164, rfl⟩
abbrev main_call1_cst_0 : Ref sig .tc := ⟨.hbm, 165, rfl⟩
abbrev main_call1_v2 : Ref sig .tc := ⟨.hbm, 166, rfl⟩
abbrev main_call1_v3 : Ref sig .tc := ⟨.hbm, 167, rfl⟩
abbrev main_call1_v4 : Ref sig .tc := ⟨.hbm, 168, rfl⟩
abbrev main_call1_v5 : Ref sig .tc := ⟨.hbm, 169, rfl⟩
abbrev main_call1_v6 : Ref sig .tc := ⟨.hbm, 170, rfl⟩
abbrev main_call1_v7 : Ref sig .tc := ⟨.hbm, 171, rfl⟩
abbrev main_call1_cst_1 : Ref sig .tc := ⟨.hbm, 172, rfl⟩
abbrev main_call1_v8 : Ref sig .tc := ⟨.hbm, 173, rfl⟩
abbrev main_call1_cst_2 : Ref sig .tc := ⟨.hbm, 174, rfl⟩
abbrev main_call1_v9 : Ref sig .tc := ⟨.hbm, 175, rfl⟩
abbrev main_call1_v10 : Ref sig .tc := ⟨.hbm, 176, rfl⟩
abbrev main_call1_v11 : Ref sig .tc := ⟨.hbm, 177, rfl⟩
abbrev main_call1_cst_3 : Ref sig .tc := ⟨.hbm, 178, rfl⟩
abbrev main_call1_v12 : Ref sig .tc := ⟨.hbm, 179, rfl⟩
abbrev main_call1_cst_4 : Ref sig .tc := ⟨.hbm, 180, rfl⟩
abbrev main_call1_call0_v0 : Ref sig .tc := ⟨.hbm, 181, rfl⟩
abbrev main_call1_call0_v1 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_cst_16 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_cst_17 : Ref sig .tc := ⟨.hbm, 200, rfl⟩
abbrev main_v122 : Ref sig .tc := ⟨.hbm, 201, rfl⟩
abbrev main_cst_18 : Ref sig .tc := ⟨.hbm, 202, rfl⟩
abbrev main_v123 : Ref sig .tc := ⟨.hbm, 203, rfl⟩
abbrev main_v124 : Ref sig .tc := ⟨.hbm, 204, rfl⟩
abbrev main_cst_19 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩

abbrev nD : Nat := 1
abbrev τ : Topo := Topo.v7x

variable {F : FTy → Type} [FloatOps F]

class Facts₀ : Prop where
  shapeCasts_S8192x39x1_S8192x39 : S8192x39x1.ShapeCasts S8192x39
  slices_S8192x39_S8192x13_0_0 : S8192x39.Slices ![0, 0] S8192x13
  slices_S8192x39_S8192x26_0_13 : S8192x39.Slices ![0, 13] S8192x26
  bcast_S8192x13_S8192x13x1_0_1 : S8192x13.BroadcastsInDim S8192x13x1 (![0, 1] : Fin 2 → Fin S8192x13x1.rank)
  bcast_S13x64_S1x13x64_1_2 : S13x64.BroadcastsInDim S1x13x64 (![1, 2] : Fin 2 → Fin S1x13x64.rank)
  bcast_S8192x13x1_S8192x13x64_0_1_2 : S8192x13x1.BroadcastsInDim S8192x13x64 (![0, 1, 2] : Fin 3 → Fin S8192x13x64.rank)
  bcast_S1x13x64_S8192x13x64_0_1_2 : S1x13x64.BroadcastsInDim S8192x13x64 (![0, 1, 2] : Fin 3 → Fin S8192x13x64.rank)
  bcast_S_S26 : S_.BroadcastsInDim S26 (![] : Fin 0 → Fin S26.rank)
  bcast_S_S8192x26 : S_.BroadcastsInDim S8192x26 (![] : Fin 0 → Fin S8192x26.rank)
  bcast_S26_S8192x26_1 : S26.BroadcastsInDim S8192x26 (![1] : Fin 1 → Fin S8192x26.rank)
  bcast_S8192x26_S8192x26x1_0_1 : S8192x26.BroadcastsInDim S8192x26x1 (![0, 1] : Fin 2 → Fin S8192x26x1.rank)
  concatenates_S8192x26x1_S8192x26x1_S8192x26x2_d2 : Shape.Concatenates [S8192x26x1, S8192x26x1] S8192x26x2 2
  bcast_S8192x26x1_S8192x26x64_0_1_2 : S8192x26x1.BroadcastsInDim S8192x26x64 (![0, 1, 2] : Fin 3 → Fin S8192x26x64.rank)
  shapeCasts_S8192x13x64_S8192x832 : S8192x13x64.ShapeCasts S8192x832
  shapeCasts_S8192x26x64_S8192x1664 : S8192x26x64.ShapeCasts S8192x1664
  concatenates_S8192x832_S8192x1664_S8192x2496_d1 : Shape.Concatenates [S8192x832, S8192x1664] S8192x2496 1
  concatenates_S8192x13x64_S8192x26x64_S8192x39x64_d1 : Shape.Concatenates [S8192x13x64, S8192x26x64] S8192x39x64 1
  reducesTo_S8192x39x64_S8192x64_d1 : S8192x39x64.ReducesTo [1] S8192x64
  h_S_ : 0 < S_.numel
  bcast_S_S8192x64 : S_.BroadcastsInDim S8192x64 (![] : Fin 0 → Fin S8192x64.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S512_d0 : S8192x512.ReducesTo [0] S512
  bcast_S_S512 : S_.BroadcastsInDim S512 (![] : Fin 0 → Fin S512.rank)
  bcast_S_S1x512 : S_.BroadcastsInDim S1x512 (![] : Fin 0 → Fin S1x512.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S256_d0 : S8192x256.ReducesTo [0] S256
  bcast_S_S256 : S_.BroadcastsInDim S256 (![] : Fin 0 → Fin S256.rank)
  bcast_S_S1x256 : S_.BroadcastsInDim S1x256 (![] : Fin 0 → Fin S1x256.rank)
  reducesTo_S8192x2496_S8192_d1 : S8192x2496.ReducesTo [1] S8192
  reducesTo_S8192x64_S8192_d1 : S8192x64.ReducesTo [1] S8192
  reducesTo_S8192x256_S8192_d1 : S8192x256.ReducesTo [1] S8192
  gather_S26x40000x64_S8192x26x2_S8192x26x64_2_01_n_n_01_2_1164_wf : GatherDims.WF S26x40000x64 S8192x26x2 S8192x26x64 [2] [0, 1] [] [0, 1] [] 2 ![1, 1, 64]
  dot_S8192x2496_S2496x512_S8192x512_1_0_0_1_n_n_wf : DotDims.WF S8192x2496 S2496x512 S8192x512 [1] [0] [0] [1] [] []
  dot_S8192x512_S512x256_S8192x256_1_0_0_1_n_n_wf : DotDims.WF S8192x512 S512x256 S8192x256 [1] [0] [0] [1] [] []

variable [Facts₀]

def gather_S26x40000x64_S8192x26x2_S8192x26x64_2_01_n_n_01_2_1164 : GatherDims S26x40000x64 S8192x26x2 S8192x26x64 where
  offsetDims := [2]
  collapsedSliceDims := [0, 1]
  operandBatchingDims := []
  startIndicesBatchingDims := []
  startIndexMap := [0, 1]
  indexVectorDim := 2
  sliceSizes := ![1, 1, 64]
  wf := gather_S26x40000x64_S8192x26x2_S8192x26x64_2_01_n_n_01_2_1164_wf
def dot_S8192x2496_S2496x512_S8192x512_1_0_0_1_n_n : DotDims S8192x2496 S2496x512 S8192x512 where
  lhsContracting := [1]
  rhsContracting := [0]
  lhsNonContracting := [0]
  rhsNonContracting := [1]
  lhsBatch := []
  rhsBatch := []
  wf := dot_S8192x2496_S2496x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf

class Facts : Prop extends Facts₀ where

variable [Facts]
-- ==== Proof.KRun.lean ====
/-
  The idealized kernel's run with its result named.  The program is two pipelined regions among stretches of host
  operations; the buffer contents at each boundary are a fold from the launch memory, and after the last stretch the
  contents are `Gen.W9 m ρ c`.  The frame theorem reads the seventeen argument arrays back through that fold; the run
  below reads, in addition, the result buffer `main_v72` at `W9`: every weakly fair execution terminates, nothing
  faults, the result holds `W9 m ρ c` at its reference and the arguments are as launched.
-/
import proofs.«131473_j31112743092597_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its nine segments, with the last boundary's contents read at the result buffer and at
    each argument. -/
theorem run_main : θ_run defs (onTc (τ := τ) (main (F := F))) ⟨m, fun _ => 0, ρ⟩ (fun r => ∀ c : Dev nD,
      r.2.mem ((c.tc : Thread nD τ).loc main_v72) = W9 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v72 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c)⟩)

end Cert.KernelIdeal.KRun

end
-- ==== Proof.RefOps.lean ====
/- The reference program's host operations as lists. @main is a straight line of operations: its own, and, in the
   place of each call of the variance function (and of the selection function that one calls), the callee's
   operations over that call's buffers. The line is cut into five consecutive segments; beside each segment, the
   buffers it writes, one per operation, in order. -/
import proofs.«131473_j31112743092597_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The embedding stage: the index and value columns, the two table look-ups, the first-order and second-order products, the concatenations, and the first affine layer `x · W₁ + b₁` (values %0 … %79). -/
abbrev opsA : List (HloOp τ sig (Elt F)) :=
  [ StableHlo.reshape main_arg0 main_v0 rfl shapeCasts_S8192x39x1_S8192x39,
    StableHlo.unary main_v0 main_v1 ((extractStridedSlice S8192x13 ![0, 0] · slices_S8192x39_S8192x13_0_0) : (⟨S8192x39, .i32⟩ : BufTy).Contents (Elt F) → (⟨S8192x13, .i32⟩ : BufTy).Contents (Elt F)),
    StableHlo.unary main_v1 main_v2 (sitofp .f32 : (⟨S8192x13, .i32⟩ : BufTy).Contents (Elt F) → (⟨S8192x13, .f32⟩ : BufTy).Contents (Elt F)),
    StableHlo.unary main_v0 main_v3 ((extractStridedSlice S8192x26 ![0, 13] · slices_S8192x39_S8192x26_0_13) : (⟨S8192x39, .i32⟩ : BufTy).Contents (Elt F) → (⟨S8192x26, .i32⟩ : BufTy).Contents (Elt F)),
    StableHlo.unary main_arg1 main_v4 ((extractStridedSlice S8192x13 ![0, 0] · slices_S8192x39_S8192x13_0_0) : (⟨S8192x39, .f32⟩ : BufTy).Contents (Elt F) → (⟨S8192x13, .f32⟩ : BufTy).Contents (Elt F)),
    StableHlo.unary main_arg1 main_v5 ((extractStridedSlice S8192x26 ![0, 13] · slices_S8192x39_S8192x26_0_13) : (⟨S8192x39, .f32⟩ : BufTy).Contents (Elt F) → (⟨S8192x26, .f32⟩ : BufTy).Contents (Elt F)),
    StableHlo.nullary main_v6 (iotaInDim S26 32 0),
    StableHlo.unary main_v2 main_v7 (broadcastInDim S8192x13x1 ![0, 1] bcast_S8192x13_S8192x13x1_0_1 : (⟨S8192x13, .f32⟩ : BufTy).Contents (Elt F) → (⟨S8192x13x1, .f32⟩ : BufTy).Contents (Elt F)),
    StableHlo.unary main_arg2 main_v8 (broadcastInDim S1x13x64 ![1, 2] bcast_S13x64_S1x13x64_1_2 : (⟨S13x64, .f32⟩ : BufTy).Contents (Elt F) → (⟨S1x13x64, .f32⟩ : BufTy).Contents (Elt F)),
    StableHlo.unary main_v7 main_v9 (broadcastInDim S8192x13x64 ![0, 1, 2] bcast_S8192x13x1_S8192x13x64_0_1_2 : (⟨S8192x13x1, .f32⟩ : BufTy).Contents (Elt F) → (⟨S8192x13x64, .f32⟩ : BufTy).Contents (Elt F)),
    StableHlo.unary main_v8 main_v10 (broadcastInDim S8192x13x64 ![0, 1, 2] bcast_S1x13x64_S8192x13x64_0_1_2 : (⟨S1x13x64, .f32⟩ : BufTy).Contents (Elt F) → (⟨S8192x13x64, .f32⟩ : BufTy).Contents (Elt F)),
    StableHlo.binary main_v9 main_v10 main_v11 (mulf : (⟨S8192x13x64, .f32⟩ : BufTy).Contents (Elt F) → (⟨S8192x13x64, .f32⟩ : BufTy).Contents (Elt F) → (⟨S8192x13x64, .f32⟩ : BufTy).Contents (Elt F)),
    StableHlo.unary main_arg3 main_v12 (broadcastInDim S1x13x64 ![1, 2] bcast_S13x64_S1x13x64_1_2 : (⟨S13x64, .f32⟩ : BufTy).Contents (Elt F) → (⟨S1x13x64, .f32⟩ : BufTy).Contents (Elt F)),
    StableHlo.unary main_v12 main_v13 (broadcastInDim S8192x13x64 ![0, 1, 2] bcast_S1x13x64_S8192x13x64_0_1_2 : (⟨S1x13x64, .f32⟩ : BufTy).Contents (Elt F) → (⟨S8192x13x64, .f32⟩ : BufTy).Contents (Elt F)),
    StableHlo.binary main_v11 main_v13 main_v14 (addf : (⟨S8192x13x64, .f32⟩ : BufTy).Contents (Elt F) → (⟨S8192x13x64, .f32⟩ : BufTy).Contents (Elt F) → (⟨S8192x13x64, .f32⟩ : BufTy).Contents (Elt F)),
    StableHlo.unary main_v4 main_v15 (broadcastInDim S8192x13x1 ![0, 1] bcast_S8192x13_S8192x13x1_0_1 : (⟨S8192x13, .f32⟩ : BufTy).Contents (Elt F) → (⟨S8192x13x1, .f32⟩ : BufTy).Contents (Elt F)),
    StableHlo.unary main_v15 main_v16 (broadcastInDim S8192x13x64 ![0, 1, 2] bcast_S8192x13x1_S8192x13x64_0_1_2 : (⟨S8192x13x1, .f32⟩ : BufTy).Contents (Elt F) → (⟨S8192x13x64, .f32⟩ : BufTy).Contents (Elt F)),
    StableHlo.binary main_v14 main_v16 main_v17 (mulf : (⟨S8192x13x64, .f32⟩ : BufTy).Contents (Elt F) → (⟨S8192x13x64, .f32⟩ : BufTy).Contents (Elt F) → (⟨S8192x13x64, .f32⟩ : BufTy).Contents (Elt F)),
    StableHlo.nullary main_c (constantI S_ 32 0#32),
    StableHlo.unary main_c main_v18 (broadcastInDim S26 ![] bcast_S_S26 : (⟨S_, .i32⟩ : BufTy).Contents (Elt F) → (⟨S26, .i32⟩ : BufTy).Contents (Elt F)),
    StableHlo.binary main_v6 main_v18 main_v19 (cmpi .slt : (⟨S26, .i32⟩ : BufTy).Contents (Elt F) → (⟨S26, .i32⟩ : BufTy).Contents (Elt F) → (⟨S26, .i1⟩ : BufTy).Contents (Elt F)),
    StableHlo.nullary main_c_0 (constantI S_ 32 26#32),
    StableHlo.unary main_c_0 main_v20 (broadcastInDim S26 ![] bcast_S_S26 : (⟨S_, .i32⟩ : BufTy).Contents (Elt F) → (⟨S26, .i32⟩ : BufTy).Contents (Elt F)),
    StableHlo.binary main_v6 main_v20 main_v21 (addi : (⟨S26, .i32⟩ : BufTy).Contents (Elt F) → (⟨S26, .i32⟩ : BufTy).Contents (Elt F) → (⟨S26, .i32⟩ : BufTy).Contents (Elt F)),
    StableHlo.ternary main_v19 main_v21 main_v6 main_v22 (select : (⟨S26, .i1⟩ : BufTy).Contents (Elt F) → (⟨S26, .i32⟩ : BufTy).Contents (Elt F) → (⟨S26, .i32⟩ : BufTy).Contents (Elt F) → (⟨S26, .i32⟩ : BufTy).Contents (Elt F)),
    StableHlo.nullary main_c_1 (constantI S_ 32 0#32),
    StableHlo.unary main_c_1 main_v23 (broadcastInDim S8192x26 ![] bcast_S_S8192x26 : (⟨S_, .i32⟩ : BufTy).Contents (Elt F) → (⟨S8192x26, .i32⟩ : BufTy).Contents (Elt F)),
    StableHlo.binary main_v3 main_v23 main_v24 (cmpi .slt : (⟨S8192x26, .i32⟩ : BufTy).Contents (Elt F) → (⟨S8192x26, .i32⟩ : BufTy).Contents (Elt F) → (⟨S8192x26, .i1⟩ : BufTy).Contents (Elt F)),
    StableHlo.nullary main_c_2 (constantI S_ 32 40000#32),
    StableHlo.unary main_c_2 main_v25 (broadcastInDim S8192x26 ![] bcast_S_S8192x26 : (⟨S_, .i32⟩ : BufTy).Contents (Elt F) → (⟨S8192x26, .i32⟩ : BufTy).Contents (Elt F)),
    StableHlo.binary main_v3 main_v25 main_v26 (addi : (⟨S8192x26, .i32⟩ : BufTy).Contents (Elt F) → (⟨S8192x26, .i32⟩ : BufTy).Contents (Elt F) → (⟨S8192x26, .i32⟩ : BufTy).Contents (Elt F)),
    StableHlo.ternary main_v24 main_v26 main_v3 main_v27 (select : (⟨S8192x26, .i1⟩ : BufTy).Contents (Elt F) → (⟨S8192x26, .i32⟩ : BufTy).Contents (Elt F) → (⟨S8192x26, .i32⟩ : BufTy).Contents (Elt F) → (⟨S8192x26, .i32⟩ : BufTy).Contents (Elt F)),
    StableHlo.unary main_v22 main_v28 (broadcastInDim S8192x26 ![1] bcast_S26_S8192x26_1 : (⟨S26, .i32⟩ : BufTy).Contents (Elt F) → (⟨S8192x26, .i32⟩ : BufTy).Contents (Elt F)),
    StableHlo.unary main_v28 main_v29 (broadcastInDim S8192x26x1 ![0, 1] bcast_S8192x26_S8192x26x1_0_1 : (⟨S8192x26, .i32⟩ : BufTy).Contents (Elt F) → (⟨S8192x26x1, .i32⟩ : BufTy).Contents (Elt F)),
    StableHlo.unary main_v27 main_v30 (broadcastInDim S8192x26x1 ![0, 1] bcast_S8192x26_S8192x26x1_0_1 : (⟨S8192x26, .i32⟩ : BufTy).Contents (Elt F) → (⟨S8192x26x1, .i32⟩ : BufTy).Contents (Elt F)),
    StableHlo.binary main_v29 main_v30 main_v31 ((fun a b => concatenate S8192x26x2 2 [⟨S8192x26x1, a⟩, ⟨S8192x26x1, b⟩] concatenates_S8192x26x1_S8192x26x1_S8192x26x2_d2) : (⟨S8192x26x1, .i32⟩ : BufTy).Contents (Elt F) → (⟨S8192x26x1, .i32⟩ : BufTy).Contents (Elt F) → (⟨S8192x26x2, .i32⟩ : BufTy).Contents (Elt F)),
    StableHlo.binary main_arg4 main_v31 main_v32 ((fun x i => Host.gather gather_S26x40000x64_S8192x26x2_S8192x26x64_2_01_n_n_01_2_1164 x i) : (⟨S26x40000x64, .f32⟩ : BufTy).Contents (Elt F) → (⟨S8192x26x2, .i32⟩ : BufTy).Contents (Elt F) → (⟨S8192x26x64, .f32⟩ : BufTy).Contents (Elt F)),
    StableHlo.unary main_v5 main_v33 (broadcastInDim S8192x26x1 ![0, 1] bcast_S8192x26_S8192x26x1_0_1 : (⟨S8192x26, .f32⟩ : BufTy).Contents (Elt F) → (⟨S8192x26x1, .f32⟩ : BufTy).Contents (Elt F)),
    StableHlo.unary main_v33 main_v34 (broadcastInDim S8192x26x64 ![0, 1, 2] bcast_S8192x26x1_S8192x26x64_0_1_2 : (⟨S8192x26x1, .f32⟩ : BufTy).Contents (Elt F) → (⟨S8192x26x64, .f32⟩ : BufTy).Contents (Elt F)),
    StableHlo.binary main_v32 main_v34 main_v35 (mulf : (⟨S8192x26x64, .f32⟩ : BufTy).Contents (Elt F) → (⟨S8192x26x64, .f32⟩ : BufTy).Contents (Elt F) → (⟨S8192x26x64, .f32⟩ : BufTy).Contents (Elt F)),
    StableHlo.reshape main_v17 main_v36 rfl shapeCasts_S8192x13x64_S8192x832,
    StableHlo.reshape main_v35 main_v37 rfl shapeCasts_S8192x26x64_S8192x1664,
    StableHlo.binary main_v36 main_v37 main_v38 ((fun a b => concatenate S8192x2496 1 [⟨S8192x832, a⟩, ⟨S8192x1664, b⟩] concatenates_S8192x832_S8192x1664_S8192x2496_d1) : (⟨S8192x832, .f32⟩ : BufTy).Contents (Elt F) → (⟨S8192x1664, .f32⟩ : BufTy).Contents (Elt F) → (⟨S8192x2496, .f32⟩ : BufTy).Contents (Elt F)),
    StableHlo.unary main_v2 main_v39 (broadcastInDim S8192x13x1 ![0, 1] bcast_S8192x13_S8192x13x1_0_1 : (⟨S8192x13, .f32⟩ : BufTy).Contents (Elt F) → (⟨S8192x13x1, .f32⟩ : BufTy).Contents (Elt F)),
    StableHlo.unary main_arg5 main_v40 (broadcastInDim S1x13x64 ![1, 2] bcast_S13x64_S1x13x64_1_2 : (⟨S13x64, .f32⟩ : BufTy).Contents (Elt F) → (⟨S1x13x64, .f32⟩ : BufTy).Contents (Elt F)),
    StableHlo.unary main_v39 main_v41 (broadcastInDim S8192x13x64 ![0, 1, 2] bcast_S8192x13x1_S8192x13x64_0_1_2 : (⟨S8192x13x1, .f32⟩ : BufTy).Contents (Elt F) → (⟨S8192x13x64, .f32⟩ : BufTy).Contents (Elt F)),
    StableHlo.unary main_v40 main_v42 (broadcastInDim S8192x13x64 ![0, 1, 2] bcast_S1x13x64_S8192x13x64_0_1_2 : (⟨S1x13x64, .f32⟩ : BufTy).Contents (Elt F) → (⟨S8192x13x64, .f32⟩ : BufTy).Contents (Elt F)),
    StableHlo.binary main_v41 main_v42 main_v43 (mulf : (⟨S8192x13x64, .f32⟩ : BufTy).Contents (Elt F) → (⟨S8192x13x64, .f32⟩ : BufTy).Contents (Elt F) → (⟨S8192x13x64, .f32⟩ : BufTy).Contents (Elt F)),
    StableHlo.unary main_arg6 main_v44 (broadcastInDim S1x13x64 ![1, 2] bcast_S13x64_S1x13x64_1_2 : (⟨S13x64, .f32⟩ : BufTy).Contents (Elt F) → (⟨S1x13x64, .f32⟩ : BufTy).Contents (Elt F)),
    StableHlo.unary main_v44 main_v45 (broadcastInDim S8192x13x64 ![0, 1, 2] bcast_S1x13x64_S8192x13x64_0_1_2 : (⟨S1x13x64, .f32⟩ : BufTy).Contents (Elt F) → (⟨S8192x13x64, .f32⟩ : BufTy).Contents (Elt F)),
    StableHlo.binary main_v43 main_v45 main_v46 (addf : (⟨S8192x13x64, .f32⟩ : BufTy).Contents (Elt F) → (⟨S8192x13x64, .f32⟩ : BufTy).Contents (Elt F) → (⟨S8192x13x64, .f32⟩ : BufTy).Contents (Elt F)),
    StableHlo.nullary main_c_3 (constantI S_ 32 0#32),
    StableHlo.unary main_c_3 main_v47 (broadcastInDim S26 ![] bcast_S_S26 : (⟨S_, .i32⟩ : BufTy).Contents (Elt F) → (⟨S26, .i32⟩ : BufTy).Contents (Elt F)),
    StableHlo.binary main_v6 main_v47 main_v48 (cmpi .slt : (⟨S26, .i32⟩ : BufTy).Contents (Elt F) → (⟨S26, .i32⟩ : BufTy).Contents (Elt F) → (⟨S26, .i1⟩ : BufTy).Contents (Elt F)),
    StableHlo.nullary main_c_4 (constantI S_ 32 26#32),
    StableHlo.unary main_c_4 main_v49 (broadcastInDim S26 ![] bcast_S_S26 : (⟨S_, .i32⟩ : BufTy).Contents (Elt F) → (⟨S26, .i32⟩ : BufTy).Contents (Elt F)),
    StableHlo.binary main_v6 main_v49 main_v50 (addi : (⟨S26, .i32⟩ : BufTy).Contents (Elt F) → (⟨S26, .i32⟩ : BufTy).Contents (Elt F) → (⟨S26, .i32⟩ : BufTy).Contents (Elt F)),
    StableHlo.ternary main_v48 main_v50 main_v6 main_v51 (select : (⟨S26, .i1⟩ : BufTy).Contents (Elt F) → (⟨S26, .i32⟩ : BufTy).Contents (Elt F) → (⟨S26, .i32⟩ : BufTy).Contents (Elt F) → (⟨S26, .i32⟩ : BufTy).Contents (Elt F)),
    StableHlo.nullary main_c_5 (constantI S_ 32 0#32),
    StableHlo.unary main_c_5 main_v52 (broadcastInDim S8192x26 ![] bcast_S_S8192x26 : (⟨S_, .i32⟩ : BufTy).Contents (Elt F) → (⟨S8192x26, .i32⟩ : BufTy).Contents (Elt F)),
    StableHlo.binary main_v3 main_v52 main_v53 (cmpi .slt : (⟨S8192x26, .i32⟩ : BufTy).Contents (Elt F) → (⟨S8192x26, .i32⟩ : BufTy).Contents (Elt F) → (⟨S8192x26, .i1⟩ : BufTy).Contents (Elt F)),
    StableHlo.nullary main_c_6 (constantI S_ 32 40000#32),
    StableHlo.unary main_c_6 main_v54 (broadcastInDim S8192x26 ![] bcast_S_S8192x26 : (⟨S_, .i32⟩ : BufTy).Contents (Elt F) → (⟨S8192x26, .i32⟩ : BufTy).Contents (Elt F)),
    StableHlo.binary main_v3 main_v54 main_v55 (addi : (⟨S8192x26, .i32⟩ : BufTy).Contents (Elt F) → (⟨S8192x26, .i32⟩ : BufTy).Contents (Elt F) → (⟨S8192x26, .i32⟩ : BufTy).Contents (Elt F)),
    StableHlo.ternary main_v53 main_v55 main_v3 main_v56 (select : (⟨S8192x26, .i1⟩ : BufTy).Contents (Elt F) → (⟨S8192x26, .i32⟩ : BufTy).Contents (Elt F) → (⟨S8192x26, .i32⟩ : BufTy).Contents (Elt F) → (⟨S8192x26, .i32⟩ : BufTy).Contents (Elt F)),
    StableHlo.unary main_v51 main_v57 (broadcastInDim S8192x26 ![1] bcast_S26_S8192x26_1 : (⟨S26, .i32⟩ : BufTy).Contents (Elt F) → (⟨S8192x26, .i32⟩ : BufTy).Contents (Elt F)),
    StableHlo.unary main_v57 main_v58 (broadcastInDim S8192x26x1 ![0, 1] bcast_S8192x26_S8192x26x1_0_1 : (⟨S8192x26, .i32⟩ : BufTy).Contents (Elt F) → (⟨S8192x26x1, .i32⟩ : BufTy).Contents (Elt F)),
    StableHlo.unary main_v56 main_v59 (broadcastInDim S8192x26x1 ![0, 1] bcast_S8192x26_S8192x26x1_0_1 : (⟨S8192x26, .i32⟩ : BufTy).Contents (Elt F) → (⟨S8192x26x1, .i32⟩ : BufTy).Contents (Elt F)),
    StableHlo.binary main_v58 main_v59 main_v60 ((fun a b => concatenate S8192x26x2 2 [⟨S8192x26x1, a⟩, ⟨S8192x26x1, b⟩] concatenates_S8192x26x1_S8192x26x1_S8192x26x2_d2) : (⟨S8192x26x1, .i32⟩ : BufTy).Contents (Elt F) → (⟨S8192x26x1, .i32⟩ : BufTy).Contents (Elt F) → (⟨S8192x26x2, .i32⟩ : BufTy).Contents (Elt F)),
    StableHlo.binary main_arg7 main_v60 main_v61 ((fun x i => Host.gather gather_S26x40000x64_S8192x26x2_S8192x26x64_2_01_n_n_01_2_1164 x i) : (⟨S26x40000x64, .f32⟩ : BufTy).Contents (Elt F) → (⟨S8192x26x2, .i32⟩ : BufTy).Contents (Elt F) → (⟨S8192x26x64, .f32⟩ : BufTy).Contents (Elt F)),
    StableHlo.unary main_v5 main_v62 (broadcastInDim S8192x26x1 ![0, 1] bcast_S8192x26_S8192x26x1_0_1 : (⟨S8192x26, .f32⟩ : BufTy).Contents (Elt F) → (⟨S8192x26x1, .f32⟩ : BufTy).Contents (Elt F)),
    StableHlo.unary main_v62 main_v63 (broadcastInDim S8192x26x64 ![0, 1, 2] bcast_S8192x26x1_S8192x26x64_0_1_2 : (⟨S8192x26x1, .f32⟩ : BufTy).Contents (Elt F) → (⟨S8192x26x64, .f32⟩ : BufTy).Contents (Elt F)),
    StableHlo.binary main_v61 main_v63 main_v64 (mulf : (⟨S8192x26x64, .f32⟩ : BufTy).Contents (Elt F) → (⟨S8192x26x64, .f32⟩ : BufTy).Contents (Elt F) → (⟨S8192x26x64, .f32⟩ : BufTy).Contents (Elt F)),
    StableHlo.binary main_v46 main_v64 main_v65 ((fun a b => concatenate S8192x39x64 1 [⟨S8192x13x64, a⟩, ⟨S8192x26x64, b⟩] concatenates_S8192x13x64_S8192x26x64_S8192x39x64_d1) : (⟨S8192x13x64, .f32⟩ : BufTy).Contents (Elt F) → (⟨S8192x26x64, .f32⟩ : BufTy).Contents (Elt F) → (⟨S8192x39x64, .f32⟩ : BufTy).Contents (Elt F)),
    StableHlo.nullary main_cst (constant S_ .f32 0x00000000#32),
    StableHlo.binary main_v65 main_cst main_v66 ((fun x v => Host.reduceAdd x v reducesTo_S8192x39x64_S8192x64_d1 h_S_) : (⟨S8192x39x64, .f32⟩ : BufTy).Contents (Elt F) → (⟨S_, .f32⟩ : BufTy).Contents (Elt F) → (⟨S8192x64, .f32⟩ : BufTy).Contents (Elt F)),
    StableHlo.binary main_v66 main_v66 main_v67 (mulf : (⟨S8192x64, .f32⟩ : BufTy).Contents (Elt F) → (⟨S8192x64, .f32⟩ : BufTy).Contents (Elt F) → (⟨S8192x64, .f32⟩ : BufTy).Contents (Elt F)),
    StableHlo.binary main_v65 main_v65 main_v68 (mulf : (⟨S8192x39x64, .f32⟩ : BufTy).Contents (Elt F) → (⟨S8192x39x64, .f32⟩ : BufTy).Contents (Elt F) → (⟨S8192x39x64, .f32⟩ : BufTy).Contents (Elt F)),
    StableHlo.nullary main_cst_7 (constant S_ .f32 0x00000000#32),
    StableHlo.binary main_v68 main_cst_7 main_v69 ((fun x v => Host.reduceAdd x v reducesTo_S8192x39x64_S8192x64_d1 h_S_) : (⟨S8192x39x64, .f32⟩ : BufTy).Contents (Elt F) → (⟨S_, .f32⟩ : BufTy).Contents (Elt F) → (⟨S8192x64, .f32⟩ : BufTy).Contents (Elt F)),
    StableHlo.binary main_v67 main_v69 main_v70 (subf : (⟨S8192x64, .f32⟩ : BufTy).Contents (Elt F) → (⟨S8192x64, .f32⟩ : BufTy).Contents (Elt F) → (⟨S8192x64, .f32⟩ : BufTy).Contents (Elt F)),
    StableHlo.nullary main_cst_8 (constant S_ .f32 0x3F000000#32),
    StableHlo.unary main_cst_8 main_v71 (broadcastInDim S8192x64 ![] bcast_S_S8192x64 : (⟨S_, .f32⟩ : BufTy).Contents (Elt F) → (⟨S8192x64, .f32⟩ : BufTy).Contents (Elt F)),
    StableHlo.binary main_v71 main_v70 main_v72 (mulf : (⟨S8192x64, .f32⟩ : BufTy).Contents (Elt F) → (⟨S8192x64, .f32⟩ : BufTy).Contents (Elt F) → (⟨S8192x64, .f32⟩ : BufTy).Contents (Elt F)),
    StableHlo.reshape main_v46 main_v73 rfl shapeCasts_S8192x13x64_S8192x832,
    StableHlo.reshape main_v64 main_v74 rfl shapeCasts_S8192x26x64_S8192x1664,
    StableHlo.binary main_v73 main_v74 main_v75 ((fun a b => concatenate S8192x2496 1 [⟨S8192x832, a⟩, ⟨S8192x1664, b⟩] concatenates_S8192x832_S8192x1664_S8192x2496_d1) : (⟨S8192x832, .f32⟩ : BufTy).Contents (Elt F) → (⟨S8192x1664, .f32⟩ : BufTy).Contents (Elt F) → (⟨S8192x2496, .f32⟩ : BufTy).Contents (Elt F)),
    StableHlo.binary main_v75 main_arg8 main_v76 ((fun l r => Host.dotGeneral dot_S8192x2496_S2496x512_S8192x512_1_0_0_1_n_n none l r) : (⟨S8192x2496, .f32⟩ : BufTy).Contents (Elt F) → (⟨S2496x512, .f32⟩ : BufTy).Contents (Elt F) → (⟨S8192x512, .f32⟩ : BufTy).Contents (Elt F)),
    StableHlo.unary main_arg9 main_v77 (broadcastInDim S1x512 ![1] bcast_S512_S1x512_1 : (⟨S512, .f32⟩ : BufTy).Contents (Elt F) → (⟨S1x512, .f32⟩ : BufTy).Contents (Elt F)),
    StableHlo.unary main_v77 main_v78 (broadcastInDim S8192x512 ![0, 1] bcast_S1x512_S8192x512_0_1 : (⟨S1x512, .f32⟩ : BufTy).Contents (Elt F) → (⟨S8192x512, .f32⟩ : BufTy).Contents (Elt F)),
    StableHlo.binary main_v76 main_v78 main_v79 (addf : (⟨S8192x512, .f32⟩ : BufTy).Contents (Elt F) → (⟨S8192x512, .f32⟩ : BufTy).Contents (Elt F) → (⟨S8192x512, .f32⟩ : BufTy).Contents (Elt F)) ]

/-- The first normalisation over the batch axis: mean, the biased variance (the variance function's operations standing in its call's place), scale, shift (values %cst_9 … %98). -/
abbrev opsB : List (HloOp τ sig (Elt F)) :=
  [ StableHlo.nullary main_cst_9 (constant S_ .f32 0x00000000#32),
    StableHlo.binary main_v79 main_cst_9 main_v80 ((fun x v => Host.reduceAdd x v reducesTo_S8192x512_S512_d0 h_S_) : (⟨S8192x512, .f32⟩ : BufTy).Contents (Elt F) → (⟨S_, .f32⟩ : BufTy).Contents (Elt F) → (⟨S512, .f32⟩ : BufTy).Contents (Elt F)),
    StableHlo.nullary main_cst_10 (constant S_ .f32 0x46000000#32),
    StableHlo.unary main_cst_10 main_v81 (broadcastInDim S512 ![] bcast_S_S512 : (⟨S_, .f32⟩ : BufTy).Contents (Elt F) → (⟨S512, .f32⟩ : BufTy).Contents (Elt F)),
    StableHlo.binary main_v80 main_v81 main_v82 (Host.divf : (⟨S512, .f32⟩ : BufTy).Contents (Elt F) → (⟨S512, .f32⟩ : BufTy).Contents (Elt F) → (⟨S512, .f32⟩ : BufTy).Contents (Elt F)),
    StableHlo.nullary main_c_11 (constantI S_ 32 0#32),
    StableHlo.TRef.nullary (.of main_call0_cst : StableHlo.TRef sig ⟨S_, .f32⟩) (constant S_ .f32 0x00000000#32),
    StableHlo.TRef.binary (.of main_v79 : StableHlo.TRef sig ⟨S8192x512, .f32⟩) (.of main_call0_cst : StableHlo.TRef sig ⟨S_, .f32⟩) (.of main_call0_v0 : StableHlo.TRef sig ⟨S512, .f32⟩) (fun x v => Host.reduceAdd x v reducesTo_S8192x512_S512_d0 h_S_),
    StableHlo.TRef.unary (.of main_call0_v0 : StableHlo.TRef sig ⟨S512, .f32⟩) (.of main_call0_v1 : StableHlo.TRef sig ⟨S1x512, .f32⟩) (broadcastInDim S1x512 ![1] bcast_S512_S1x512_1),
    StableHlo.TRef.nullary (.of main_call0_cst_0 : StableHlo.TRef sig ⟨S_, .f32⟩) (constant S_ .f32 0x46000000#32),
    StableHlo.TRef.unary (.of main_call0_cst_0 : StableHlo.TRef sig ⟨S_, .f32⟩) (.of main_call0_v2 : StableHlo.TRef sig ⟨S1x512, .f32⟩) (broadcastInDim S1x512 ![] bcast_S_S1x512),
    StableHlo.TRef.binary (.of main_call0_v1 : StableHlo.TRef sig ⟨S1x512, .f32⟩) (.of main_call0_v2 : StableHlo.TRef sig ⟨S1x512, .f32⟩) (.of main_call0_v3 : StableHlo.TRef sig ⟨S1x512, .f32⟩) Host.divf,
    StableHlo.TRef.unary (.of main_call0_v3 : StableHlo.TRef sig ⟨S1x512, .f32⟩) (.of main_call0_v4 : StableHlo.TRef sig ⟨S8192x512, .f32⟩) (broadcastInDim S8192x512 ![0, 1] bcast_S1x512_S8192x512_0_1),
    StableHlo.TRef.binary (.of main_v79 : StableHlo.TRef sig ⟨S8192x512, .f32⟩) (.of main_call0_v4 : StableHlo.TRef sig ⟨S8192x512, .f32⟩) (.of main_call0_v5 : StableHlo.TRef sig ⟨S8192x512, .f32⟩) subf,
    StableHlo.TRef.binary (.of main_call0_v5 : StableHlo.TRef sig ⟨S8192x512, .f32⟩) (.of main_call0_v5 : StableHlo.TRef sig ⟨S8192x512, .f32⟩) (.of main_call0_v6 : StableHlo.TRef sig ⟨S8192x512, .f32⟩) mulf,
    StableHlo.TRef.unary (.of main_c_11 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x46000000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S8192x512, .f32⟩) (.of main_call0_cst_2 : StableHlo.TRef sig ⟨S_, .f32⟩) (.of main_call0_v9 : StableHlo.TRef sig ⟨S512, .f32⟩) (fun x v => Host.reduceAdd x v reducesTo_S8192x512_S512_d0 h_S_),
    StableHlo.TRef.unary (.of main_call0_v8 : StableHlo.TRef sig ⟨S_, .f32⟩) (.of main_call0_v10 : StableHlo.TRef sig ⟨S512, .f32⟩) (broadcastInDim S512 ![] bcast_S_S512),
    StableHlo.TRef.binary (.of main_call0_v9 : StableHlo.TRef sig ⟨S512, .f32⟩) (.of main_call0_v10 : StableHlo.TRef sig ⟨S512, .f32⟩) (.of main_call0_v11 : StableHlo.TRef sig ⟨S512, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S512, .f32⟩) (broadcastInDim S512 ![] bcast_S_S512),
    StableHlo.TRef.ternary (.of main_call0_v12 : StableHlo.TRef sig ⟨S_, .i1⟩) (.of main_call0_v11 : StableHlo.TRef sig ⟨S512, .f32⟩) (.of main_call0_call0_v1 : StableHlo.TRef sig ⟨S512, .f32⟩) (.of main_v83 : StableHlo.TRef sig ⟨S512, .f32⟩) (fun p a b => select (broadcastInDim S512 ![] bcast_S_S512 p) a b),
    StableHlo.unary main_v82 main_v84 (broadcastInDim S1x512 ![1] bcast_S512_S1x512_1 : (⟨S512, .f32⟩ : BufTy).Contents (Elt F) → (⟨S1x512, .f32⟩ : BufTy).Contents (Elt F)),
    StableHlo.unary main_v84 main_v85 (broadcastInDim S8192x512 ![0, 1] bcast_S1x512_S8192x512_0_1 : (⟨S1x512, .f32⟩ : BufTy).Contents (Elt F) → (⟨S8192x512, .f32⟩ : BufTy).Contents (Elt F)),
    StableHlo.binary main_v79 main_v85 main_v86 (subf : (⟨S8192x512, .f32⟩ : BufTy).Contents (Elt F) → (⟨S8192x512, .f32⟩ : BufTy).Contents (Elt F) → (⟨S8192x512, .f32⟩ : BufTy).Contents (Elt F)),
    StableHlo.unary main_arg10 main_v87 (broadcastInDim S1x512 ![1] bcast_S512_S1x512_1 : (⟨S512, .f32⟩ : BufTy).Contents (Elt F) → (⟨S1x512, .f32⟩ : BufTy).Contents (Elt F)),
    StableHlo.unary main_v87 main_v88 (broadcastInDim S8192x512 ![0, 1] bcast_S1x512_S8192x512_0_1 : (⟨S1x512, .f32⟩ : BufTy).Contents (Elt F) → (⟨S8192x512, .f32⟩ : BufTy).Contents (Elt F)),
    StableHlo.binary main_v88 main_v86 main_v89 (mulf : (⟨S8192x512, .f32⟩ : BufTy).Contents (Elt F) → (⟨S8192x512, .f32⟩ : BufTy).Contents (Elt F) → (⟨S8192x512, .f32⟩ : BufTy).Contents (Elt F)),
    StableHlo.nullary main_cst_12 (constant S_ .f32 0x3727C5AC#32),
    StableHlo.unary main_cst_12 main_v90 (broadcastInDim S512 ![] bcast_S_S512 : (⟨S_, .f32⟩ : BufTy).Contents (Elt F) → (⟨S512, .f32⟩ : BufTy).Contents (Elt F)),
    StableHlo.binary main_v83 main_v90 main_v91 (addf : (⟨S512, .f32⟩ : BufTy).Contents (Elt F) → (⟨S512, .f32⟩ : BufTy).Contents (Elt F) → (⟨S512, .f32⟩ : BufTy).Contents (Elt F)),
    StableHlo.unary main_v91 main_v92 (Host.rsqrt : (⟨S512, .f32⟩ : BufTy).Contents (Elt F) → (⟨S512, .f32⟩ : BufTy).Contents (Elt F)),
    StableHlo.unary main_v92 main_v93 (broadcastInDim S1x512 ![1] bcast_S512_S1x512_1 : (⟨S512, .f32⟩ : BufTy).Contents (Elt F) → (⟨S1x512, .f32⟩ : BufTy).Contents (Elt F)),
    StableHlo.unary main_v93 main_v94 (broadcastInDim S8192x512 ![0, 1] bcast_S1x512_S8192x512_0_1 : (⟨S1x512, .f32⟩ : BufTy).Contents (Elt F) → (⟨S8192x512, .f32⟩ : BufTy).Contents (Elt F)),
    StableHlo.binary main_v89 main_v94 main_v95 (mulf : (⟨S8192x512, .f32⟩ : BufTy).Contents (Elt F) → (⟨S8192x512, .f32⟩ : BufTy).Contents (Elt F) → (⟨S8192x512, .f32⟩ : BufTy).Contents (Elt F)),
    StableHlo.unary main_arg11 main_v96 (broadcastInDim S1x512 ![1] bcast_S512_S1x512_1 : (⟨S512, .f32⟩ : BufTy).Contents (Elt F) → (⟨S1x512, .f32⟩ : BufTy).Contents (Elt F)),
    StableHlo.unary main_v96 main_v97 (broadcastInDim S8192x512 ![0, 1] bcast_S1x512_S8192x512_0_1 : (⟨S1x512, .f32⟩ : BufTy).Contents (Elt F) → (⟨S8192x512, .f32⟩ : BufTy).Contents (Elt F)),
    StableHlo.binary main_v95 main_v97 main_v98 (addf : (⟨S8192x512, .f32⟩ : BufTy).Contents (Elt F) → (⟨S8192x512, .f32⟩ : BufTy).Contents (Elt F) → (⟨S8192x512, .f32⟩ : BufTy).Contents (Elt F)) ]

/-- The second affine layer `x · W₂ + b₂` (values %99 … %102). -/
abbrev opsC : List (HloOp τ sig (Elt F)) :=
  [ StableHlo.binary main_v98 main_arg12 main_v99 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    StableHlo.unary main_arg13 main_v100 (broadcastInDim S1x256 ![1] bcast_S256_S1x256_1 : (⟨S256, .f32⟩ : BufTy).Contents (Elt F) → (⟨S1x256, .f32⟩ : BufTy).Contents (Elt F)),
    StableHlo.unary main_v100 main_v101 (broadcastInDim S8192x256 ![0, 1] bcast_S1x256_S8192x256_0_1 : (⟨S1x256, .f32⟩ : BufTy).Contents (Elt F) → (⟨S8192x256, .f32⟩ : BufTy).Contents (Elt F)),
    StableHlo.binary main_v99 main_v101 main_v102 (addf : (⟨S8192x256, .f32⟩ : BufTy).Contents (Elt F) → (⟨S8192x256, .f32⟩ : BufTy).Contents (Elt F) → (⟨S8192x256, .f32⟩ : BufTy).Contents (Elt F)) ]

/-- The second normalisation over the batch axis, as the first (values %cst_13 … %121). -/
abbrev opsD : List (HloOp τ sig (Elt F)) :=
  [ StableHlo.nullary main_cst_13 (constant S_ .f32 0x00000000#32),
    StableHlo.binary main_v102 main_cst_13 main_v103 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_14 (constant S_ .f32 0x46000000#32),
    StableHlo.unary main_cst_14 main_v104 (broadcastInDim S256 ![] bcast_S_S256 : (⟨S_, .f32⟩ : BufTy).Contents (Elt F) → (⟨S256, .f32⟩ : BufTy).Contents (Elt F)),
    StableHlo.binary main_v103 main_v104 main_v105 (Host.divf : (⟨S256, .f32⟩ : BufTy).Contents (Elt F) → (⟨S256, .f32⟩ : BufTy).Contents (Elt F) → (⟨S256, .f32⟩ : BufTy).Contents (Elt F)),
    StableHlo.nullary main_c_15 (constantI S_ 32 0#32),
    StableHlo.TRef.nullary (.of main_call1_cst : StableHlo.TRef sig ⟨S_, .f32⟩) (constant S_ .f32 0x00000000#32),
    StableHlo.TRef.binary (.of main_v102 : StableHlo.TRef sig ⟨S8192x256, .f32⟩) (.of main_call1_cst : StableHlo.TRef sig ⟨S_, .f32⟩) (.of main_call1_v0 : StableHlo.TRef sig ⟨S256, .f32⟩) (fun x v => Host.reduceAdd x v reducesTo_S8192x256_S256_d0 h_S_),
    StableHlo.TRef.unary (.of main_call1_v0 : StableHlo.TRef sig ⟨S256, .f32⟩) (.of main_call1_v1 : StableHlo.TRef sig ⟨S1x256, .f32⟩) (broadcastInDim S1x256 ![1] bcast_S256_S1x256_1),
    StableHlo.TRef.nullary (.of main_call1_cst_0 : StableHlo.TRef sig ⟨S_, .f32⟩) (constant S_ .f32 0x46000000#32),
    StableHlo.TRef.unary (.of main_call1_cst_0 : StableHlo.TRef sig ⟨S_, .f32⟩) (.of main_call1_v2 : StableHlo.TRef sig ⟨S1x256, .f32⟩) (broadcastInDim S1x256 ![] bcast_S_S1x256),
    StableHlo.TRef.binary (.of main_call1_v1 : StableHlo.TRef sig ⟨S1x256, .f32⟩) (.of main_call1_v2 : StableHlo.TRef sig ⟨S1x256, .f32⟩) (.of main_call1_v3 : StableHlo.TRef sig ⟨S1x256, .f32⟩) Host.divf,
    StableHlo.TRef.unary (.of main_call1_v3 : StableHlo.TRef sig ⟨S1x256, .f32⟩) (.of main_call1_v4 : StableHlo.TRef sig ⟨S8192x256, .f32⟩) (broadcastInDim S8192x256 ![0, 1] bcast_S1x256_S8192x256_0_1),
    StableHlo.TRef.binary (.of main_v102 : StableHlo.TRef sig ⟨S8192x256, .f32⟩) (.of main_call1_v4 : StableHlo.TRef sig ⟨S8192x256, .f32⟩) (.of main_call1_v5 : StableHlo.TRef sig ⟨S8192x256, .f32⟩) subf,
    StableHlo.TRef.binary (.of main_call1_v5 : StableHlo.TRef sig ⟨S8192x256, .f32⟩) (.of main_call1_v5 : StableHlo.TRef sig ⟨S8192x256, .f32⟩) (.of main_call1_v6 : StableHlo.TRef sig ⟨S8192x256, .f32⟩) mulf,
    StableHlo.TRef.unary (.of main_c_15 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x46000000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S8192x256, .f32⟩) (.of main_call1_cst_2 : StableHlo.TRef sig ⟨S_, .f32⟩) (.of main_call1_v9 : StableHlo.TRef sig ⟨S256, .f32⟩) (fun x v => Host.reduceAdd x v reducesTo_S8192x256_S256_d0 h_S_),
    StableHlo.TRef.unary (.of main_call1_v8 : StableHlo.TRef sig ⟨S_, .f32⟩) (.of main_call1_v10 : StableHlo.TRef sig ⟨S256, .f32⟩) (broadcastInDim S256 ![] bcast_S_S256),
    StableHlo.TRef.binary (.of main_call1_v9 : StableHlo.TRef sig ⟨S256, .f32⟩) (.of main_call1_v10 : StableHlo.TRef sig ⟨S256, .f32⟩) (.of main_call1_v11 : StableHlo.TRef sig ⟨S256, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S256, .f32⟩) (broadcastInDim S256 ![] bcast_S_S256),
    StableHlo.TRef.ternary (.of main_call1_v12 : StableHlo.TRef sig ⟨S_, .i1⟩) (.of main_call1_v11 : StableHlo.TRef sig ⟨S256, .f32⟩) (.of main_call1_call0_v1 : StableHlo.TRef sig ⟨S256, .f32⟩) (.of main_v106 : StableHlo.TRef sig ⟨S256, .f32⟩) (fun p a b => select (broadcastInDim S256 ![] bcast_S_S256 p) a b),
    StableHlo.unary main_v105 main_v107 (broadcastInDim S1x256 ![1] bcast_S256_S1x256_1 : (⟨S256, .f32⟩ : BufTy).Contents (Elt F) → (⟨S1x256, .f32⟩ : BufTy).Contents (Elt F)),
    StableHlo.unary main_v107 main_v108 (broadcastInDim S8192x256 ![0, 1] bcast_S1x256_S8192x256_0_1 : (⟨S1x256, .f32⟩ : BufTy).Contents (Elt F) → (⟨S8192x256, .f32⟩ : BufTy).Contents (Elt F)),
    StableHlo.binary main_v102 main_v108 main_v109 (subf : (⟨S8192x256, .f32⟩ : BufTy).Contents (Elt F) → (⟨S8192x256, .f32⟩ : BufTy).Contents (Elt F) → (⟨S8192x256, .f32⟩ : BufTy).Contents (Elt F)),
    StableHlo.unary main_arg14 main_v110 (broadcastInDim S1x256 ![1] bcast_S256_S1x256_1 : (⟨S256, .f32⟩ : BufTy).Contents (Elt F) → (⟨S1x256, .f32⟩ : BufTy).Contents (Elt F)),
    StableHlo.unary main_v110 main_v111 (broadcastInDim S8192x256 ![0, 1] bcast_S1x256_S8192x256_0_1 : (⟨S1x256, .f32⟩ : BufTy).Contents (Elt F) → (⟨S8192x256, .f32⟩ : BufTy).Contents (Elt F)),
    StableHlo.binary main_v111 main_v109 main_v112 (mulf : (⟨S8192x256, .f32⟩ : BufTy).Contents (Elt F) → (⟨S8192x256, .f32⟩ : BufTy).Contents (Elt F) → (⟨S8192x256, .f32⟩ : BufTy).Contents (Elt F)),
    StableHlo.nullary main_cst_16 (constant S_ .f32 0x3727C5AC#32),
    StableHlo.unary main_cst_16 main_v113 (broadcastInDim S256 ![] bcast_S_S256 : (⟨S_, .f32⟩ : BufTy).Contents (Elt F) → (⟨S256, .f32⟩ : BufTy).Contents (Elt F)),
    StableHlo.binary main_v106 main_v113 main_v114 (addf : (⟨S256, .f32⟩ : BufTy).Contents (Elt F) → (⟨S256, .f32⟩ : BufTy).Contents (Elt F) → (⟨S256, .f32⟩ : BufTy).Contents (Elt F)),
    StableHlo.unary main_v114 main_v115 (Host.rsqrt : (⟨S256, .f32⟩ : BufTy).Contents (Elt F) → (⟨S256, .f32⟩ : BufTy).Contents (Elt F)),
    StableHlo.unary main_v115 main_v116 (broadcastInDim S1x256 ![1] bcast_S256_S1x256_1 : (⟨S256, .f32⟩ : BufTy).Contents (Elt F) → (⟨S1x256, .f32⟩ : BufTy).Contents (Elt F)),
    StableHlo.unary main_v116 main_v117 (broadcastInDim S8192x256 ![0, 1] bcast_S1x256_S8192x256_0_1 : (⟨S1x256, .f32⟩ : BufTy).Contents (Elt F) → (⟨S8192x256, .f32⟩ : BufTy).Contents (Elt F)),
    StableHlo.binary main_v112 main_v117 main_v118 (mulf : (⟨S8192x256, .f32⟩ : BufTy).Contents (Elt F) → (⟨S8192x256, .f32⟩ : BufTy).Contents (Elt F) → (⟨S8192x256, .f32⟩ : BufTy).Contents (Elt F)),
    StableHlo.unary main_arg15 main_v119 (broadcastInDim S1x256 ![1] bcast_S256_S1x256_1 : (⟨S256, .f32⟩ : BufTy).Contents (Elt F) → (⟨S1x256, .f32⟩ : BufTy).Contents (Elt F)),
    StableHlo.unary main_v119 main_v120 (broadcastInDim S8192x256 ![0, 1] bcast_S1x256_S8192x256_0_1 : (⟨S1x256, .f32⟩ : BufTy).Contents (Elt F) → (⟨S8192x256, .f32⟩ : BufTy).Contents (Elt F)),
    StableHlo.binary main_v118 main_v120 main_v121 (addf : (⟨S8192x256, .f32⟩ : BufTy).Contents (Elt F) → (⟨S8192x256, .f32⟩ : BufTy).Contents (Elt F) → (⟨S8192x256, .f32⟩ : BufTy).Contents (Elt F)) ]

/-- The three row sums and their total with the bias vector (values %cst_17 … %127). -/
abbrev opsE : List (HloOp τ sig (Elt F)) :=
  [ StableHlo.nullary main_cst_17 (constant S_ .f32 0x00000000#32),
    StableHlo.binary main_v38 main_cst_17 main_v122 ((fun x v => Host.reduceAdd x v reducesTo_S8192x2496_S8192_d1 h_S_) : (⟨S8192x2496, .f32⟩ : BufTy).Contents (Elt F) → (⟨S_, .f32⟩ : BufTy).Contents (Elt F) → (⟨S8192, .f32⟩ : BufTy).Contents (Elt F)),
    StableHlo.nullary main_cst_18 (constant S_ .f32 0x00000000#32),
    StableHlo.binary main_v72 main_cst_18 main_v123 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.binary main_v122 main_v123 main_v124 (addf : (⟨S8192, .f32⟩ : BufTy).Contents (Elt F) → (⟨S8192, .f32⟩ : BufTy).Contents (Elt F) → (⟨S8192, .f32⟩ : BufTy).Contents (Elt F)),
    StableHlo.nullary main_cst_19 (constant S_ .f32 0x00000000#32),
    StableHlo.binary main_v121 main_cst_19 main_v125 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.binary main_v124 main_v125 main_v126 (addf : (⟨S8192, .f32⟩ : BufTy).Contents (Elt F) → (⟨S8192, .f32⟩ : BufTy).Contents (Elt F) → (⟨S8192, .f32⟩ : BufTy).Contents (Elt F)),
    StableHlo.binary main_v126 main_arg16 main_v127 (addf : (⟨S8192, .f32⟩ : BufTy).Contents (Elt F) → (⟨S8192, .f32⟩ : BufTy).Contents (Elt F) → (⟨S8192, .f32⟩ : BufTy).Contents (Elt F)) ]

/-- @main's operations in order: the five segments one after the other. -/
abbrev ops : List (HloOp τ sig (Elt F)) := opsA ++ (opsB ++ (opsC ++ (opsD ++ opsE)))

/-- The buffers segment A writes, in order: one per operation. -/
abbrev opsA_W : List (Ref sig .tc) := [main_v0, main_v1, main_v2, main_v3, main_v4, main_v5, main_v6, main_v7, main_v8, main_v9, main_v10, main_v11, main_v12, main_v13, main_v14, main_v15, main_v16, main_v17, main_c, main_v18, main_v19, main_c_0, main_v20, main_v21, main_v22, main_c_1, main_v23, main_v24, main_c_2, main_v25, main_v26, main_v27, main_v28, main_v29, main_v30, main_v31, main_v32, main_v33, main_v34, main_v35, main_v36, main_v37, main_v38, main_v39, main_v40, main_v41, main_v42, main_v43, main_v44, main_v45, main_v46, main_c_3, main_v47, main_v48, main_c_4, main_v49, main_v50, main_v51, main_c_5, main_v52, main_v53, main_c_6, main_v54, main_v55, main_v56, main_v57, main_v58, main_v59, main_v60, main_v61, main_v62, main_v63, main_v64, main_v65, main_cst, main_v66, main_v67, main_v68, main_cst_7, main_v69, main_v70, main_cst_8, main_v71, main_v72, main_v73, main_v74, main_v75, main_v76, main_v77, main_v78, main_v79]

/-- The buffers segment B writes, in order: one per operation. -/
abbrev opsB_W : List (Ref sig .tc) := [main_cst_9, main_v80, main_cst_10, main_v81, main_v82, main_c_11, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v83, main_v84, main_v85, main_v86, main_v87, main_v88, main_v89, main_cst_12, main_v90, main_v91, main_v92, main_v93, main_v94, main_v95, main_v96, main_v97, main_v98]

/-- The buffers segment C writes, in order: one per operation. -/
abbrev opsC_W : List (Ref sig .tc) := [main_v99, main_v100, main_v101, main_v102]

/-- The buffers segment D writes, in order: one per operation. -/
abbrev opsD_W : List (Ref sig .tc) := [main_cst_13, main_v103, main_cst_14, main_v104, main_v105, main_c_15, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v106, main_v107, main_v108, main_v109, main_v110, main_v111, main_v112, main_cst_16, main_v113, main_v114, main_v115, main_v116, main_v117, main_v118, main_v119, main_v120, main_v121]

/-- The buffers segment E writes, in order: one per operation. -/
abbrev opsE_W : List (Ref sig .tc) := [main_cst_17, main_v122, main_cst_18, main_v123, main_v124, main_cst_19, main_v125, main_v126, main_v127]

end Cert.ReferenceIdeal.RefRun

end
-- ==== Proof.RefRun.lean ====
/- The reference program's run. @main is the straight line of host operations listed beside this module, cut into
   five consecutive segments. Running it from any memory with zero counters ends with every buffer at the fold of the
   operations' results over the launch contents. A buffer that no operation of a segment writes keeps its contents
   through that segment; the arguments are written by none. -/
import proofs.«131473_j31112743092597_2_alg».proof.Proof.RefOps
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the line -/

set_option maxRecDepth 8192 in
set_option maxHeartbeats 4000000 in
/-- @main's three windows and the functions it calls unfold to one chain of steps, and the list's steps make the same
    chain: sequencing a step before a chain is the chain with the step in front, on both sides. -/
theorem main_eq (c : Dev nD) : main (F := F) c = seq ops := rfl

/-- The signature scopes no TensorCore buffer and no semaphore: the program holds tensor values only. -/
theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only

A statement over a literal list is the conjunction of its instances; each instance is the fact of the operation's own
arity (a function's operation is the same builder at the buffers of its typed references). -/

/-- The conjunction over the named literal list, each conjunct by the lemma of its operation's arity. -/
local macro "each_touches_tc" l:ident : tactic =>
  `(tactic| simp only [$l:ident, List.Forall, nullary_bufs_sub, unary_bufs_sub, binary_bufs_sub, ternary_bufs_sub,
      reshape_bufs_sub, and_self])

set_option maxRecDepth 8192 in
theorem opsA_sub : (opsA : List (HloOp τ sig (Elt F))).Forall fun op => op.bufs ⊆ tcRefs τ sig := by
  each_touches_tc opsA
set_option maxRecDepth 8192 in
theorem opsB_sub : (opsB : List (HloOp τ sig (Elt F))).Forall fun op => op.bufs ⊆ tcRefs τ sig := by
  each_touches_tc opsB
theorem opsC_sub : (opsC : List (HloOp τ sig (Elt F))).Forall fun op => op.bufs ⊆ tcRefs τ sig := by
  each_touches_tc opsC
set_option maxRecDepth 8192 in
theorem opsD_sub : (opsD : List (HloOp τ sig (Elt F))).Forall fun op => op.bufs ⊆ tcRefs τ sig := by
  each_touches_tc opsD
theorem opsE_sub : (opsE : List (HloOp τ sig (Elt F))).Forall fun op => op.bufs ⊆ tcRefs τ sig := by
  each_touches_tc opsE

/-- An operation of the whole line is an operation of one of the five segments. -/
theorem ops_sub : (ops : List (HloOp τ sig (Elt F))).Forall fun op => op.bufs ⊆ tcRefs τ sig :=
  List.forall_iff_forall_mem.mpr fun op h => by
    simp only [ops, List.mem_append] at h
    rcases h with h | h | h | h | h
    · exact List.forall_iff_forall_mem.mp opsA_sub op h
    · exact List.forall_iff_forall_mem.mp opsB_sub op h
    · exact List.forall_iff_forall_mem.mp opsC_sub op h
    · exact List.forall_iff_forall_mem.mp opsD_sub op h
    · exact List.forall_iff_forall_mem.mp opsE_sub op h

/-! ## The run -/

/-- The fold over the whole line is the segments' folds one after the other. -/
theorem after_ops (V : Valuation τ sig (Elt F)) :
    after ops V = after opsE (after opsD (after opsC (after opsB (after opsA V)))) := by
  simp only [ops, after_append]

set_option maxRecDepth 8192 in
set_option maxHeartbeats 4000000 in
/-- On every device, for any float values, from any memory with zero counters: every weakly fair execution of @main
    terminates, and every final state has each TensorCore buffer at the fold of the operations' results over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

/-! ## What each segment writes, and what it leaves alone

Every operation writes exactly one buffer, its result. Listing the results of a segment, a buffer outside the list is
written by no operation of the segment and so keeps its contents through it. -/

/-- An operation that writes the one buffer `y`, a member of the list `W`, writes inside `W`. -/
theorem writes_sub_of_mem {W : List (Ref sig .tc)} {op : HloOp τ sig (Elt F)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- The conjunction over the named literal list: each operation's one written buffer is read off the operation (by
    computation) and found in the segment's list. -/
local macro "each_writes_in_list" l:ident : tactic =>
  `(tactic| (simp only [$l:ident, List.Forall]
             repeat' constructor
             all_goals exact writes_sub_of_mem _ rfl (by decide)))

set_option maxRecDepth 8192 in
theorem opsA_writes : (opsA : List (HloOp τ sig (Elt F))).Forall fun op =>
    op.writes ⊆ (opsA_W.map (Proc.devRef (τ := τ) .tc)).toFinset := by
  each_writes_in_list opsA
set_option maxRecDepth 8192 in
theorem opsB_writes : (opsB : List (HloOp τ sig (Elt F))).Forall fun op =>
    op.writes ⊆ (opsB_W.map (Proc.devRef (τ := τ) .tc)).toFinset := by
  each_writes_in_list opsB
theorem opsC_writes : (opsC : List (HloOp τ sig (Elt F))).Forall fun op =>
    op.writes ⊆ (opsC_W.map (Proc.devRef (τ := τ) .tc)).toFinset := by
  each_writes_in_list opsC
set_option maxRecDepth 8192 in
theorem opsD_writes : (opsD : List (HloOp τ sig (Elt F))).Forall fun op =>
    op.writes ⊆ (opsD_W.map (Proc.devRef (τ := τ) .tc)).toFinset := by
  each_writes_in_list opsD
theorem opsE_writes : (opsE : List (HloOp τ sig (Elt F))).Forall fun op =>
    op.writes ⊆ (opsE_W.map (Proc.devRef (τ := τ) .tc)).toFinset := by
  each_writes_in_list opsE

/-- A buffer the first segment does not write keeps its contents through it. -/
theorem opsA_keep (V : Valuation τ sig (Elt F)) (r : Ref sig .tc) (h : r ∉ opsA_W) :
    after opsA V (Proc.devRef .tc r) = V (Proc.devRef .tc r) :=
  after_of_writes_sub opsA V opsA_writes h
/-- A buffer the second segment does not write keeps its contents through it. -/
theorem opsB_keep (V : Valuation τ sig (Elt F)) (r : Ref sig .tc) (h : r ∉ opsB_W) :
    after opsB V (Proc.devRef .tc r) = V (Proc.devRef .tc r) :=
  after_of_writes_sub opsB V opsB_writes h
/-- A buffer the third segment does not write keeps its contents through it. -/
theorem opsC_keep (V : Valuation τ sig (Elt F)) (r : Ref sig .tc) (h : r ∉ opsC_W) :
    after opsC V (Proc.devRef .tc r) = V (Proc.devRef .tc r) :=
  after_of_writes_sub opsC V opsC_writes h
/-- A buffer the fourth segment does not write keeps its contents through it. -/
theorem opsD_keep (V : Valuation τ sig (Elt F)) (r : Ref sig .tc) (h : r ∉ opsD_W) :
    after opsD V (Proc.devRef .tc r) = V (Proc.devRef .tc r) :=
  after_of_writes_sub opsD V opsD_writes h
/-- A buffer the fifth segment does not write keeps its contents through it. -/
theorem opsE_keep (V : Valuation τ sig (Elt F)) (r : Ref sig .tc) (h : r ∉ opsE_W) :
    after opsE V (Proc.devRef .tc r) = V (Proc.devRef .tc r) :=
  after_of_writes_sub opsE V opsE_writes h

/-- A buffer no segment writes keeps its launch contents through the whole line. -/
theorem ops_keep (V : Valuation τ sig (Elt F)) (r : Ref sig .tc) (hA : r ∉ opsA_W) (hB : r ∉ opsB_W)
    (hC : r ∉ opsC_W) (hD : r ∉ opsD_W) (hE : r ∉ opsE_W) :
    after ops V (Proc.devRef .tc r) = V (Proc.devRef .tc r) := by
  rw [after_ops, opsE_keep _ r hE, opsD_keep _ r hD, opsC_keep _ r hC, opsB_keep _ r hB, opsA_keep _ r hA]

/-! ## The arguments are never written

Each of the seventeen arguments is a result of no operation: it is in none of the five lists. -/

theorem kept_main_arg0 (V : Valuation τ sig (Elt F)) :
    after ops V (Proc.devRef .tc main_arg0) = V (Proc.devRef .tc main_arg0) :=
  ops_keep V main_arg0 (by decide) (by decide) (by decide) (by decide) (by decide)
theorem kept_main_arg1 (V : Valuation τ sig (Elt F)) :
    after ops V (Proc.devRef .tc main_arg1) = V (Proc.devRef .tc main_arg1) :=
  ops_keep V main_arg1 (by decide) (by decide) (by decide) (by decide) (by decide)
theorem kept_main_arg2 (V : Valuation τ sig (Elt F)) :
    after ops V (Proc.devRef .tc main_arg2) = V (Proc.devRef .tc main_arg2) :=
  ops_keep V main_arg2 (by decide) (by decide) (by decide) (by decide) (by decide)
theorem kept_main_arg3 (V : Valuation τ sig (Elt F)) :
    after ops V (Proc.devRef .tc main_arg3) = V (Proc.devRef .tc main_arg3) :=
  ops_keep V main_arg3 (by decide) (by decide) (by decide) (by decide) (by decide)
theorem kept_main_arg4 (V : Valuation τ sig (Elt F)) :
    after ops V (Proc.devRef .tc main_arg4) = V (Proc.devRef .tc main_arg4) :=
  ops_keep V main_arg4 (by decide) (by decide) (by decide) (by decide) (by decide)
theorem kept_main_arg5 (V : Valuation τ sig (Elt F)) :
    after ops V (Proc.devRef .tc main_arg5) = V (Proc.devRef .tc main_arg5) :=
  ops_keep V main_arg5 (by decide) (by decide) (by decide) (by decide) (by decide)
theorem kept_main_arg6 (V : Valuation τ sig (Elt F)) :
    after ops V (Proc.devRef .tc main_arg6) = V (Proc.devRef .tc main_arg6) :=
  ops_keep V main_arg6 (by decide) (by decide) (by decide) (by decide) (by decide)
theorem kept_main_arg7 (V : Valuation τ sig (Elt F)) :
    after ops V (Proc.devRef .tc main_arg7) = V (Proc.devRef .tc main_arg7) :=
  ops_keep V main_arg7 (by decide) (by decide) (by decide) (by decide) (by decide)
theorem kept_main_arg8 (V : Valuation τ sig (Elt F)) :
    after ops V (Proc.devRef .tc main_arg8) = V (Proc.devRef .tc main_arg8) :=
  ops_keep V main_arg8 (by decide) (by decide) (by decide) (by decide) (by decide)
theorem kept_main_arg9 (V : Valuation τ sig (Elt F)) :
    after ops V (Proc.devRef .tc main_arg9) = V (Proc.devRef .tc main_arg9) :=
  ops_keep V main_arg9 (by decide) (by decide) (by decide) (by decide) (by decide)
theorem kept_main_arg10 (V : Valuation τ sig (Elt F)) :
    after ops V (Proc.devRef .tc main_arg10) = V (Proc.devRef .tc main_arg10) :=
  ops_keep V main_arg10 (by decide) (by decide) (by decide) (by decide) (by decide)
theorem kept_main_arg11 (V : Valuation τ sig (Elt F)) :
    after ops V (Proc.devRef .tc main_arg11) = V (Proc.devRef .tc main_arg11) :=
  ops_keep V main_arg11 (by decide) (by decide) (by decide) (by decide) (by decide)
theorem kept_main_arg12 (V : Valuation τ sig (Elt F)) :
    after ops V (Proc.devRef .tc main_arg12) = V (Proc.devRef .tc main_arg12) :=
  ops_keep V main_arg12 (by decide) (by decide) (by decide) (by decide) (by decide)
theorem kept_main_arg13 (V : Valuation τ sig (Elt F)) :
    after ops V (Proc.devRef .tc main_arg13) = V (Proc.devRef .tc main_arg13) :=
  ops_keep V main_arg13 (by decide) (by decide) (by decide) (by decide) (by decide)
theorem kept_main_arg14 (V : Valuation τ sig (Elt F)) :
    after ops V (Proc.devRef .tc main_arg14) = V (Proc.devRef .tc main_arg14) :=
  ops_keep V main_arg14 (by decide) (by decide) (by decide) (by decide) (by decide)
theorem kept_main_arg15 (V : Valuation τ sig (Elt F)) :
    after ops V (Proc.devRef .tc main_arg15) = V (Proc.devRef .tc main_arg15) :=
  ops_keep V main_arg15 (by decide) (by decide) (by decide) (by decide) (by decide)
theorem kept_main_arg16 (V : Valuation τ sig (Elt F)) :
    after ops V (Proc.devRef .tc main_arg16) = V (Proc.devRef .tc main_arg16) :=
  ops_keep V main_arg16 (by decide) (by decide) (by decide) (by decide) (by decide)

end Cert.ReferenceIdeal.RefRun

end
-- ==== Proof.RefStages.lean ====
/- What the reference program's buffers hold, read stage by stage. The first segment of @main (the embedding stage and
   the first affine layer) is read at its named intermediate values: each equation gives one value as its operations'
   composition over the values before it and the arguments. The third segment (the second affine layer) and the fifth
   (the row sums and their total) are read whole, over the contents they start from. -/
import proofs.«131473_j31112743092597_2_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Both sides are folds over the named literal list read at literal buffers: each operation's result at its own
    buffer is its function of its operands' contents, and at any other buffer what was there. Computing both sides
    leaves the same composition of the operations' functions. -/
local macro "read_off" l:ident : tactic =>
  `(tactic| (simp only [$l:ident]
             after_results_simp <;> rfl))

/-! ## The first segment: columns, look-ups, products, concatenations, the first affine layer -/

set_option maxRecDepth 8192 in
set_option maxHeartbeats 2000000 in
/-- The dense features: columns 0 … 12 of the integer array, as floats. -/
theorem opsA_v2 (V : Valuation τ sig (Elt F)) :
    after opsA V (Proc.devRef .tc main_v2)
      = sitofp .f32 (extractStridedSlice S8192x13 ![0, 0]
          (shapeCast S8192x39 (V (Proc.devRef .tc main_arg0)) shapeCasts_S8192x39x1_S8192x39)
          slices_S8192x39_S8192x13_0_0) := by
  read_off opsA

set_option maxRecDepth 8192 in
set_option maxHeartbeats 2000000 in
/-- The sparse indices: columns 13 … 38 of the integer array. -/
theorem opsA_v3 (V : Valuation τ sig (Elt F)) :
    after opsA V (Proc.devRef .tc main_v3)
      = extractStridedSlice S8192x26 ![0, 13]
          (shapeCast S8192x39 (V (Proc.devRef .tc main_arg0)) shapeCasts_S8192x39x1_S8192x39)
          slices_S8192x39_S8192x26_0_13 := by
  read_off opsA

set_option maxRecDepth 8192 in
set_option maxHeartbeats 2000000 in
/-- The dense values: columns 0 … 12 of the float array. -/
theorem opsA_v4 (V : Valuation τ sig (Elt F)) :
    after opsA V (Proc.devRef .tc main_v4)
      = extractStridedSlice S8192x13 ![0, 0] (V (Proc.devRef .tc main_arg1)) slices_S8192x39_S8192x13_0_0 := by
  read_off opsA

set_option maxRecDepth 8192 in
set_option maxHeartbeats 2000000 in
/-- The sparse values: columns 13 … 38 of the float array. -/
theorem opsA_v5 (V : Valuation τ sig (Elt F)) :
    after opsA V (Proc.devRef .tc main_v5)
      = extractStridedSlice S8192x26 ![0, 13] (V (Proc.devRef .tc main_arg1)) slices_S8192x39_S8192x26_0_13 := by
  read_off opsA

set_option maxRecDepth 8192 in
set_option maxHeartbeats 2000000 in
/-- The field numbers 0 … 25, a negative one wrapped by 26 (none is). -/
theorem opsA_v22 (V : Valuation τ sig (Elt F)) :
    after opsA V (Proc.devRef .tc main_v22)
      = select (cmpi .slt (iotaInDim S26 32 0) (broadcastInDim S26 ![] bcast_S_S26 (constantI S_ 32 0#32)))
          (addi (iotaInDim S26 32 0) (broadcastInDim S26 ![] bcast_S_S26 (constantI S_ 32 26#32)))
          (iotaInDim S26 32 0) := by
  read_off opsA

set_option maxRecDepth 8192 in
set_option maxHeartbeats 2000000 in
/-- The sparse indices, a negative one wrapped by the table's 40000 rows. -/
theorem opsA_v27 (V : Valuation τ sig (Elt F)) :
    after opsA V (Proc.devRef .tc main_v27)
      = select
          (cmpi .slt (after opsA V (Proc.devRef .tc main_v3))
            (broadcastInDim S8192x26 ![] bcast_S_S8192x26 (constantI S_ 32 0#32)))
          (addi (after opsA V (Proc.devRef .tc main_v3))
            (broadcastInDim S8192x26 ![] bcast_S_S8192x26 (constantI S_ 32 40000#32)))
          (after opsA V (Proc.devRef .tc main_v3)) := by
  read_off opsA

set_option maxRecDepth 8192 in
set_option maxHeartbeats 2000000 in
/-- The first-order look-up: row (field, index) of the first table, for every sample and field. -/
theorem opsA_v32 (V : Valuation τ sig (Elt F)) :
    after opsA V (Proc.devRef .tc main_v32)
      = Host.gather gather_S26x40000x64_S8192x26x2_S8192x26x64_2_01_n_n_01_2_1164 (V (Proc.devRef .tc main_arg4))
          (concatenate S8192x26x2 2
            [⟨S8192x26x1, broadcastInDim S8192x26x1 ![0, 1] bcast_S8192x26_S8192x26x1_0_1
                (broadcastInDim S8192x26 ![1] bcast_S26_S8192x26_1 (after opsA V (Proc.devRef .tc main_v22)))⟩,
             ⟨S8192x26x1, broadcastInDim S8192x26x1 ![0, 1] bcast_S8192x26_S8192x26x1_0_1
                (after opsA V (Proc.devRef .tc main_v27))⟩]
            concatenates_S8192x26x1_S8192x26x1_S8192x26x2_d2) := by
  read_off opsA

set_option maxRecDepth 8192 in
set_option maxHeartbeats 2000000 in
/-- The first-order dense part: (feature · weight + bias) · value, along the embedding axis. -/
theorem opsA_v17 (V : Valuation τ sig (Elt F)) :
    after opsA V (Proc.devRef .tc main_v17)
      = mulf
          (addf
            (mulf
              (broadcastInDim S8192x13x64 ![0, 1, 2] bcast_S8192x13x1_S8192x13x64_0_1_2
                (broadcastInDim S8192x13x1 ![0, 1] bcast_S8192x13_S8192x13x1_0_1 (after opsA V (Proc.devRef .tc main_v2))))
              (broadcastInDim S8192x13x64 ![0, 1, 2] bcast_S1x13x64_S8192x13x64_0_1_2
                (broadcastInDim S1x13x64 ![1, 2] bcast_S13x64_S1x13x64_1_2 (V (Proc.devRef .tc main_arg2)))))
            (broadcastInDim S8192x13x64 ![0, 1, 2] bcast_S1x13x64_S8192x13x64_0_1_2
              (broadcastInDim S1x13x64 ![1, 2] bcast_S13x64_S1x13x64_1_2 (V (Proc.devRef .tc main_arg3)))))
          (broadcastInDim S8192x13x64 ![0, 1, 2] bcast_S8192x13x1_S8192x13x64_0_1_2
            (broadcastInDim S8192x13x1 ![0, 1] bcast_S8192x13_S8192x13x1_0_1 (after opsA V (Proc.devRef .tc main_v4)))) := by
  read_off opsA

set_option maxRecDepth 8192 in
set_option maxHeartbeats 2000000 in
/-- The first-order sparse part: looked-up row · value, along the embedding axis. -/
theorem opsA_v35 (V : Valuation τ sig (Elt F)) :
    after opsA V (Proc.devRef .tc main_v35)
      = mulf (after opsA V (Proc.devRef .tc main_v32))
          (broadcastInDim S8192x26x64 ![0, 1, 2] bcast_S8192x26x1_S8192x26x64_0_1_2
            (broadcastInDim S8192x26x1 ![0, 1] bcast_S8192x26_S8192x26x1_0_1 (after opsA V (Proc.devRef .tc main_v5)))) := by
  read_off opsA

set_option maxRecDepth 8192 in
set_option maxHeartbeats 2000000 in
/-- The first-order terms side by side: dense (13 · 64 columns), then sparse (26 · 64 columns). -/
theorem opsA_v38 (V : Valuation τ sig (Elt F)) :
    after opsA V (Proc.devRef .tc main_v38)
      = concatenate S8192x2496 1
          [⟨S8192x832, shapeCast S8192x832 (after opsA V (Proc.devRef .tc main_v17)) shapeCasts_S8192x13x64_S8192x832⟩,
           ⟨S8192x1664, shapeCast S8192x1664 (after opsA V (Proc.devRef .tc main_v35)) shapeCasts_S8192x26x64_S8192x1664⟩]
          concatenates_S8192x832_S8192x1664_S8192x2496_d1 := by
  read_off opsA

set_option maxRecDepth 8192 in
set_option maxHeartbeats 2000000 in
/-- The second-order dense embedding: feature · weight + bias, along the embedding axis. -/
theorem opsA_v46 (V : Valuation τ sig (Elt F)) :
    after opsA V (Proc.devRef .tc main_v46)
      = addf
          (mulf
            (broadcastInDim S8192x13x64 ![0, 1, 2] bcast_S8192x13x1_S8192x13x64_0_1_2
              (broadcastInDim S8192x13x1 ![0, 1] bcast_S8192x13_S8192x13x1_0_1 (after opsA V (Proc.devRef .tc main_v2))))
            (broadcastInDim S8192x13x64 ![0, 1, 2] bcast_S1x13x64_S8192x13x64_0_1_2
              (broadcastInDim S1x13x64 ![1, 2] bcast_S13x64_S1x13x64_1_2 (V (Proc.devRef .tc main_arg5)))))
          (broadcastInDim S8192x13x64 ![0, 1, 2] bcast_S1x13x64_S8192x13x64_0_1_2
            (broadcastInDim S1x13x64 ![1, 2] bcast_S13x64_S1x13x64_1_2 (V (Proc.devRef .tc main_arg6)))) := by
  read_off opsA

set_option maxRecDepth 8192 in
set_option maxHeartbeats 2000000 in
/-- The field numbers again, for the second look-up. -/
theorem opsA_v51 (V : Valuation τ sig (Elt F)) :
    after opsA V (Proc.devRef .tc main_v51)
      = select (cmpi .slt (iotaInDim S26 32 0) (broadcastInDim S26 ![] bcast_S_S26 (constantI S_ 32 0#32)))
          (addi (iotaInDim S26 32 0) (broadcastInDim S26 ![] bcast_S_S26 (constantI S_ 32 26#32)))
          (iotaInDim S26 32 0) := by
  read_off opsA

set_option maxRecDepth 8192 in
set_option maxHeartbeats 2000000 in
/-- The wrapped sparse indices again, for the second look-up. -/
theorem opsA_v56 (V : Valuation τ sig (Elt F)) :
    after opsA V (Proc.devRef .tc main_v56)
      = select
          (cmpi .slt (after opsA V (Proc.devRef .tc main_v3))
            (broadcastInDim S8192x26 ![] bcast_S_S8192x26 (constantI S_ 32 0#32)))
          (addi (after opsA V (Proc.devRef .tc main_v3))
            (broadcastInDim S8192x26 ![] bcast_S_S8192x26 (constantI S_ 32 40000#32)))
          (after opsA V (Proc.devRef .tc main_v3)) := by
  read_off opsA

set_option maxRecDepth 8192 in
set_option maxHeartbeats 2000000 in
/-- The second-order look-up: row (field, index) of the second table. -/
theorem opsA_v61 (V : Valuation τ sig (Elt F)) :
    after opsA V (Proc.devRef .tc main_v61)
      = Host.gather gather_S26x40000x64_S8192x26x2_S8192x26x64_2_01_n_n_01_2_1164 (V (Proc.devRef .tc main_arg7))
          (concatenate S8192x26x2 2
            [⟨S8192x26x1, broadcastInDim S8192x26x1 ![0, 1] bcast_S8192x26_S8192x26x1_0_1
                (broadcastInDim S8192x26 ![1] bcast_S26_S8192x26_1 (after opsA V (Proc.devRef .tc main_v51)))⟩,
             ⟨S8192x26x1, broadcastInDim S8192x26x1 ![0, 1] bcast_S8192x26_S8192x26x1_0_1
                (after opsA V (Proc.devRef .tc main_v56))⟩]
            concatenates_S8192x26x1_S8192x26x1_S8192x26x2_d2) := by
  read_off opsA

set_option maxRecDepth 8192 in
set_option maxHeartbeats 2000000 in
/-- The second-order sparse embedding: looked-up row · value, along the embedding axis. -/
theorem opsA_v64 (V : Valuation τ sig (Elt F)) :
    after opsA V (Proc.devRef .tc main_v64)
      = mulf (after opsA V (Proc.devRef .tc main_v61))
          (broadcastInDim S8192x26x64 ![0, 1, 2] bcast_S8192x26x1_S8192x26x64_0_1_2
            (broadcastInDim S8192x26x1 ![0, 1] bcast_S8192x26_S8192x26x1_0_1 (after opsA V (Proc.devRef .tc main_v5)))) := by
  read_off opsA

set_option maxRecDepth 8192 in
set_option maxHeartbeats 2000000 in
/-- The 39 field embeddings of a sample: 13 dense, then 26 sparse. -/
theorem opsA_v65 (V : Valuation τ sig (Elt F)) :
    after opsA V (Proc.devRef .tc main_v65)
      = concatenate S8192x39x64 1
          [⟨S8192x13x64, after opsA V (Proc.devRef .tc main_v46)⟩,
           ⟨S8192x26x64, after opsA V (Proc.devRef .tc main_v64)⟩]
          concatenates_S8192x13x64_S8192x26x64_S8192x39x64_d1 := by
  read_off opsA

set_option maxRecDepth 8192 in
set_option maxHeartbeats 2000000 in
/-- The sum of the field embeddings, over the 39 fields. -/
theorem opsA_v66 (V : Valuation τ sig (Elt F)) :
    after opsA V (Proc.devRef .tc main_v66)
      = Host.reduceAdd (after opsA V (Proc.devRef .tc main_v65)) (constant S_ .f32 0x00000000#32)
          reducesTo_S8192x39x64_S8192x64_d1 h_S_ := by
  read_off opsA

set_option maxRecDepth 8192 in
set_option maxHeartbeats 2000000 in
/-- The sum of the squared field embeddings, over the 39 fields. -/
theorem opsA_v69 (V : Valuation τ sig (Elt F)) :
    after opsA V (Proc.devRef .tc main_v69)
      = Host.reduceAdd (mulf (after opsA V (Proc.devRef .tc main_v65)) (after opsA V (Proc.devRef .tc main_v65)))
          (constant S_ .f32 0x00000000#32) reducesTo_S8192x39x64_S8192x64_d1 h_S_ := by
  read_off opsA

set_option maxRecDepth 8192 in
set_option maxHeartbeats 2000000 in
/-- The pairwise-interaction vector: half of (square of the sum − sum of the squares). -/
theorem opsA_v72 (V : Valuation τ sig (Elt F)) :
    after opsA V (Proc.devRef .tc main_v72)
      = mulf (broadcastInDim S8192x64 ![] bcast_S_S8192x64 (constant S_ .f32 0x3F000000#32))
          (subf (mulf (after opsA V (Proc.devRef .tc main_v66)) (after opsA V (Proc.devRef .tc main_v66)))
            (after opsA V (Proc.devRef .tc main_v69))) := by
  read_off opsA

set_option maxRecDepth 8192 in
set_option maxHeartbeats 2000000 in
/-- The deep input: the 39 field embeddings of a sample laid side by side (39 · 64 columns). -/
theorem opsA_v75 (V : Valuation τ sig (Elt F)) :
    after opsA V (Proc.devRef .tc main_v75)
      = concatenate S8192x2496 1
          [⟨S8192x832, shapeCast S8192x832 (after opsA V (Proc.devRef .tc main_v46)) shapeCasts_S8192x13x64_S8192x832⟩,
           ⟨S8192x1664, shapeCast S8192x1664 (after opsA V (Proc.devRef .tc main_v64)) shapeCasts_S8192x26x64_S8192x1664⟩]
          concatenates_S8192x832_S8192x1664_S8192x2496_d1 := by
  read_off opsA

set_option maxRecDepth 8192 in
set_option maxHeartbeats 2000000 in
/-- The first affine layer: deep input · W₁ + b₁. -/
theorem opsA_v79 (V : Valuation τ sig (Elt F)) :
    after opsA V (Proc.devRef .tc main_v79)
      = addf
          (Host.dotGeneral dot_S8192x2496_S2496x512_S8192x512_1_0_0_1_n_n none
            (after opsA V (Proc.devRef .tc main_v75)) (V (Proc.devRef .tc main_arg8)))
          (broadcastInDim S8192x512 ![0, 1] bcast_S1x512_S8192x512_0_1
            (broadcastInDim S1x512 ![1] bcast_S512_S1x512_1 (V (Proc.devRef .tc main_arg9)))) := by
  read_off opsA

/-! ## The third segment: the second affine layer -/

/-- The second affine layer over whatever the segment starts from: x · W₂ + b₂. -/
theorem opsC_v102 (W : Valuation τ sig (Elt F)) :
    after opsC W (Proc.devRef .tc main_v102)
      = addf
          (Host.dotGeneral dot_S8192x512_S512x256_S8192x256_1_0_0_1_n_n none
            (W (Proc.devRef .tc main_v98)) (W (Proc.devRef .tc main_arg12)))
          (broadcastInDim S8192x256 ![0, 1] bcast_S1x256_S8192x256_0_1
            (broadcastInDim S1x256 ![1] bcast_S256_S1x256_1 (W (Proc.devRef .tc main_arg13)))) := by
  read_off opsC

/-! ## The fifth segment: the row sums and their total -/

/-- The result over whatever the segment starts from: the row sums of the first-order terms, of the
    pairwise-interaction vector and of the normalised deep output, added, plus the bias vector. -/
theorem opsE_v127 (W : Valuation τ sig (Elt F)) :
    after opsE W (Proc.devRef .tc main_v127)
      = addf
          (addf
            (addf
              (Host.reduceAdd (W (Proc.devRef .tc main_v38)) (constant S_ .f32 0x00000000#32)
                reducesTo_S8192x2496_S8192_d1 h_S_)
              (Host.reduceAdd (W (Proc.devRef .tc main_v72)) (constant S_ .f32 0x00000000#32)
                reducesTo_S8192x64_S8192_d1 h_S_))
            (Host.reduceAdd (W (Proc.devRef .tc main_v121)) (constant S_ .f32 0x00000000#32)
              reducesTo_S8192x256_S8192_d1 h_S_))
          (W (Proc.devRef .tc main_arg16)) := by
  read_off opsE

end Cert.ReferenceIdeal.RefRun

end
-- ==== Proof.GatherEq.lean ====
/-
  Two spellings of one embedding lookup.

  A stack of 26 tables `T : [26, 40000, 64]` is read at an integer array `n : [8192, 26]`: result element
  `(b, j, e)` is `T[j, clamp n[b, j], e]`, where `clamp` reads the word as a signed integer and brings it into
  `[0, 39999]` (the gather's own clamping of a start index).

  * The kernel program gathers table by table: it transposes `n` to `[26, 8192]`, appends a unit axis, gathers
    with the table axis as a batching axis (start index map `[1]`, slice `1 × 1 × 64`), which gives
    `[26, 8192, 64]`, and transposes the result to `[8192, 26, 64]`.
  * The reference program gathers at pairs: it concatenates, along a new last axis, the column number `j`
    (an iota over the 26 columns, passed through the negative-index wrap by 26, which leaves it) and
    `n[b, j]`, and gathers with start index map `[0, 1]` and both leading axes collapsed.

  `gatherK_apply` and `gatherR_apply` read each gather at a result index; `kernel_apply` and
  `reference_apply` read the two whole chains at `(b, j, e)` and find the same table element; `gather_eq`
  is the equality of the two arrays as functions of the table and of `n`. Only index words are involved:
  the table's element type `α` is arbitrary.
-/
import proofs.«131473_j31112743092597_2_alg».proof.KernelIdeal
import proofs.«131473_j31112743092597_2_alg».proof.ReferenceIdeal
import Idealize.ShloMosaic.Lib.ValueIdx
import Idealize.ShloMosaic.Lib.ValueLayout
import Idealize.ShloMosaic.Lib.Pipeline.Value
import Idealize.ShloMosaic.Lib.IdealHost

open Idealize.ShloMosaic Idealize.ShloMosaic.ValueIdx

namespace Cert.GatherEq

/-! ## The kernel program's gather at a result index -/
section K
open Cert.KernelIdeal
variable [Cert.KernelIdeal.Facts₀] {α : Type} {w : Nat}

/-- The kernel program's dimension numbers: offset axes `[2]`, collapsed `[1]`, operand batching `[0]` paired with
    start-indices batching `[0]`, start index map `[1]`, index vector axis 2, slice `1 × 1 × 64`. -/
abbrev dK : GatherDims S26x40000x64 S26x8192x1 S26x8192x64 := gather_S26x40000x64_S26x8192x1_S26x8192x64_2_1_0_0_1_2_1164

/-- Its lists, as membership facts over literal lists (the record's own fields mention the shape facts). -/
theorem dK_sim (a : Fin 3) : a ∈ dK.startIndexMap ↔ a ∈ ([1] : List (Fin 3)) := Iff.rfl
theorem dK_ob (a : Fin 3) : a ∈ dK.operandBatchingDims ↔ a ∈ ([0] : List (Fin 3)) := Iff.rfl
theorem dK_sKept (a : Fin 3) : a ∈ dK.sKept ↔ a ∈ ([2] : List (Fin 3)) := by
  rw [GatherDims.mem_sKept]
  show a ∉ ([1] : List (Fin 3)) ∧ a ∉ ([0] : List (Fin 3)) ↔ _
  revert a; decide

/-- THE KERNEL'S GATHER at `(j, b, e)`: table `j` (the batching axis), the row the start index `idxK[j, b, 0]`
    names, read signed and clamped into `[0, 39999]`, lane `e` (the offset axis). -/
theorem gatherK_apply (x : S26x40000x64.Idx → α) (idxK : IVec S26x8192x1 w)
    (j : Fin 26) (b : Fin 8192) (e : Fin 64) :
    Host.gather dK x idxK (ix3 j b e)
      = x (ix3 j ⟨min (idxK (ix3 j b 0)).toInt.toNat 39999, by omega⟩ e) := by
  unfold Host.gather
  congr 1
  funext a
  refine Fin.ext ?_
  match a with
  | ⟨0, _⟩ =>
    show dK.start (ix3 j b e) idxK 0 + dK.batchCoord (ix3 j b e) 0 + dK.offCoord (ix3 j b e) 0 = j.val
    have h1 : dK.start (ix3 j b e) idxK 0 = 0 := by
      unfold GatherDims.start; rw [dif_neg (by rw [dK_sim]; decide)]
    have h3 : dK.offCoord (ix3 j b e) 0 = 0 := GatherDims.offCoord_eq_zero _ _ _ (by rw [dK_sKept]; decide)
    have h2 : dK.batchCoord (ix3 j b e) 0 = j.val := by
      unfold GatherDims.batchCoord; rw [dif_pos (by rw [dK_ob]; decide)]; rfl
    rw [h1, h2, h3]; simp
  | ⟨1, _⟩ =>
    show dK.start (ix3 j b e) idxK 1 + dK.batchCoord (ix3 j b e) 1 + dK.offCoord (ix3 j b e) 1 = min (idxK (ix3 j b 0)).toInt.toNat 39999
    have h2 : dK.batchCoord (ix3 j b e) 1 = 0 := GatherDims.batchCoord_eq_zero _ _ _ (by rw [dK_ob]; decide)
    have h3 : dK.offCoord (ix3 j b e) 1 = 0 := GatherDims.offCoord_eq_zero _ _ _ (by rw [dK_sKept]; decide)
    rw [h2, h3]
    unfold GatherDims.start
    rw [dif_pos (show (1 : Fin 3) ∈ dK.startIndexMap by rw [dK_sim]; decide)]
    have hsi : dK.siIdx (ix3 j b e) ⟨List.idxOf (1 : Fin 3) dK.startIndexMap,
        List.idxOf_lt_length_iff.2 (by rw [dK_sim]; decide)⟩ = ix3 j b 0 := by
      funext c; refine Fin.ext ?_
      match c with
      | ⟨0, _⟩ => rfl
      | ⟨1, _⟩ => rfl
      | ⟨2, _⟩ => rfl
    rw [hsi]
    rfl
  | ⟨2, _⟩ =>
    show dK.start (ix3 j b e) idxK 2 + dK.batchCoord (ix3 j b e) 2 + dK.offCoord (ix3 j b e) 2 = e.val
    have h1 : dK.start (ix3 j b e) idxK 2 = 0 := by
      unfold GatherDims.start; rw [dif_neg (by rw [dK_sim]; decide)]
    have h2 : dK.batchCoord (ix3 j b e) 2 = 0 := GatherDims.batchCoord_eq_zero _ _ _ (by rw [dK_ob]; decide)
    have h3 : dK.offCoord (ix3 j b e) 2 = e.val := by
      unfold GatherDims.offCoord; rw [dif_pos (by rw [dK_sKept]; decide)]; rfl
    rw [h1, h2, h3]; simp
end K

/-! ## The reference program's gather at a result index -/

section R
open Cert.ReferenceIdeal
variable [Cert.ReferenceIdeal.Facts₀] {α : Type} {w : Nat}

/-- The reference program's dimension numbers: offset axes `[2]`, collapsed `[0, 1]`, no batching axes, start index
    map `[0, 1]`, index vector axis 2, slice `1 × 1 × 64`. -/
abbrev dR : GatherDims S26x40000x64 S8192x26x2 S8192x26x64 := gather_S26x40000x64_S8192x26x2_S8192x26x64_2_01_n_n_01_2_1164

/-- Its lists, as membership facts over literal lists. -/
theorem dR_sim (a : Fin 3) : a ∈ dR.startIndexMap ↔ a ∈ ([0, 1] : List (Fin 3)) := Iff.rfl
theorem dR_ob (a : Fin 3) : a ∈ dR.operandBatchingDims ↔ a ∈ ([] : List (Fin 3)) := Iff.rfl
theorem dR_sKept (a : Fin 3) : a ∈ dR.sKept ↔ a ∈ ([2] : List (Fin 3)) := by
  rw [GatherDims.mem_sKept]
  show a ∉ ([0, 1] : List (Fin 3)) ∧ a ∉ ([] : List (Fin 3)) ↔ _
  revert a; decide

/-- THE REFERENCE'S GATHER at `(b, j, e)`: the table the start index's component 0 names and the row its
    component 1 names, each read signed and clamped (into `[0, 25]` and `[0, 39999]`), lane `e`. -/
theorem gatherR_apply (x : S26x40000x64.Idx → α) (idxR : IVec S8192x26x2 w)
    (b : Fin 8192) (j : Fin 26) (e : Fin 64) :
    Host.gather dR x idxR (ix3 b j e)
      = x (ix3 ⟨min (idxR (ix3 b j 0)).toInt.toNat 25, by omega⟩
            ⟨min (idxR (ix3 b j 1)).toInt.toNat 39999, by omega⟩ e) := by
  unfold Host.gather
  congr 1
  funext a
  refine Fin.ext ?_
  match a with
  | ⟨0, _⟩ =>
    show dR.start (ix3 b j e) idxR 0 + dR.batchCoord (ix3 b j e) 0 + dR.offCoord (ix3 b j e) 0 = min (idxR (ix3 b j 0)).toInt.toNat 25
    have h2 : dR.batchCoord (ix3 b j e) 0 = 0 := GatherDims.batchCoord_eq_zero _ _ _ (by rw [dR_ob]; decide)
    have h3 : dR.offCoord (ix3 b j e) 0 = 0 := GatherDims.offCoord_eq_zero _ _ _ (by rw [dR_sKept]; decide)
    rw [h2, h3]
    unfold GatherDims.start
    rw [dif_pos (show (0 : Fin 3) ∈ dR.startIndexMap by rw [dR_sim]; decide)]
    have hsi : dR.siIdx (ix3 b j e) ⟨List.idxOf (0 : Fin 3) dR.startIndexMap,
        List.idxOf_lt_length_iff.2 (by rw [dR_sim]; decide)⟩ = ix3 b j 0 := by
      funext c; refine Fin.ext ?_
      match c with
      | ⟨0, _⟩ => rfl
      | ⟨1, _⟩ => rfl
      | ⟨2, _⟩ => rfl
    rw [hsi]
    rfl
  | ⟨1, _⟩ =>
    show dR.start (ix3 b j e) idxR 1 + dR.batchCoord (ix3 b j e) 1 + dR.offCoord (ix3 b j e) 1 = min (idxR (ix3 b j 1)).toInt.toNat 39999
    have h2 : dR.batchCoord (ix3 b j e) 1 = 0 := GatherDims.batchCoord_eq_zero _ _ _ (by rw [dR_ob]; decide)
    have h3 : dR.offCoord (ix3 b j e) 1 = 0 := GatherDims.offCoord_eq_zero _ _ _ (by rw [dR_sKept]; decide)
    rw [h2, h3]
    unfold GatherDims.start
    rw [dif_pos (show (1 : Fin 3) ∈ dR.startIndexMap by rw [dR_sim]; decide)]
    have hsi : dR.siIdx (ix3 b j e) ⟨List.idxOf (1 : Fin 3) dR.startIndexMap,
        List.idxOf_lt_length_iff.2 (by rw [dR_sim]; decide)⟩ = ix3 b j 1 := by
      funext c; refine Fin.ext ?_
      match c with
      | ⟨0, _⟩ => rfl
      | ⟨1, _⟩ => rfl
      | ⟨2, _⟩ => rfl
    rw [hsi]
    rfl
  | ⟨2, _⟩ =>
    show dR.start (ix3 b j e) idxR 2 + dR.batchCoord (ix3 b j e) 2 + dR.offCoord (ix3 b j e) 2 = e.val
    have h1 : dR.start (ix3 b j e) idxR 2 = 0 := by
      unfold GatherDims.start; rw [dif_neg (by rw [dR_sim]; decide)]
    have h2 : dR.batchCoord (ix3 b j e) 2 = 0 := GatherDims.batchCoord_eq_zero _ _ _ (by rw [dR_ob]; decide)
    have h3 : dR.offCoord (ix3 b j e) 2 = e.val := by
      unfold GatherDims.offCoord; rw [dif_pos (by rw [dR_sKept]; decide)]; rfl
    rw [h1, h2, h3]; simp
end R

/-! ## The index arrays at an index -/

section KIdx
open Cert.KernelIdeal
variable [Cert.KernelIdeal.Facts₀] {α : Type}
open Cert.KernelIdeal.Facts₀

/-- The kernel's start indices at `(j, b, 0)`: the index array transposed, then given a unit axis. -/
theorem idxK_apply (n : IVec S8192x26 32) (j : Fin 26) (b : Fin 8192) :
    broadcastInDim S26x8192x1 ![0, 1] bcast_S26x8192_S26x8192x1_0_1
        (transpose S26x8192 [1, 0] n transposes_S8192x26_S26x8192_1_0) (ix3 j b 0)
      = n (ix2 b j) :=
  (broadcastInDim_apply _ _ _ _ (ix2 j b) (fun a => match a with | ⟨0, _⟩ => rfl | ⟨1, _⟩ => rfl)).trans
    (transpose_ix2_apply n _ j b)

/-- The same with the start-index word named: the form a caller uses once it has read its own index array. -/
theorem gatherK_apply_of {w : Nat} (x : S26x40000x64.Idx → α) (idxK : IVec S26x8192x1 w)
    (j : Fin 26) (b : Fin 8192) (e : Fin 64) (u : BitVec w) (hu : idxK (ix3 j b 0) = u) :
    Host.gather dK x idxK (ix3 j b e) = x (ix3 j ⟨min u.toInt.toNat 39999, by omega⟩ e) := by
  subst hu; exact gatherK_apply x idxK j b e

/-- THE KERNEL'S CHAIN at `(b, j, e)`: table `j`, the row `n[b, j]` names (read signed, clamped), lane `e`. -/
theorem kernel_apply (x : S26x40000x64.Idx → α) (n : IVec S8192x26 32)
    (b : Fin 8192) (j : Fin 26) (e : Fin 64) :
    transpose S8192x26x64 [1, 0, 2]
        (Host.gather dK x
          (broadcastInDim S26x8192x1 ![0, 1] bcast_S26x8192_S26x8192x1_0_1
            (transpose S26x8192 [1, 0] n transposes_S8192x26_S26x8192_1_0)))
        transposes_S26x8192x64_S8192x26x64_1_0_2 (ix3 b j e)
      = x (ix3 j ⟨min (n (ix2 b j)).toInt.toNat 39999, by omega⟩ e) := by
  refine (transpose_apply _ _ _ _ (ix3 j b e)
    (fun c => match c with | ⟨0, _⟩ => rfl | ⟨1, _⟩ => rfl | ⟨2, _⟩ => rfl)).trans ?_
  exact gatherK_apply_of x _ j b e _ (idxK_apply n j b)
end KIdx

section RIdx
open Cert.ReferenceIdeal
variable [Cert.ReferenceIdeal.Facts₀] {α : Type}
open Cert.ReferenceIdeal.Facts₀

/-- The same with the two start-index words named. -/
theorem gatherR_apply_of {w : Nat} (x : S26x40000x64.Idx → α) (idxR : IVec S8192x26x2 w)
    (b : Fin 8192) (j : Fin 26) (e : Fin 64) (u v : BitVec w)
    (hu : idxR (ix3 b j 0) = u) (hv : idxR (ix3 b j 1) = v) :
    Host.gather dR x idxR (ix3 b j e)
      = x (ix3 ⟨min u.toInt.toNat 25, by omega⟩ ⟨min v.toInt.toNat 39999, by omega⟩ e) := by
  subst hu; subst hv; exact gatherR_apply x idxR b j e

/-- Component 0 of the concatenated start indices is the first piece: a per-column word broadcast down the rows. -/
theorem idxR0_apply (v : IVec S26 32) (n : IVec S8192x26 32) (b : Fin 8192) (j : Fin 26) :
    concatenate S8192x26x2 2
        [⟨S8192x26x1, broadcastInDim S8192x26x1 ![0, 1] bcast_S8192x26_S8192x26x1_0_1
            (broadcastInDim S8192x26 ![1] bcast_S26_S8192x26_1 v)⟩,
         ⟨S8192x26x1, broadcastInDim S8192x26x1 ![0, 1] bcast_S8192x26_S8192x26x1_0_1 n⟩]
        concatenates_S8192x26x1_S8192x26x1_S8192x26x2_d2 (ix3 b j 0)
      = v (ix1 j) := by
  refine (concatenate_pair_apply_left (t := S8192x26x2) (s₁ := S8192x26x1) (s₂ := S8192x26x1) 2 _ _
    concatenates_S8192x26x1_S8192x26x1_S8192x26x2_d2 (ix3 b j (0 : Fin 2)) rfl (ix3 b j (0 : Fin 1))
    (fun c => match c with | ⟨0, _⟩ => rfl | ⟨1, _⟩ => rfl | ⟨2, _⟩ => rfl)).trans ?_
  refine (broadcastInDim_apply (s := S8192x26) _ _ _ _ (ix2 b j) (fun a => match a with | ⟨0, _⟩ => rfl | ⟨1, _⟩ => rfl)).trans ?_
  exact broadcastInDim_apply (s := S26) _ _ _ _ (ix1 j) (fun a => match a with | ⟨0, _⟩ => rfl)

/-- Component 1 is the second piece: the index array itself. -/
theorem idxR1_apply (v : IVec S26 32) (n : IVec S8192x26 32) (b : Fin 8192) (j : Fin 26) :
    concatenate S8192x26x2 2
        [⟨S8192x26x1, broadcastInDim S8192x26x1 ![0, 1] bcast_S8192x26_S8192x26x1_0_1
            (broadcastInDim S8192x26 ![1] bcast_S26_S8192x26_1 v)⟩,
         ⟨S8192x26x1, broadcastInDim S8192x26x1 ![0, 1] bcast_S8192x26_S8192x26x1_0_1 n⟩]
        concatenates_S8192x26x1_S8192x26x1_S8192x26x2_d2 (ix3 b j 1)
      = n (ix2 b j) := by
  refine (concatenate_pair_apply_right (t := S8192x26x2) (s₁ := S8192x26x1) (s₂ := S8192x26x1) 2 _ _
    concatenates_S8192x26x1_S8192x26x1_S8192x26x2_d2 (ix3 b j (1 : Fin 2)) rfl rfl (ix3 b j (0 : Fin 1))
    (fun c hc => match c, hc with
      | ⟨0, _⟩, _ => rfl
      | ⟨1, _⟩, _ => rfl
      | ⟨2, _⟩, hc => (hc rfl).elim) rfl).trans ?_
  exact broadcastInDim_apply (s := S8192x26) _ _ _ _ (ix2 b j) (fun a => match a with | ⟨0, _⟩ => rfl | ⟨1, _⟩ => rfl)

/-- The column numbers after the negative-index wrap by 26: a column number is never negative, so the wrap
    leaves it. -/
theorem wrapIota_apply (j : Fin 26) :
    select (cmpi .slt (iotaInDim S26 32 0) (broadcastInDim S26 ![] bcast_S_S26 (constantI S_ 32 0#32)))
        (addi (iotaInDim S26 32 0) (broadcastInDim S26 ![] bcast_S_S26 (constantI S_ 32 26#32)))
        (iotaInDim S26 32 0) (ix1 j)
      = BitVec.ofNat 32 j.val := by
  show Scalar.select (IntOp.cmpi .slt (BitVec.ofNat 32 j.val) 0#32) (IntOp.addi (BitVec.ofNat 32 j.val) 26#32)
      (BitVec.ofNat 32 j.val) = BitVec.ofNat 32 j.val
  revert j; decide

/-- A column number read back as a signed integer and clamped into the 26 tables is itself. -/
theorem clamp_col (j : Fin 26) : min (BitVec.ofNat 32 j.val).toInt.toNat 25 = j.val := by
  revert j; decide
end RIdx

section RComp
open Cert.ReferenceIdeal
variable [Cert.ReferenceIdeal.Facts₀] {α : Type}
open Cert.ReferenceIdeal.Facts₀

/-- THE REFERENCE'S GATHER at `(b, j, e)`: table `j`, the row the index array names (read signed, clamped), lane `e`. -/
theorem reference_apply (x : S26x40000x64.Idx → α) (n : IVec S8192x26 32)
    (b : Fin 8192) (j : Fin 26) (e : Fin 64) :
    Host.gather dR x
        (concatenate S8192x26x2 2
          [⟨S8192x26x1, broadcastInDim S8192x26x1 ![0, 1] bcast_S8192x26_S8192x26x1_0_1
              (broadcastInDim S8192x26 ![1] bcast_S26_S8192x26_1
                (select (cmpi .slt (iotaInDim S26 32 0) (broadcastInDim S26 ![] bcast_S_S26 (constantI S_ 32 0#32)))
                  (addi (iotaInDim S26 32 0) (broadcastInDim S26 ![] bcast_S_S26 (constantI S_ 32 26#32)))
                  (iotaInDim S26 32 0)))⟩,
           ⟨S8192x26x1, broadcastInDim S8192x26x1 ![0, 1] bcast_S8192x26_S8192x26x1_0_1 n⟩]
          concatenates_S8192x26x1_S8192x26x1_S8192x26x2_d2) (ix3 b j e)
      = x (ix3 j ⟨min (n (ix2 b j)).toInt.toNat 39999, by omega⟩ e) := by
  refine (gatherR_apply_of x _ b j e (BitVec.ofNat 32 j.val) (n (ix2 b j))
    ((idxR0_apply _ n b j).trans (wrapIota_apply j)) (idxR1_apply _ n b j)).trans ?_
  congr 1
  funext c
  match c with
  | ⟨0, _⟩ => exact Fin.ext (clamp_col j)
  | ⟨1, _⟩ => rfl
  | ⟨2, _⟩ => rfl
end RComp

section Both
variable [Cert.KernelIdeal.Facts₀] [Cert.ReferenceIdeal.Facts₀] {α : Type}

/-- THE TWO SPELLINGS ARE ONE FUNCTION of the table and of the (wrapped) index array: gathering per table from the
    transposed indices and transposing the result back, and gathering at the pairs (column number, index). -/
theorem gather_eq (x : Cert.KernelIdeal.S26x40000x64.Idx → α) (n : IVec Cert.KernelIdeal.S8192x26 32) :
    transpose Cert.KernelIdeal.S8192x26x64 [1, 0, 2]
        (Host.gather dK x
          (broadcastInDim Cert.KernelIdeal.S26x8192x1 ![0, 1] Cert.KernelIdeal.Facts₀.bcast_S26x8192_S26x8192x1_0_1
            (transpose Cert.KernelIdeal.S26x8192 [1, 0] n Cert.KernelIdeal.Facts₀.transposes_S8192x26_S26x8192_1_0)))
        Cert.KernelIdeal.Facts₀.transposes_S26x8192x64_S8192x26x64_1_0_2
      = Host.gather dR x
        (concatenate Cert.ReferenceIdeal.S8192x26x2 2
          [⟨Cert.ReferenceIdeal.S8192x26x1, broadcastInDim Cert.ReferenceIdeal.S8192x26x1 ![0, 1] Cert.ReferenceIdeal.Facts₀.bcast_S8192x26_S8192x26x1_0_1
              (broadcastInDim Cert.ReferenceIdeal.S8192x26 ![1] Cert.ReferenceIdeal.Facts₀.bcast_S26_S8192x26_1
                (select (cmpi .slt (iotaInDim Cert.ReferenceIdeal.S26 32 0) (broadcastInDim Cert.ReferenceIdeal.S26 ![] Cert.ReferenceIdeal.Facts₀.bcast_S_S26 (constantI Cert.ReferenceIdeal.S_ 32 0#32)))
                  (addi (iotaInDim Cert.ReferenceIdeal.S26 32 0) (broadcastInDim Cert.ReferenceIdeal.S26 ![] Cert.ReferenceIdeal.Facts₀.bcast_S_S26 (constantI Cert.ReferenceIdeal.S_ 32 26#32)))
                  (iotaInDim Cert.ReferenceIdeal.S26 32 0)))⟩,
           ⟨Cert.ReferenceIdeal.S8192x26x1, broadcastInDim Cert.ReferenceIdeal.S8192x26x1 ![0, 1] Cert.ReferenceIdeal.Facts₀.bcast_S8192x26_S8192x26x1_0_1 n⟩]
          Cert.ReferenceIdeal.Facts₀.concatenates_S8192x26x1_S8192x26x1_S8192x26x2_d2) := by
  funext i
  rw [eq_ix3 i]
  exact (kernel_apply x n (i 0) (i 1) (i 2)).trans (reference_apply x n (i 0) (i 1) (i 2)).symm
end Both
end Cert.GatherEq
-- ==== Proof.Chains.lean ====
/-
  The host chains the two programs share.  The kernel's program and the reference apply the SAME host operations at
  four places: the slicing and conversion of the inputs, the first batch normalisation, the second one, and the closing
  sums.  Each side's chain is the fold of its operations over the contents it starts from; read at the chain's result
  both folds are one composed term of the buffers the chain reads, and the two terms coincide once those buffers'
  contents are identified.  The embedding lookups are spelled differently on the two sides (a batched gather of the
  transposed indices against a gather at concatenated index pairs): those two spellings are one function.
-/
import proofs.«131473_j31112743092597_2_alg».proof.Proof.RefRun
import proofs.«131473_j31112743092597_2_alg».proof.Proof.RefStages
import proofs.«131473_j31112743092597_2_alg».proof.Proof.GatherEq
import proofs.«131473_j31112743092597_2_alg».proof.Proof.Gen.KernelIdeal.Launch
import Idealize.ShloMosaic.Lib.StableHlo.Run

set_option maxRecDepth 16384

noncomputable section

namespace Cert.Chains

open Idealize.ShloMosaic Idealize.ShloMosaic.TcCoe Idealize.SL.Sem Idealize.ShloMosaic.StableHlo

variable {F : FTy → Type} [FloatOps F]
variable (VR : Valuation Cert.ReferenceIdeal.τ Cert.ReferenceIdeal.sig (Elt F)) (VK : Valuation Cert.KernelIdeal.τ Cert.KernelIdeal.sig (Elt F))

/-! ## The inputs: slices of the index and value arrays, and the dense values converted -/

theorem dense_agree (h0 : VR (Proc.devRef .tc Cert.ReferenceIdeal.main_arg0) = VK (Proc.devRef .tc Cert.KernelIdeal.main_arg0)) :
    after Cert.ReferenceIdeal.RefRun.opsA VR (Proc.devRef .tc Cert.ReferenceIdeal.main_v2) = after Cert.KernelIdeal.Gen.hostOps0 VK (Proc.devRef .tc Cert.KernelIdeal.main_v2) := by
  simp only [Cert.ReferenceIdeal.RefRun.opsA]
  after_results_simp
  rw [h0]
  try rfl

theorem xvd_agree (h1 : VR (Proc.devRef .tc Cert.ReferenceIdeal.main_arg1) = VK (Proc.devRef .tc Cert.KernelIdeal.main_arg1)) :
    after Cert.ReferenceIdeal.RefRun.opsA VR (Proc.devRef .tc Cert.ReferenceIdeal.main_v4) = after Cert.KernelIdeal.Gen.hostOps0 VK (Proc.devRef .tc Cert.KernelIdeal.main_v4) := by
  simp only [Cert.ReferenceIdeal.RefRun.opsA]
  after_results_simp
  rw [h1]
  try rfl

theorem xvs_agree (h1 : VR (Proc.devRef .tc Cert.ReferenceIdeal.main_arg1) = VK (Proc.devRef .tc Cert.KernelIdeal.main_arg1)) :
    after Cert.ReferenceIdeal.RefRun.opsA VR (Proc.devRef .tc Cert.ReferenceIdeal.main_v5) = after Cert.KernelIdeal.Gen.hostOps0 VK (Proc.devRef .tc Cert.KernelIdeal.main_v5) := by
  simp only [Cert.ReferenceIdeal.RefRun.opsA]
  after_results_simp
  rw [h1]
  try rfl

/-! ## The embedding lookups -/

section Gathers
variable [Cert.KernelIdeal.Facts₀] [Cert.ReferenceIdeal.Facts₀]

theorem emb1_agree (h0 : VR (Proc.devRef .tc Cert.ReferenceIdeal.main_arg0) = VK (Proc.devRef .tc Cert.KernelIdeal.main_arg0))
    (h4 : VR (Proc.devRef .tc Cert.ReferenceIdeal.main_arg4) = VK (Proc.devRef .tc Cert.KernelIdeal.main_arg4)) :
    after Cert.ReferenceIdeal.RefRun.opsA VR (Proc.devRef .tc Cert.ReferenceIdeal.main_v32) = after Cert.KernelIdeal.Gen.hostOps0 VK (Proc.devRef .tc Cert.KernelIdeal.main_v15) := by
  rw [Cert.ReferenceIdeal.RefRun.opsA_v32, Cert.ReferenceIdeal.RefRun.opsA_v22, Cert.ReferenceIdeal.RefRun.opsA_v27, Cert.ReferenceIdeal.RefRun.opsA_v3]
  after_results_simp
  rw [h0, h4]
  exact (Cert.GatherEq.gather_eq _ _).symm

theorem emb2_agree (h0 : VR (Proc.devRef .tc Cert.ReferenceIdeal.main_arg0) = VK (Proc.devRef .tc Cert.KernelIdeal.main_arg0))
    (h7 : VR (Proc.devRef .tc Cert.ReferenceIdeal.main_arg7) = VK (Proc.devRef .tc Cert.KernelIdeal.main_arg7)) :
    after Cert.ReferenceIdeal.RefRun.opsA VR (Proc.devRef .tc Cert.ReferenceIdeal.main_v61) = after Cert.KernelIdeal.Gen.hostOps0 VK (Proc.devRef .tc Cert.KernelIdeal.main_v24) := by
  rw [Cert.ReferenceIdeal.RefRun.opsA_v61, Cert.ReferenceIdeal.RefRun.opsA_v51, Cert.ReferenceIdeal.RefRun.opsA_v56, Cert.ReferenceIdeal.RefRun.opsA_v3]
  after_results_simp
  rw [h0, h7]
  exact (Cert.GatherEq.gather_eq _ _).symm

end Gathers

/-! ## The first batch normalisation -/

/-- The reference's segment B against the kernel's three stretches between its regions. -/
theorem bn1_agree
    (h79 : VR (Proc.devRef .tc Cert.ReferenceIdeal.main_v79) = VK (Proc.devRef .tc Cert.KernelIdeal.main_v27_0))
    (h10 : VR (Proc.devRef .tc Cert.ReferenceIdeal.main_arg10) = VK (Proc.devRef .tc Cert.KernelIdeal.main_arg10))
    (h11 : VR (Proc.devRef .tc Cert.ReferenceIdeal.main_arg11) = VK (Proc.devRef .tc Cert.KernelIdeal.main_arg11)) :
    after Cert.ReferenceIdeal.RefRun.opsB VR (Proc.devRef .tc Cert.ReferenceIdeal.main_v98)
      = after Cert.KernelIdeal.Gen.hostOps1_2 (after Cert.KernelIdeal.Gen.hostOps1_1 (after Cert.KernelIdeal.Gen.hostOps1 VK)) (Proc.devRef .tc Cert.KernelIdeal.main_v46) := by
  simp only [Cert.ReferenceIdeal.RefRun.opsB]
  after_results_simp
  rw [h79, h10, h11]
  try rfl

/-! ## The second batch normalisation and the closing sums -/

/-- The reference's segments D and E against the kernel's three stretches after its second region.  The second
    normalisation and the last two additions are the same operations; the two first summands are read differently (the
    reference sums the first- and second-order arrays along their last axis, the kernel reshapes the sums its first
    region already took), and are assumed equal here. -/
theorem tail_agree
    (h47 : VR (Proc.devRef .tc Cert.ReferenceIdeal.main_v102) = VK (Proc.devRef .tc Cert.KernelIdeal.main_v47))
    (h14 : VR (Proc.devRef .tc Cert.ReferenceIdeal.main_arg14) = VK (Proc.devRef .tc Cert.KernelIdeal.main_arg14))
    (h15 : VR (Proc.devRef .tc Cert.ReferenceIdeal.main_arg15) = VK (Proc.devRef .tc Cert.KernelIdeal.main_arg15))
    (h16 : VR (Proc.devRef .tc Cert.ReferenceIdeal.main_arg16) = VK (Proc.devRef .tc Cert.KernelIdeal.main_arg16))
    (hF : Host.reduceAdd (VR (Proc.devRef .tc Cert.ReferenceIdeal.main_v38)) (constant Cert.ReferenceIdeal.S_ .f32 0x00000000#32) Cert.ReferenceIdeal.Gen.reducesTo_S8192x2496_S8192_d1 Cert.ReferenceIdeal.Gen.h_S_
        = shapeCast Cert.KernelIdeal.S8192 (VK (Proc.devRef .tc Cert.KernelIdeal.main_v27_1)) Cert.KernelIdeal.Gen.shapeCasts_S8192x1_S8192)
    (hS : Host.reduceAdd (VR (Proc.devRef .tc Cert.ReferenceIdeal.main_v72)) (constant Cert.ReferenceIdeal.S_ .f32 0x00000000#32) Cert.ReferenceIdeal.Gen.reducesTo_S8192x64_S8192_d1 Cert.ReferenceIdeal.Gen.h_S_
        = shapeCast Cert.KernelIdeal.S8192 (VK (Proc.devRef .tc Cert.KernelIdeal.main_v27_2)) Cert.KernelIdeal.Gen.shapeCasts_S8192x1_S8192) :
    after Cert.ReferenceIdeal.RefRun.opsE (after Cert.ReferenceIdeal.RefRun.opsD VR) (Proc.devRef .tc Cert.ReferenceIdeal.main_v127)
      = after Cert.KernelIdeal.Gen.hostOps2_2 (after Cert.KernelIdeal.Gen.hostOps2_1 (after Cert.KernelIdeal.Gen.hostOps2 VK)) (Proc.devRef .tc Cert.KernelIdeal.main_v72) := by
  simp only [Cert.ReferenceIdeal.RefRun.opsE, Cert.ReferenceIdeal.RefRun.opsD]
  after_results_simp
  rw [h47, h14, h15, h16]
  exact congrArg₂ _ (congrArg₂ _ (congrArg₂ _ hF hS) rfl) rfl

end Cert.Chains

end
-- ==== Proof.Blocks0.lean ====
/-
  Region 0 (the fused first/second-order + first matrix product body, one batch tile of 256 rows per grid point,
  32 points): from what each point writes back to the three output ARRAYS after the region.
  Output window 11 ([8192,512], block [256,512] at block row t), windows 12 and 13 ([8192,1], block [256,1] at
  block row t).  Row b of each output lies in the block of point b / 256 at local row b % 256, and the body's result
  there depends only on that point's input blocks; so each array after the region is ONE function of the arrays the
  region found: at row b, the body's result on the blocks of point b / 256, read at local row b % 256.
-/
import proofs.«131473_j31112743092597_2_alg».proof.Proof.Gen.KernelIdeal.Frame
import Idealize.ShloMosaic.Lib.Pipeline.Value
import Idealize.ShloMosaic.Lib.ValueIdx

set_option maxRecDepth 16384

noncomputable section

namespace Cert.KernelIdeal.Blocks0

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The block row of each output window at point `t` is `t`; its block column is 0. -/
theorem idx_facts : ∀ t : Fin cfg0.N,
    win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The grid point whose blocks hold row `b`. -/
def ptOf (b : Fin 8192) : Fin cfg0.N := ⟨b.val / 256, by rw [show cfg0.N = 32 from N_0]; omega⟩

/-! ## Output window 11 -/

/-- What the region leaves at an index of output window 11's array: the body's result on the blocks of the point
    that holds the row, at the row's place inside the block. -/
def G11 (c : Dev nD) : S8192x512.Idx → Elt F .f32 := fun i =>
  out0_11 (iblk0 V c 0 (ptOf (i 0))) (iblk0 V c 1 (ptOf (i 0))) (iblk0 V c 2 (ptOf (i 0))) (iblk0 V c 3 (ptOf (i 0)))
    (iblk0 V c 4 (ptOf (i 0))) (iblk0 V c 5 (ptOf (i 0))) (iblk0 V c 6 (ptOf (i 0))) (iblk0 V c 7 (ptOf (i 0)))
    (iblk0 V c 8 (ptOf (i 0))) (iblk0 V c 9 (ptOf (i 0))) (iblk0 V c 10 (ptOf (i 0)))
    (ValueIdx.ix2 ⟨(i 0).val % 256, Nat.mod_lt _ (by decide)⟩ (i 1))

theorem mem_blk11 (t : Fin cfg0.N) (i : S8192x512.Idx) :
    i ∈ ((cfg0.win 11).blk t).view.set ↔ ∀ a : Fin 2, win0_11.index t a * S256x512.size a ≤ (i a).val ∧ (i a).val < win0_11.index t a * S256x512.size a + S256x512.size a := by
  show i ∈ ((View.whole main_v27_0).slice (win0_11.rect t)).set ↔ _
  rw [View.set_slice_whole, Rect.mem_set_unit]
  exact Iff.rfl

/-- A block's coordinates in the array: block index times block extent plus the coordinate inside the block. -/
theorem emb11_0 (t : Fin cfg0.N) (y : S256x512.Idx) :
    ((((cfg0.win 11).blk t).view.emb y) 0).val = win0_11.index t (0 : Fin 2) * 256 + 1 * (y 0).val := rfl
theorem emb11_1 (t : Fin cfg0.N) (y : S256x512.Idx) :
    ((((cfg0.win 11).blk t).view.emb y) 1).val = win0_11.index t (1 : Fin 2) * 512 + 1 * (y 1).val := rfl

/-- At an index of point `t`'s block the function is the body's result on point `t`'s blocks. -/
theorem G11_emb (c : Dev nD) (t : Fin cfg0.N) (y : S256x512.Idx) :
    G11 V c (((cfg0.win 11).blk t).view.emb y) = out0_11 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) y := by
  obtain ⟨e11_0, e11_1, e12_0, e12_1, e13_0, e13_1⟩ := idx_facts t
  have hy0 : (y 0).val < 256 := (y 0).isLt
  have hy1 : (y 1).val < 512 := (y 1).isLt
  have h0 := emb11_0 t y
  have h1 := emb11_1 t y
  have hp : ptOf ((((cfg0.win 11).blk t).view.emb y) 0) = t := by
    apply Fin.ext
    show ((((cfg0.win 11).blk t).view.emb y) 0).val / 256 = t.val
    omega
  have hl : (ValueIdx.ix2 ⟨((((cfg0.win 11).blk t).view.emb y) 0).val % 256, Nat.mod_lt _ (by decide)⟩ ((((cfg0.win 11).blk t).view.emb y) 1) : S256x512.Idx) = y := by
    funext a; apply Fin.ext
    match a with
    | ⟨0, _⟩ => show ((((cfg0.win 11).blk t).view.emb y) 0).val % 256 = (y 0).val; omega
    | ⟨1, _⟩ => show ((((cfg0.win 11).blk t).view.emb y) 1).val = (y 1).val; omega
  unfold G11
  rw [hp, hl]

/-- What point `t` writes back is block `t` of the function. -/
theorem flushed11_eq (c : Dev nD) (t : Fin cfg0.N) :
    (dat0 V c).flushed 11 t = ((cfg0.win 11).blk t).view.read (Elt F) (G11 V c) := by
  show (cfg0.win 11).cut (grid0.coords t) ((dat0 V c).after 11 t) = _
  rw [after0_11]
  have hG := G11_emb V c t
  generalize out0_11 (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) = X at hG ⊢
  generalize G11 V c = Gf at hG ⊢
  funext y
  exact (hG y).symm

/-- Every row lies in the block of the point numbered by its quotient by 256. -/
theorem cover11 (i : S8192x512.Idx) : ∃ t : Fin cfg0.N, (cfg0.win 11).flush t = true ∧ i ∈ ((cfg0.win 11).blk t).view.set := by
  have hi0 : (i 0).val < 8192 := (i 0).isLt
  have hi1 : (i 1).val < 512 := (i 1).isLt
  refine ⟨ptOf (i 0), flush0_11 _, ?_⟩
  obtain ⟨e11_0, e11_1, e12_0, e12_1, e13_0, e13_1⟩ := idx_facts (ptOf (i 0))
  have hv : (ptOf (i 0)).val = (i 0).val / 256 := rfl
  rw [mem_blk11]
  intro a
  match a with
  | ⟨0, _⟩ => show win0_11.index (ptOf (i 0)) (0 : Fin 2) * 256 ≤ (i 0).val ∧ (i 0).val < win0_11.index (ptOf (i 0)) (0 : Fin 2) * 256 + 256; omega
  | ⟨1, _⟩ => show win0_11.index (ptOf (i 0)) (1 : Fin 2) * 512 ≤ (i 1).val ∧ (i 1).val < win0_11.index (ptOf (i 0)) (1 : Fin 2) * 512 + 512; omega

/-- The array after the region. -/
theorem final11 (c : Dev nD) : (dat0 V c).arrAt 11 cfg0.N = G11 V c :=
  (dat0 V c).arrAt_eq_of_cover 11 (G11 V c) (fun t _ => flushed11_eq V c t) (cover11)

/-! ## Output window 12 -/

/-- What the region leaves at an index of output window 12's array: the body's result on the blocks of the point
    that holds the row, at the row's place inside the block. -/
def G12 (c : Dev nD) : S8192x1.Idx → Elt F .f32 := fun i =>
  out0_12 (iblk0 V c 0 (ptOf (i 0))) (iblk0 V c 1 (ptOf (i 0))) (iblk0 V c 2 (ptOf (i 0))) (iblk0 V c 3 (ptOf (i 0)))
    (iblk0 V c 4 (ptOf (i 0))) (iblk0 V c 5 (ptOf (i 0))) (iblk0 V c 6 (ptOf (i 0))) (iblk0 V c 7 (ptOf (i 0)))
    (iblk0 V c 8 (ptOf (i 0))) (iblk0 V c 9 (ptOf (i 0))) (iblk0 V c 10 (ptOf (i 0)))
    (ValueIdx.ix2 ⟨(i 0).val % 256, Nat.mod_lt _ (by decide)⟩ (i 1))

theorem mem_blk12 (t : Fin cfg0.N) (i : S8192x1.Idx) :
    i ∈ ((cfg0.win 12).blk t).view.set ↔ ∀ a : Fin 2, win0_12.index t a * S256x1.size a ≤ (i a).val ∧ (i a).val < win0_12.index t a * S256x1.size a + S256x1.size a := by
  show i ∈ ((View.whole main_v27_1).slice (win0_12.rect t)).set ↔ _
  rw [View.set_slice_whole, Rect.mem_set_unit]
  exact Iff.rfl

/-- A block's coordinates in the array: block index times block extent plus the coordinate inside the block. -/
theorem emb12_0 (t : Fin cfg0.N) (y : S256x1.Idx) :
    ((((cfg0.win 12).blk t).view.emb y) 0).val = win0_12.index t (0 : Fin 2) * 256 + 1 * (y 0).val := rfl
theorem emb12_1 (t : Fin cfg0.N) (y : S256x1.Idx) :
    ((((cfg0.win 12).blk t).view.emb y) 1).val = win0_12.index t (1 : Fin 2) * 1 + 1 * (y 1).val := rfl

/-- At an index of point `t`'s block the function is the body's result on point `t`'s blocks. -/
theorem G12_emb (c : Dev nD) (t : Fin cfg0.N) (y : S256x1.Idx) :
    G12 V c (((cfg0.win 12).blk t).view.emb y) = out0_12 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) y := by
  obtain ⟨e11_0, e11_1, e12_0, e12_1, e13_0, e13_1⟩ := idx_facts t
  have hy0 : (y 0).val < 256 := (y 0).isLt
  have hy1 : (y 1).val < 1 := (y 1).isLt
  have h0 := emb12_0 t y
  have h1 := emb12_1 t y
  have hp : ptOf ((((cfg0.win 12).blk t).view.emb y) 0) = t := by
    apply Fin.ext
    show ((((cfg0.win 12).blk t).view.emb y) 0).val / 256 = t.val
    omega
  have hl : (ValueIdx.ix2 ⟨((((cfg0.win 12).blk t).view.emb y) 0).val % 256, Nat.mod_lt _ (by decide)⟩ ((((cfg0.win 12).blk t).view.emb y) 1) : S256x1.Idx) = y := by
    funext a; apply Fin.ext
    match a with
    | ⟨0, _⟩ => show ((((cfg0.win 12).blk t).view.emb y) 0).val % 256 = (y 0).val; omega
    | ⟨1, _⟩ => show ((((cfg0.win 12).blk t).view.emb y) 1).val = (y 1).val; omega
  unfold G12
  rw [hp, hl]

/-- What point `t` writes back is block `t` of the function. -/
theorem flushed12_eq (c : Dev nD) (t : Fin cfg0.N) :
    (dat0 V c).flushed 12 t = ((cfg0.win 12).blk t).view.read (Elt F) (G12 V c) := by
  show (cfg0.win 12).cut (grid0.coords t) ((dat0 V c).after 12 t) = _
  rw [after0_12]
  have hG := G12_emb V c t
  generalize out0_12 (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) = X at hG ⊢
  generalize G12 V c = Gf at hG ⊢
  funext y
  exact (hG y).symm

/-- Every row lies in the block of the point numbered by its quotient by 256. -/
theorem cover12 (i : S8192x1.Idx) : ∃ t : Fin cfg0.N, (cfg0.win 12).flush t = true ∧ i ∈ ((cfg0.win 12).blk t).view.set := by
  have hi0 : (i 0).val < 8192 := (i 0).isLt
  have hi1 : (i 1).val < 1 := (i 1).isLt
  refine ⟨ptOf (i 0), flush0_12 _, ?_⟩
  obtain ⟨e11_0, e11_1, e12_0, e12_1, e13_0, e13_1⟩ := idx_facts (ptOf (i 0))
  have hv : (ptOf (i 0)).val = (i 0).val / 256 := rfl
  rw [mem_blk12]
  intro a
  match a with
  | ⟨0, _⟩ => show win0_12.index (ptOf (i 0)) (0 : Fin 2) * 256 ≤ (i 0).val ∧ (i 0).val < win0_12.index (ptOf (i 0)) (0 : Fin 2) * 256 + 256; omega
  | ⟨1, _⟩ => show win0_12.index (ptOf (i 0)) (1 : Fin 2) * 1 ≤ (i 1).val ∧ (i 1).val < win0_12.index (ptOf (i 0)) (1 : Fin 2) * 1 + 1; omega

/-- The array after the region. -/
theorem final12 (c : Dev nD) : (dat0 V c).arrAt 12 cfg0.N = G12 V c :=
  (dat0 V c).arrAt_eq_of_cover 12 (G12 V c) (fun t _ => flushed12_eq V c t) (cover12)

/-! ## Output window 13 -/

/-- What the region leaves at an index of output window 13's array: the body's result on the blocks of the point
    that holds the row, at the row's place inside the block. -/
def G13 (c : Dev nD) : S8192x1.Idx → Elt F .f32 := fun i =>
  out0_13 (iblk0 V c 0 (ptOf (i 0))) (iblk0 V c 1 (ptOf (i 0))) (iblk0 V c 2 (ptOf (i 0))) (iblk0 V c 3 (ptOf (i 0)))
    (iblk0 V c 4 (ptOf (i 0))) (iblk0 V c 5 (ptOf (i 0))) (iblk0 V c 6 (ptOf (i 0))) (iblk0 V c 7 (ptOf (i 0)))
    (iblk0 V c 8 (ptOf (i 0))) (iblk0 V c 9 (ptOf (i 0))) (iblk0 V c 10 (ptOf (i 0)))
    (ValueIdx.ix2 ⟨(i 0).val % 256, Nat.mod_lt _ (by decide)⟩ (i 1))

theorem mem_blk13 (t : Fin cfg0.N) (i : S8192x1.Idx) :
    i ∈ ((cfg0.win 13).blk t).view.set ↔ ∀ a : Fin 2, win0_13.index t a * S256x1.size a ≤ (i a).val ∧ (i a).val < win0_13.index t a * S256x1.size a + S256x1.size a := by
  show i ∈ ((View.whole main_v27_2).slice (win0_13.rect t)).set ↔ _
  rw [View.set_slice_whole, Rect.mem_set_unit]
  exact Iff.rfl

/-- A block's coordinates in the array: block index times block extent plus the coordinate inside the block. -/
theorem emb13_0 (t : Fin cfg0.N) (y : S256x1.Idx) :
    ((((cfg0.win 13).blk t).view.emb y) 0).val = win0_13.index t (0 : Fin 2) * 256 + 1 * (y 0).val := rfl
theorem emb13_1 (t : Fin cfg0.N) (y : S256x1.Idx) :
    ((((cfg0.win 13).blk t).view.emb y) 1).val = win0_13.index t (1 : Fin 2) * 1 + 1 * (y 1).val := rfl

/-- At an index of point `t`'s block the function is the body's result on point `t`'s blocks. -/
theorem G13_emb (c : Dev nD) (t : Fin cfg0.N) (y : S256x1.Idx) :
    G13 V c (((cfg0.win 13).blk t).view.emb y) = out0_13 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) y := by
  obtain ⟨e11_0, e11_1, e12_0, e12_1, e13_0, e13_1⟩ := idx_facts t
  have hy0 : (y 0).val < 256 := (y 0).isLt
  have hy1 : (y 1).val < 1 := (y 1).isLt
  have h0 := emb13_0 t y
  have h1 := emb13_1 t y
  have hp : ptOf ((((cfg0.win 13).blk t).view.emb y) 0) = t := by
    apply Fin.ext
    show ((((cfg0.win 13).blk t).view.emb y) 0).val / 256 = t.val
    omega
  have hl : (ValueIdx.ix2 ⟨((((cfg0.win 13).blk t).view.emb y) 0).val % 256, Nat.mod_lt _ (by decide)⟩ ((((cfg0.win 13).blk t).view.emb y) 1) : S256x1.Idx) = y := by
    funext a; apply Fin.ext
    match a with
    | ⟨0, _⟩ => show ((((cfg0.win 13).blk t).view.emb y) 0).val % 256 = (y 0).val; omega
    | ⟨1, _⟩ => show ((((cfg0.win 13).blk t).view.emb y) 1).val = (y 1).val; omega
  unfold G13
  rw [hp, hl]

/-- What point `t` writes back is block `t` of the function. -/
theorem flushed13_eq (c : Dev nD) (t : Fin cfg0.N) :
    (dat0 V c).flushed 13 t = ((cfg0.win 13).blk t).view.read (Elt F) (G13 V c) := by
  show (cfg0.win 13).cut (grid0.coords t) ((dat0 V c).after 13 t) = _
  rw [after0_13]
  have hG := G13_emb V c t
  generalize out0_13 (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) = X at hG ⊢
  generalize G13 V c = Gf at hG ⊢
  funext y
  exact (hG y).symm

/-- Every row lies in the block of the point numbered by its quotient by 256. -/
theorem cover13 (i : S8192x1.Idx) : ∃ t : Fin cfg0.N, (cfg0.win 13).flush t = true ∧ i ∈ ((cfg0.win 13).blk t).view.set := by
  have hi0 : (i 0).val < 8192 := (i 0).isLt
  have hi1 : (i 1).val < 1 := (i 1).isLt
  refine ⟨ptOf (i 0), flush0_13 _, ?_⟩
  obtain ⟨e11_0, e11_1, e12_0, e12_1, e13_0, e13_1⟩ := idx_facts (ptOf (i 0))
  have hv : (ptOf (i 0)).val = (i 0).val / 256 := rfl
  rw [mem_blk13]
  intro a
  match a with
  | ⟨0, _⟩ => show win0_13.index (ptOf (i 0)) (0 : Fin 2) * 256 ≤ (i 0).val ∧ (i 0).val < win0_13.index (ptOf (i 0)) (0 : Fin 2) * 256 + 256; omega
  | ⟨1, _⟩ => show win0_13.index (ptOf (i 0)) (1 : Fin 2) * 1 ≤ (i 1).val ∧ (i 1).val < win0_13.index (ptOf (i 0)) (1 : Fin 2) * 1 + 1; omega

/-- The array after the region. -/
theorem final13 (c : Dev nD) : (dat0 V c).arrAt 13 cfg0.N = G13 V c :=
  (dat0 V c).arrAt_eq_of_cover 13 (G13 V c) (fun t _ => flushed13_eq V c t) (cover13)

end Cert.KernelIdeal.Blocks0

end
-- ==== Proof.Blocks1.lean ====
/-
  Region 1 (the second matrix product, one batch tile of 1024 rows per grid point, 8 points): from what each point
  writes back to the output ARRAY after the region.  Output window 3 is [8192,256] with block [1024,256] at block
  row t; row b lies in the block of point b / 1024 at local row b % 1024, so the array after the region is, at row b,
  the body's result on the blocks of point b / 1024 read at local row b % 1024.
-/
import proofs.«131473_j31112743092597_2_alg».proof.Proof.Gen.KernelIdeal.Frame
import Idealize.ShloMosaic.Lib.Pipeline.Value
import Idealize.ShloMosaic.Lib.ValueIdx

set_option maxRecDepth 16384

noncomputable section

namespace Cert.KernelIdeal.Blocks1

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The block row of the output window at point `t` is `t`; its block column is 0. -/
theorem idx_facts : ∀ t : Fin cfg1.N, win1_3.index t (0 : Fin 2) = t.val ∧ win1_3.index t (1 : Fin 2) = 0 :=
  (by decide +kernel : ∀ t : Fin grid1.N, _)

/-- The grid point whose blocks hold row `b`. -/
def ptOf (b : Fin 8192) : Fin cfg1.N := ⟨b.val / 1024, by rw [show cfg1.N = 8 from N_1]; omega⟩

/-- What the region leaves at an index of the output array: the body's result on the blocks of the point that holds
    the row, at the row's place inside the block. -/
def G3 (c : Dev nD) : S8192x256.Idx → Elt F .f32 := fun i =>
  out1_3 (iblk1 V c 0 (ptOf (i 0))) (iblk1 V c 1 (ptOf (i 0))) (iblk1 V c 2 (ptOf (i 0)))
    (ValueIdx.ix2 ⟨(i 0).val % 1024, Nat.mod_lt _ (by decide)⟩ (i 1))

theorem mem_blk3 (t : Fin cfg1.N) (i : S8192x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v47).slice (win1_3.rect t)).set ↔ _
  rw [View.set_slice_whole, Rect.mem_set_unit]
  exact Iff.rfl

/-- A block's coordinates in the array: block index times block extent plus the coordinate inside the block. -/
theorem emb3_0 (t : Fin cfg1.N) (y : S1024x256.Idx) :
    ((((cfg1.win 3).blk t).view.emb y) 0).val = win1_3.index t (0 : Fin 2) * 1024 + 1 * (y 0).val := rfl
theorem emb3_1 (t : Fin cfg1.N) (y : S1024x256.Idx) :
    ((((cfg1.win 3).blk t).view.emb y) 1).val = win1_3.index t (1 : Fin 2) * 256 + 1 * (y 1).val := rfl

/-- At an index of point `t`'s block the function is the body's result on point `t`'s blocks. -/
theorem G3_emb (c : Dev nD) (t : Fin cfg1.N) (y : S1024x256.Idx) :
    G3 V c (((cfg1.win 3).blk t).view.emb y) = out1_3 (iblk1 V c 0 t) (iblk1 V c 1 t) (iblk1 V c 2 t) y := by
  obtain ⟨e0, e1⟩ := idx_facts t
  have hy0 : (y 0).val < 1024 := (y 0).isLt
  have hy1 : (y 1).val < 256 := (y 1).isLt
  have h0 := emb3_0 t y
  have h1 := emb3_1 t y
  have hp : ptOf ((((cfg1.win 3).blk t).view.emb y) 0) = t := by
    apply Fin.ext
    show ((((cfg1.win 3).blk t).view.emb y) 0).val / 1024 = t.val
    omega
  have hl : (ValueIdx.ix2 ⟨((((cfg1.win 3).blk t).view.emb y) 0).val % 1024, Nat.mod_lt _ (by decide)⟩ ((((cfg1.win 3).blk t).view.emb y) 1) : S1024x256.Idx) = y := by
    funext a; apply Fin.ext
    match a with
    | ⟨0, _⟩ => show ((((cfg1.win 3).blk t).view.emb y) 0).val % 1024 = (y 0).val; omega
    | ⟨1, _⟩ => show ((((cfg1.win 3).blk t).view.emb y) 1).val = (y 1).val; omega
  unfold G3
  rw [hp, hl]

/-- What point `t` writes back is block `t` of the function. -/
theorem flushed3_eq (c : Dev nD) (t : Fin cfg1.N) :
    (dat1 V c).flushed 3 t = ((cfg1.win 3).blk t).view.read (Elt F) (G3 V c) := by
  show (cfg1.win 3).cut (grid1.coords t) ((dat1 V c).after 3 t) = _
  rw [after1_3]
  have hG := G3_emb V c t
  generalize out1_3 (iblk1 V c 0 t) (iblk1 V c 1 t) (iblk1 V c 2 t) = X at hG ⊢
  generalize G3 V c = Gf at hG ⊢
  funext y
  exact (hG y).symm

/-- Every row lies in the block of the point numbered by its quotient by 1024. -/
theorem cover3 (i : S8192x256.Idx) : ∃ t : Fin cfg1.N, (cfg1.win 3).flush t = true ∧ i ∈ ((cfg1.win 3).blk t).view.set := by
  have hi0 : (i 0).val < 8192 := (i 0).isLt
  have hi1 : (i 1).val < 256 := (i 1).isLt
  refine ⟨ptOf (i 0), flush1_3 _, ?_⟩
  obtain ⟨e0, e1⟩ := idx_facts (ptOf (i 0))
  have hv : (ptOf (i 0)).val = (i 0).val / 1024 := rfl
  rw [mem_blk3]
  intro a
  match a with
  | ⟨0, _⟩ => show win1_3.index (ptOf (i 0)) (0 : Fin 2) * 1024 ≤ (i 0).val ∧ (i 0).val < win1_3.index (ptOf (i 0)) (0 : Fin 2) * 1024 + 1024; omega
  | ⟨1, _⟩ => show win1_3.index (ptOf (i 0)) (1 : Fin 2) * 256 ≤ (i 1).val ∧ (i 1).val < win1_3.index (ptOf (i 0)) (1 : Fin 2) * 256 + 256; omega

/-- The array after the region. -/
theorem final3 (c : Dev nD) : (dat1 V c).arrAt 3 cfg1.N = G3 V c :=
  (dat1 V c).arrAt_eq_of_cover 3 (G3 V c) (fun t _ => flushed3_eq V c t) (cover3)

end Cert.KernelIdeal.Blocks1

end
-- ==== Proof.KVal.lean ====
/-
  Which buffer holds what along the idealized kernel's fold of boundary contents.  Region 0's three output arrays and
  region 1's output array are the whole-array functions of the contents at the region's entry; a buffer that no
  operation of a stretch writes keeps its contents through it; the small reshapes of the two bias vectors are read
  from the launch contents.
-/
import proofs.«131473_j31112743092597_2_alg».proof.Proof.KRun
import proofs.«131473_j31112743092597_2_alg».proof.Proof.Blocks0
import proofs.«131473_j31112743092597_2_alg».proof.Proof.Blocks1
import Idealize.ShloMosaic.Lib.StableHlo.Run

set_option maxRecDepth 16384

noncomputable section

namespace Cert.KernelIdeal.KVal

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The regions' output arrays -/

theorem W2_v27_0 (c : Dev nD) : W2 m ρ c (Proc.devRef .tc main_v27_0) = Blocks0.G11 (V1 m ρ) c :=
  (W2_arr m ρ c 11).trans (Blocks0.final11 (V1 m ρ) c)
theorem W2_v27_1 (c : Dev nD) : W2 m ρ c (Proc.devRef .tc main_v27_1) = Blocks0.G12 (V1 m ρ) c :=
  (W2_arr m ρ c 12).trans (Blocks0.final12 (V1 m ρ) c)
theorem W2_v27_2 (c : Dev nD) : W2 m ρ c (Proc.devRef .tc main_v27_2) = Blocks0.G13 (V1 m ρ) c :=
  (W2_arr m ρ c 13).trans (Blocks0.final13 (V1 m ρ) c)
theorem W6_v47 (c : Dev nD) : W6 m ρ c (Proc.devRef .tc main_v47) = Blocks1.G3 (V5 m ρ) c :=
  (W6_arr m ρ c 3).trans (Blocks1.final3 (V5 m ρ) c)

/-! ## Buffers a stretch does not write -/

/-- Through the three stretches between the regions a buffer none of their operations writes is kept. -/
theorem W5_keep_v27_1 (c : Dev nD) : W5 m ρ c (Proc.devRef .tc main_v27_1) = W2 m ρ c (Proc.devRef .tc main_v27_1) := by
  dsimp only [W5, W4, W3]; after_results_simp
theorem W5_keep_v27_2 (c : Dev nD) : W5 m ρ c (Proc.devRef .tc main_v27_2) = W2 m ρ c (Proc.devRef .tc main_v27_2) := by
  dsimp only [W5, W4, W3]; after_results_simp

/-! ## The arguments along the fold: no operation writes one, and a region only reads those it stages -/

theorem W1_arg2 (c : Dev nD) : W1 m ρ c (Proc.devRef .tc main_arg2) = m ((c : Thread nD τ).loc main_arg2) := by
  dsimp only [W1]; after_results_simp
  try rfl

theorem W1_arg3 (c : Dev nD) : W1 m ρ c (Proc.devRef .tc main_arg3) = m ((c : Thread nD τ).loc main_arg3) := by
  dsimp only [W1]; after_results_simp
  try rfl

theorem W1_arg5 (c : Dev nD) : W1 m ρ c (Proc.devRef .tc main_arg5) = m ((c : Thread nD τ).loc main_arg5) := by
  dsimp only [W1]; after_results_simp
  try rfl

theorem W1_arg6 (c : Dev nD) : W1 m ρ c (Proc.devRef .tc main_arg6) = m ((c : Thread nD τ).loc main_arg6) := by
  dsimp only [W1]; after_results_simp
  try rfl

theorem W1_arg8 (c : Dev nD) : W1 m ρ c (Proc.devRef .tc main_arg8) = m ((c : Thread nD τ).loc main_arg8) := by
  dsimp only [W1]; after_results_simp
  try rfl

theorem W1_arg10 (c : Dev nD) : W1 m ρ c (Proc.devRef .tc main_arg10) = m ((c : Thread nD τ).loc main_arg10) := by
  dsimp only [W1]; after_results_simp
  try rfl

theorem W1_arg11 (c : Dev nD) : W1 m ρ c (Proc.devRef .tc main_arg11) = m ((c : Thread nD τ).loc main_arg11) := by
  dsimp only [W1]; after_results_simp
  try rfl

theorem W1_arg12 (c : Dev nD) : W1 m ρ c (Proc.devRef .tc main_arg12) = m ((c : Thread nD τ).loc main_arg12) := by
  dsimp only [W1]; after_results_simp
  try rfl

theorem W1_arg14 (c : Dev nD) : W1 m ρ c (Proc.devRef .tc main_arg14) = m ((c : Thread nD τ).loc main_arg14) := by
  dsimp only [W1]; after_results_simp
  try rfl

theorem W1_arg15 (c : Dev nD) : W1 m ρ c (Proc.devRef .tc main_arg15) = m ((c : Thread nD τ).loc main_arg15) := by
  dsimp only [W1]; after_results_simp
  try rfl

theorem W1_arg16 (c : Dev nD) : W1 m ρ c (Proc.devRef .tc main_arg16) = m ((c : Thread nD τ).loc main_arg16) := by
  dsimp only [W1]; after_results_simp
  try rfl

theorem W2_arg10 (c : Dev nD) : W2 m ρ c (Proc.devRef .tc main_arg10) = m ((c : Thread nD τ).loc main_arg10) :=
  (W2_of_ne m ρ c main_arg10 (by decide)).trans (W1_arg10 m ρ c)

theorem W2_arg11 (c : Dev nD) : W2 m ρ c (Proc.devRef .tc main_arg11) = m ((c : Thread nD τ).loc main_arg11) :=
  (W2_of_ne m ρ c main_arg11 (by decide)).trans (W1_arg11 m ρ c)

theorem W2_arg12 (c : Dev nD) : W2 m ρ c (Proc.devRef .tc main_arg12) = m ((c : Thread nD τ).loc main_arg12) :=
  (W2_of_ne m ρ c main_arg12 (by decide)).trans (W1_arg12 m ρ c)

theorem W2_arg14 (c : Dev nD) : W2 m ρ c (Proc.devRef .tc main_arg14) = m ((c : Thread nD τ).loc main_arg14) :=
  (W2_of_ne m ρ c main_arg14 (by decide)).trans (W1_arg14 m ρ c)

theorem W2_arg15 (c : Dev nD) : W2 m ρ c (Proc.devRef .tc main_arg15) = m ((c : Thread nD τ).loc main_arg15) :=
  (W2_of_ne m ρ c main_arg15 (by decide)).trans (W1_arg15 m ρ c)

theorem W2_arg16 (c : Dev nD) : W2 m ρ c (Proc.devRef .tc main_arg16) = m ((c : Thread nD τ).loc main_arg16) :=
  (W2_of_ne m ρ c main_arg16 (by decide)).trans (W1_arg16 m ρ c)

theorem W5_arg12 (c : Dev nD) : W5 m ρ c (Proc.devRef .tc main_arg12) = m ((c : Thread nD τ).loc main_arg12) := by
  have h : W5 m ρ c (Proc.devRef .tc main_arg12) = W2 m ρ c (Proc.devRef .tc main_arg12) := by
    dsimp only [W5, W4, W3]; after_results_simp
  exact h.trans (W2_arg12 m ρ c)

theorem W5_arg14 (c : Dev nD) : W5 m ρ c (Proc.devRef .tc main_arg14) = m ((c : Thread nD τ).loc main_arg14) := by
  have h : W5 m ρ c (Proc.devRef .tc main_arg14) = W2 m ρ c (Proc.devRef .tc main_arg14) := by
    dsimp only [W5, W4, W3]; after_results_simp
  exact h.trans (W2_arg14 m ρ c)

theorem W5_arg15 (c : Dev nD) : W5 m ρ c (Proc.devRef .tc main_arg15) = m ((c : Thread nD τ).loc main_arg15) := by
  have h : W5 m ρ c (Proc.devRef .tc main_arg15) = W2 m ρ c (Proc.devRef .tc main_arg15) := by
    dsimp only [W5, W4, W3]; after_results_simp
  exact h.trans (W2_arg15 m ρ c)

theorem W5_arg16 (c : Dev nD) : W5 m ρ c (Proc.devRef .tc main_arg16) = m ((c : Thread nD τ).loc main_arg16) := by
  have h : W5 m ρ c (Proc.devRef .tc main_arg16) = W2 m ρ c (Proc.devRef .tc main_arg16) := by
    dsimp only [W5, W4, W3]; after_results_simp
  exact h.trans (W2_arg16 m ρ c)

theorem W6_arg14 (c : Dev nD) : W6 m ρ c (Proc.devRef .tc main_arg14) = m ((c : Thread nD τ).loc main_arg14) :=
  (W6_of_ne m ρ c main_arg14 (by decide)).trans (W5_arg14 m ρ c)

theorem W6_arg15 (c : Dev nD) : W6 m ρ c (Proc.devRef .tc main_arg15) = m ((c : Thread nD τ).loc main_arg15) :=
  (W6_of_ne m ρ c main_arg15 (by decide)).trans (W5_arg15 m ρ c)

theorem W6_arg16 (c : Dev nD) : W6 m ρ c (Proc.devRef .tc main_arg16) = m ((c : Thread nD τ).loc main_arg16) :=
  (W6_of_ne m ρ c main_arg16 (by decide)).trans (W5_arg16 m ρ c)

/-! ## The reshaped bias vectors and region 0's results, kept by what follows -/

theorem W5_v26 (c : Dev nD) : W5 m ρ c (Proc.devRef .tc main_v26) = W1 m ρ c (Proc.devRef .tc main_v26) := by
  have h : W5 m ρ c (Proc.devRef .tc main_v26) = W2 m ρ c (Proc.devRef .tc main_v26) := by
    dsimp only [W5, W4, W3]; after_results_simp
  exact h.trans (W2_of_ne m ρ c main_v26 (by decide))
theorem W6_v27_1 (c : Dev nD) : W6 m ρ c (Proc.devRef .tc main_v27_1) = Blocks0.G12 (V1 m ρ) c :=
  (W6_of_ne m ρ c main_v27_1 (by decide)).trans ((W5_keep_v27_1 m ρ c).trans (W2_v27_1 m ρ c))
theorem W6_v27_2 (c : Dev nD) : W6 m ρ c (Proc.devRef .tc main_v27_2) = Blocks0.G13 (V1 m ρ) c :=
  (W6_of_ne m ρ c main_v27_2 (by decide)).trans ((W5_keep_v27_2 m ρ c).trans (W2_v27_2 m ρ c))

end Cert.KernelIdeal.KVal

end
-- ==== Proof.Body0.lean ====
import proofs.«131473_j31112743092597_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body0

open Cert.KernelIdeal Cert.KernelIdeal.Gen Idealize.ShloMosaic Idealize.ShloMosaic.ValueIdx
open scoped BigOperators

/-! ## Sums along one axis, read at coordinates -/

/-- A sum along the last axis of a rank-3 array, at `(a, b)`: the sum over `c` of the entries `(a, b, c)`. -/
theorem sum_axis2_apply {n0 n1 n2 : Nat} (src : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = 0x00000000#32) (a : Fin n0) (b : Fin n1) :
    multiReduction .add [2] ⟨2, ![n0, n1]⟩ src 0x00000000#32 h hφ hacc (ix2 a b) = ∑ c : Fin n2, src (ix3 a b c) := by
  refine (Ideal.multiReduction_add_single src 0x00000000#32 h hφ hacc (ix2 a b)).trans ?_
  refine Finset.sum_congr rfl fun c _ => congrArg src ?_
  funext ax; apply Fin.ext
  match ax with
  | ⟨0, _⟩ => rfl
  | ⟨1, _⟩ => rfl
  | ⟨2, _⟩ => rfl

/-- A sum along the middle axis of a rank-3 array, at `(a, c)`: the sum over `b` of the entries `(a, b, c)`. -/
theorem sum_axis1_apply {n0 n1 n2 : Nat} (src : FVec Ideal ⟨3, ![n0, n1, n2]⟩ .f32)
    (h : (⟨3, ![n0, n1, n2]⟩ : Shape).Reduces [1] ⟨2, ![n0, n2]⟩) (hφ : FKind.Formats .f32)
    (hacc : (0x00000000#32 : BitVec 32) = 0x00000000#32) (a : Fin n0) (c : Fin n2) :
    multiReduction .add [1] ⟨2, ![n0, n2]⟩ src 0x00000000#32 h hφ hacc (ix2 a c) = ∑ b : Fin n1, src (ix3 a b c) := by
  refine (Ideal.multiReduction_add_single src 0x00000000#32 h hφ hacc (ix2 a c)).trans ?_
  refine Finset.sum_congr rfl fun b _ => congrArg src ?_
  funext ax; apply Fin.ext
  match ax with
  | ⟨0, _⟩ => rfl
  | ⟨1, _⟩ => rfl
  | ⟨2, _⟩ => rfl

/-- A sum along the columns of a matrix, at row `a`: the sum over `b` of the entries `(a, b)`. -/
theorem sum_cols_apply {n0 n1 : Nat} (src : FVec Ideal ⟨2, ![n0, n1]⟩ .f32)
    (h : (⟨2, ![n0, n1]⟩ : Shape).Reduces [1] ⟨1, ![n0]⟩) (hφ : FKind.Formats .f32)
    (hacc : (0x00000000#32 : BitVec 32) = 0x00000000#32) (a : Fin n0) :
    multiReduction .add [1] ⟨1, ![n0]⟩ src 0x00000000#32 h hφ hacc (ix1 a) = ∑ b : Fin n1, src (ix2 a b) := by
  refine (Ideal.multiReduction_add_single src 0x00000000#32 h hφ hacc (ix1 a)).trans ?_
  refine Finset.sum_congr rfl fun b _ => congrArg src ?_
  funext ax; apply Fin.ext
  match ax with
  | ⟨0, _⟩ => rfl
  | ⟨1, _⟩ => rfl

/-! ## Layout operations read at coordinates -/

section Layout
variable {α : Type}

/-- An `[a, b]` array viewed `[a, b, 1]` reads, at `(i, j, u)`, the entry `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A vector `[a]` viewed as a column `[a, 1]` reads, at `(i, u)`, the entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array repeated along its last axis reads, at `(i, j, k)`, the entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array repeated along its first axis reads, at `(i, j, k)`, the entry `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Layout

/-! ## The zero offsets -/

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first-order term -/

theorem pay9_apply (x0 x1 : Vec Ideal S256x13 .f32) (x2 : Vec Ideal S256x26 .f32) (x3 : Vec Ideal S256x26x64 .f32)
    (x5 x6 : Vec Ideal S13x64 .f32) (r : Fin 256) :
    k0_pay9 (F := Ideal) x0 x1 x2 x3 x5 x6 (ix1 r)
      = (∑ f : Fin 13, ∑ e : Fin 64, (x0 (ix2 r f) * x5 (ix2 f e) + x6 (ix2 f e)) * x1 (ix2 r f))
        + (∑ j : Fin 26, ∑ e : Fin 64, x3 (ix3 r j e) * x2 (ix2 r j)) := by
  unfold k0_pay9 k0_pay6 k0_pay7
  simp only [shapeCast_self]
  rw [addf_apply, sum_cols_apply, sum_cols_apply]
  congr 1
  · refine Finset.sum_congr rfl fun f _ => ?_
    rw [sum_axis2_apply]
    refine Finset.sum_congr rfl fun e _ => ?_
    rw [mulf_apply, addf_apply, mulf_apply, broadcastTo_ab1_abc_apply, broadcastTo_1bc_abc_apply,
      broadcastTo_1bc_abc_apply, broadcastTo_ab1_abc_apply, shapeCast_ab_ab1_apply, shapeCast_ab_1ab_apply,
      shapeCast_ab_1ab_apply, shapeCast_ab_ab1_apply]
  · refine Finset.sum_congr rfl fun j _ => ?_
    rw [sum_axis2_apply]
    refine Finset.sum_congr rfl fun e _ => ?_
    rw [mulf_apply, broadcastTo_ab1_abc_apply, shapeCast_ab_ab1_apply]

/-- The summed first-order term, as the body leaves it in its output block, at row `r`. -/
theorem out0_12_apply (x0 x1 : Vec Ideal S256x13 .f32) (x2 : Vec Ideal S256x26 .f32) (x3 x4 : Vec Ideal S256x26x64 .f32)
    (x5 x6 x7 x8 : Vec Ideal S13x64 .f32) (x9 : Vec Ideal S2496x512 .f32) (x10 : Vec Ideal S1x512 .f32) (r : Fin 256) :
    out0_12 (F := Ideal) x0 x1 x2 x3 x4 x5 x6 x7 x8 x9 x10 (ix2 r (0 : Fin 1))
      = (∑ f : Fin 13, ∑ e : Fin 64, (x0 (ix2 r f) * x5 (ix2 f e) + x6 (ix2 f e)) * x1 (ix2 r f))
        + (∑ j : Fin 26, ∑ e : Fin 64, x3 (ix3 r j e) * x2 (ix2 r j)) := by
  unfold out0_12
  rw [View.canon_unit_zero hz2]
  simp only [View.ld_unit_zero (S := S256x13) hz2, View.ld_unit_zero (S := S256x26) hz2,
    View.ld_unit_zero (S := S13x64) hz2, View.ld_unit_zero (S := S256x26x64) hz3]
  unfold k0_pay4
  rw [shapeCast_a_a1_apply, pay9_apply]

/-! ## The second-order terms -/

/-- The dense fields' second-order embedding: `dense * w2 + b2`, at row `r`, field `f`, lane `e`. -/
def soDense (x0 : Vec Ideal S256x13 .f32) (x7 x8 : Vec Ideal S13x64 .f32) (r : Fin 256) (f : Fin 13) (e : Fin 64) : EReal :=
  x0 (ix2 r f) * x7 (ix2 f e) + x8 (ix2 f e)

/-- The sparse fields' second-order embedding: the gathered row times the field's value, at row `r`, field `j`, lane `e`. -/
def soSparse (x2 : Vec Ideal S256x26 .f32) (x4 : Vec Ideal S256x26x64 .f32) (r : Fin 256) (j : Fin 26) (e : Fin 64) : EReal :=
  x4 (ix3 r j e) * x2 (ix2 r j)

theorem pay1_apply (x0 : Vec Ideal S256x13 .f32) (x7 x8 : Vec Ideal S13x64 .f32) (r : Fin 256) (f : Fin 13) (e : Fin 64) :
    k0_pay1 (F := Ideal) x8 (k0_pay10 x0) (k0_pay11 x7) (ix3 r f e) = soDense x0 x7 x8 r f e := by
  unfold k0_pay1 k0_pay10 k0_pay11 k0_pay6 soDense
  simp only [shapeCast_self]
  rw [addf_apply, mulf_apply, broadcastTo_ab1_abc_apply, broadcastTo_1bc_abc_apply, broadcastTo_1bc_abc_apply,
    shapeCast_ab_ab1_apply, shapeCast_ab_1ab_apply, shapeCast_ab_1ab_apply]

theorem pay2_apply (x2 : Vec Ideal S256x26 .f32) (x4 : Vec Ideal S256x26x64 .f32) (r : Fin 256) (j : Fin 26) (e : Fin 64) :
    k0_pay2 (F := Ideal) (k0_pay7 x2) (k0_pay8 x4) (ix3 r j e) = soSparse x2 x4 r j e := by
  unfold k0_pay2 k0_pay7 k0_pay8 soSparse
  simp only [shapeCast_self]
  rw [mulf_apply, broadcastTo_ab1_abc_apply, shapeCast_ab_ab1_apply]

theorem pay5_apply (x0 : Vec Ideal S256x13 .f32) (x2 : Vec Ideal S256x26 .f32) (x4 : Vec Ideal S256x26x64 .f32)
    (x7 x8 : Vec Ideal S13x64 .f32) (r : Fin 256) :
    k0_pay5 (F := Ideal) (k0_pay7 x2) (k0_pay8 x4) x8 (k0_pay10 x0) (k0_pay11 x7) (ix2 r (0 : Fin 1))
      = ∑ e : Fin 64, Ideal.ofBits .f32 0x3F000000#32 *
          (((∑ f : Fin 13, soDense x0 x7 x8 r f e) + (∑ j : Fin 26, soSparse x2 x4 r j e))
              * ((∑ f : Fin 13, soDense x0 x7 x8 r f e) + (∑ j : Fin 26, soSparse x2 x4 r j e))
            - ((∑ f : Fin 13, soDense x0 x7 x8 r f e * soDense x0 x7 x8 r f e)
              + (∑ j : Fin 26, soSparse x2 x4 r j e * soSparse x2 x4 r j e))) := by
  unfold k0_pay5
  rw [shapeCast_a_a1_apply, sum_cols_apply]
  refine Finset.sum_congr rfl fun e _ => ?_
  rw [mulf_apply, broadcast_apply, subf_apply, mulf_apply, addf_apply, addf_apply, sum_axis1_apply, sum_axis1_apply,
    sum_axis1_apply, sum_axis1_apply]
  simp only [mulf_apply, pay1_apply, pay2_apply]
  rfl

/-- The summed second-order term, as the body leaves it in its output block, at row `r`. -/
theorem out0_13_apply (x0 x1 : Vec Ideal S256x13 .f32) (x2 : Vec Ideal S256x26 .f32) (x3 x4 : Vec Ideal S256x26x64 .f32)
    (x5 x6 x7 x8 : Vec Ideal S13x64 .f32) (x9 : Vec Ideal S2496x512 .f32) (x10 : Vec Ideal S1x512 .f32) (r : Fin 256) :
    out0_13 (F := Ideal) x0 x1 x2 x3 x4 x5 x6 x7 x8 x9 x10 (ix2 r (0 : Fin 1))
      = ∑ e : Fin 64, Ideal.ofBits .f32 0x3F000000#32 *
          (((∑ f : Fin 13, soDense x0 x7 x8 r f e) + (∑ j : Fin 26, soSparse x2 x4 r j e))
              * ((∑ f : Fin 13, soDense x0 x7 x8 r f e) + (∑ j : Fin 26, soSparse x2 x4 r j e))
            - ((∑ f : Fin 13, soDense x0 x7 x8 r f e * soDense x0 x7 x8 r f e)
              + (∑ j : Fin 26, soSparse x2 x4 r j e * soSparse x2 x4 r j e))) := by
  unfold out0_13
  rw [View.canon_unit_zero hz2]
  simp only [View.ld_unit_zero (S := S256x13) hz2, View.ld_unit_zero (S := S256x26) hz2,
    View.ld_unit_zero (S := S13x64) hz2, View.ld_unit_zero (S := S256x26x64) hz3]
  exact pay5_apply x0 x2 x4 x7 x8 r

/-! ## Two arrays joined along the middle axis, and the row-major flattening of the last two axes -/

section Join
variable {α : Type}

/-- Two rank-3 arrays joined along axis 1, read at `(a, q, e)` with `q` inside the first: the first at `(a, q, e)`. -/
theorem concatenate3_axis1_left {n0 m1 m2 m n2 : ℕ} (x₁ : (⟨3, ![n0, m1, n2]⟩ : Shape).Idx → α)
    (x₂ : (⟨3, ![n0, m2, n2]⟩ : Shape).Idx → α)
    (h : Shape.Concatenates [⟨3, ![n0, m1, n2]⟩, ⟨3, ![n0, m2, n2]⟩] ⟨3, ![n0, m, n2]⟩ 1)
    (a : Fin n0) (q : Fin m) (e : Fin n2) (q' : Fin m1) (hq : q'.val = q.val) :
    concatenate ⟨3, ![n0, m, n2]⟩ 1 [⟨⟨3, ![n0, m1, n2]⟩, x₁⟩, ⟨⟨3, ![n0, m2, n2]⟩, x₂⟩] h (ix3 a q e) = x₁ (ix3 a q' e) :=
  concatenate_pair_apply_left (t := ⟨3, ![n0, m, n2]⟩) (s₁ := ⟨3, ![n0, m1, n2]⟩) (s₂ := ⟨3, ![n0, m2, n2]⟩) (1 : Fin 3) x₁ x₂ h
    (ix3 a q e) rfl (ix3 a q' e) (fun b => by
    match b with
    | ⟨0, _⟩ => rfl
    | ⟨1, _⟩ => exact hq
    | ⟨2, _⟩ => rfl)

/-- … and with `q` past the first: the second at `(a, q - m1, e)`. -/
theorem concatenate3_axis1_right {n0 m1 m2 m n2 : ℕ} (x₁ : (⟨3, ![n0, m1, n2]⟩ : Shape).Idx → α)
    (x₂ : (⟨3, ![n0, m2, n2]⟩ : Shape).Idx → α)
    (h : Shape.Concatenates [⟨3, ![n0, m1, n2]⟩, ⟨3, ![n0, m2, n2]⟩] ⟨3, ![n0, m, n2]⟩ 1)
    (a : Fin n0) (q : Fin m) (e : Fin n2) (q' : Fin m2) (hq : q'.val + m1 = q.val) :
    concatenate ⟨3, ![n0, m, n2]⟩ 1 [⟨⟨3, ![n0, m1, n2]⟩, x₁⟩, ⟨⟨3, ![n0, m2, n2]⟩, x₂⟩] h (ix3 a q e) = x₂ (ix3 a q' e) :=
  concatenate_pair_apply_right (t := ⟨3, ![n0, m, n2]⟩) (s₁ := ⟨3, ![n0, m1, n2]⟩) (s₂ := ⟨3, ![n0, m2, n2]⟩) (1 : Fin 3) x₁ x₂ h
    (ix3 a q e) rfl rfl (ix3 a q' e) (fun b hb => by
    match b, hb with
    | ⟨0, _⟩, _ => rfl
    | ⟨1, _⟩, hb => exact absurd rfl hb
    | ⟨2, _⟩, _ => rfl) hq

/-- An `[a, b, c]` array flattened row-major to `[a, b * c]` reads, at `(i, k)` with `k = c * j + l`, the entry `(i, j, l)`. -/
theorem shapeCast_abc_aD_apply {a b c d : ℕ} (x : (⟨3, ![a, b, c]⟩ : Shape).Idx → α)
    (h : (⟨3, ![a, b, c]⟩ : Shape).ShapeCasts ⟨2, ![a, d]⟩) (hd : d = b * c) (i : Fin a) (k : Fin d) (j : Fin b) (l : Fin c)
    (hk : k.val = j.val * c + l.val) :
    shapeCast ⟨2, ![a, d]⟩ x h (ix2 i k) = x (ix3 i j l) :=
  shapeCast_apply x h _ _ (by
    rw [Shape.rowMajor_val_three, Shape.rowMajor_val_two]
    show (i.val * b + j.val) * c + l.val = i.val * d + k.val
    rw [hk, hd, Nat.add_mul, Nat.mul_assoc, Nat.add_assoc])

end Join

/-! ## The matrix the body multiplies, and its product -/

/-- The `[256, 2496]` matrix the body multiplies into the first layer's weights: the 13 dense second-order rows
    followed by the 26 sparse ones, 64 lanes each, laid end to end (`k = 64 * field + lane`). -/
def deep (x0 : Vec Ideal S256x13 .f32) (x2 : Vec Ideal S256x26 .f32) (x4 : Vec Ideal S256x26x64 .f32)
    (x7 x8 : Vec Ideal S13x64 .f32) (r : Fin 256) (k : Fin 2496) : EReal :=
  if h : k.val < 832 then soDense x0 x7 x8 r ⟨k.val / 64, by omega⟩ ⟨k.val % 64, by omega⟩
  else soSparse x2 x4 r ⟨k.val / 64 - 13, by have := k.isLt; omega⟩ ⟨k.val % 64, by omega⟩

theorem deep_apply (x0 : Vec Ideal S256x13 .f32) (x2 : Vec Ideal S256x26 .f32) (x4 : Vec Ideal S256x26x64 .f32)
    (x7 x8 : Vec Ideal S13x64 .f32) (r : Fin 256) (k : Fin 2496) :
    shapeCast S256x2496
        (concatenate S256x39x64 1
          [⟨S256x13x64, k0_pay1 (F := Ideal) x8 (k0_pay10 x0) (k0_pay11 x7)⟩, ⟨S256x26x64, k0_pay2 (F := Ideal) (k0_pay7 x2) (k0_pay8 x4)⟩]
          concatenates_S256x13x64_S256x26x64_S256x39x64_d1)
        shapeCasts_S256x39x64_S256x2496 (ix2 r k)
      = deep x0 x2 x4 x7 x8 r k := by
  have hk := k.isLt
  rw [shapeCast_abc_aD_apply (a := 256) (b := 39) (c := 64) (d := 2496) _ _ (by decide) r k ⟨k.val / 64, by omega⟩ ⟨k.val % 64, by omega⟩
    (by show k.val = k.val / 64 * 64 + k.val % 64; omega)]
  unfold deep
  split
  · next h =>
    rw [concatenate3_axis1_left (n0 := 256) (m1 := 13) (m2 := 26) (m := 39) (n2 := 64) _ _ _ r _ _ ⟨k.val / 64, by omega⟩ rfl,
      pay1_apply]
  · next h =>
    rw [concatenate3_axis1_right (n0 := 256) (m1 := 13) (m2 := 26) (m := 39) (n2 := 64) _ _ _ r _ _ ⟨k.val / 64 - 13, by omega⟩
      (by show k.val / 64 - 13 + 13 = k.val / 64; omega), pay2_apply]

/-- The product's left operand index at output `(r, n)` and contraction coordinate `k` is `(r, k)`. -/
theorem lhsIdx_eq (r : Fin 256) (n : Fin 512) (k : Fin 2496) :
    dot_S256x2496_S2496x512_S256x512_1_0_0_1_n_n.lhsIdx (ix2 r n)
        ((contrEquiv1 dot_S256x2496_S2496x512_S256x512_1_0_0_1_n_n 2496 rfl rfl).symm k) = ix2 r k := by
  funext ax; apply Fin.ext
  match ax with
  | ⟨0, _⟩ => rfl
  | ⟨1, _⟩ =>
    exact (DotDims.lhsIdx_val_of_single dot_S256x2496_S2496x512_S256x512_1_0_0_1_n_n (cl := (1 : Fin 2)) rfl _ _).trans
      (contrEquiv1_symm_val _ 2496 rfl rfl k)

/-- … and the right operand's is `(k, n)`. -/
theorem rhsIdx_eq (r : Fin 256) (n : Fin 512) (k : Fin 2496) :
    dot_S256x2496_S2496x512_S256x512_1_0_0_1_n_n.rhsIdx (ix2 r n)
        ((contrEquiv1 dot_S256x2496_S2496x512_S256x512_1_0_0_1_n_n 2496 rfl rfl).symm k) = ix2 k n := by
  funext ax; apply Fin.ext
  match ax with
  | ⟨0, _⟩ =>
    exact (DotDims.rhsIdx_val_of_single dot_S256x2496_S2496x512_S256x512_1_0_0_1_n_n (cr := (0 : Fin 2)) rfl _ _).trans
      (contrEquiv1_symm_val _ 2496 rfl rfl k)
  | ⟨1, _⟩ => rfl

theorem pay3_apply (x0 : Vec Ideal S256x13 .f32) (x2 : Vec Ideal S256x26 .f32) (x4 : Vec Ideal S256x26x64 .f32)
    (x7 x8 : Vec Ideal S13x64 .f32) (x9 : Vec Ideal S2496x512 .f32) (x10 : Vec Ideal S1x512 .f32) (r : Fin 256) (n : Fin 512) :
    k0_pay3 (F := Ideal) (k0_pay7 x2) (k0_pay8 x4) x8 (k0_pay10 x0) (k0_pay11 x7) x9 x10 (ix2 r n)
      = (∑ k : Fin 2496, deep x0 x2 x4 x7 x8 r k * x9 (ix2 k n)) + x10 (ix2 (0 : Fin 1) n) := by
  unfold k0_pay3
  simp only [shapeCast_self]
  rw [addf_apply, broadcastTo_1b_ab_apply]
  congr 1
  simp only [matmul]
  rw [Ideal.matmul_constant_zero_apply,
    ← Equiv.sum_comp (contrEquiv1 dot_S256x2496_S2496x512_S256x512_1_0_0_1_n_n 2496 rfl rfl).symm]
  refine Finset.sum_congr rfl fun k _ => ?_
  rw [lhsIdx_eq, rhsIdx_eq, deep_apply]

/-- The first hidden layer before its activation, as the body leaves it in its output block, at `(r, n)`. -/
theorem out0_11_apply (x0 x1 : Vec Ideal S256x13 .f32) (x2 : Vec Ideal S256x26 .f32) (x3 x4 : Vec Ideal S256x26x64 .f32)
    (x5 x6 x7 x8 : Vec Ideal S13x64 .f32) (x9 : Vec Ideal S2496x512 .f32) (x10 : Vec Ideal S1x512 .f32) (r : Fin 256) (n : Fin 512) :
    out0_11 (F := Ideal) x0 x1 x2 x3 x4 x5 x6 x7 x8 x9 x10 (ix2 r n)
      = (∑ k : Fin 2496, deep x0 x2 x4 x7 x8 r k * x9 (ix2 k n)) + x10 (ix2 (0 : Fin 1) n) := by
  unfold out0_11
  rw [View.canon_unit_zero hz2]
  simp only [View.ld_unit_zero (S := S256x13) hz2, View.ld_unit_zero (S := S256x26) hz2,
    View.ld_unit_zero (S := S13x64) hz2, View.ld_unit_zero (S := S256x26x64) hz3,
    View.ld_unit_zero (S := S2496x512) hz2, View.ld_unit_zero (S := S1x512) hz2]
  exact pay3_apply x0 x2 x4 x7 x8 x9 x10 r n

end Cert.KernelIdeal.Body0

end
-- ==== Proof.Entries0.lean ====
/-
  Region 0's input blocks as entries of the arrays the region finds.  The five batch-tiled inputs (dense values, the
  two slices of Xv, the two gathered embedding arrays) have block row t at point t, so the block of the point holding
  row b, read at local row b % 256, is the array at row b; the six parameter inputs are staged whole, so their block at
  any point is the array itself.
-/
import proofs.«131473_j31112743092597_2_alg».proof.Proof.Blocks0

set_option maxRecDepth 16384

noncomputable section

namespace Cert.KernelIdeal.Blocks0

open Cert.KernelIdeal Cert.KernelIdeal.Gen Idealize.ShloMosaic Idealize.ShloMosaic.TcCoe Idealize.SL.Sem Idealize.ShloMosaic.ValueIdx

variable {F : FTy → Type} [FloatOps F]
variable (V : (c : Dev nD) → (b : Ref sig .tc) → Buf (Elt F) ((c : Thread nD τ).loc b))

/-- The block indices of the input windows over the grid: the batch-tiled ones move with the point on axis 0, the
    parameters stay at block 0. -/
theorem in_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

theorem ptOf_val (b : Fin 8192) : (ptOf b).val = b.val / 256 := rfl

/-- Input window 0: the block of the point holding row `b`, at local row `b % 256`, is the array's row `b`. -/
theorem entry0 (c : Dev nD) (b : Fin 8192) (f : Fin 13) :
    iblk0 V c 0 (ptOf b) (ix2 ⟨b.val % 256, Nat.mod_lt _ (by decide)⟩ f : S256x13.Idx) = V c main_v2 (ix2 b f) := by
  show V c main_v2 (((cfg0.win 0).blk (ptOf b)).view.emb (ix2 ⟨b.val % 256, Nat.mod_lt _ (by decide)⟩ f : S256x13.Idx)) = _
  have h := in_idx_facts (ptOf b)
  have hv := ptOf_val b
  congr 1
  funext a; apply Fin.ext
  match a with
  | ⟨0, _⟩ => show win0_0.index (ptOf b) (0 : Fin 2) * 256 + 1 * (b.val % 256) = b.val; omega
  | ⟨1, _⟩ => show win0_0.index (ptOf b) (1 : Fin 2) * 13 + 1 * f.val = f.val; omega

/-- Input window 1: the block of the point holding row `b`, at local row `b % 256`, is the array's row `b`. -/
theorem entry1 (c : Dev nD) (b : Fin 8192) (f : Fin 13) :
    iblk0 V c 1 (ptOf b) (ix2 ⟨b.val % 256, Nat.mod_lt _ (by decide)⟩ f : S256x13.Idx) = V c main_v4 (ix2 b f) := by
  show V c main_v4 (((cfg0.win 1).blk (ptOf b)).view.emb (ix2 ⟨b.val % 256, Nat.mod_lt _ (by decide)⟩ f : S256x13.Idx)) = _
  have h := in_idx_facts (ptOf b)
  have hv := ptOf_val b
  congr 1
  funext a; apply Fin.ext
  match a with
  | ⟨0, _⟩ => show win0_1.index (ptOf b) (0 : Fin 2) * 256 + 1 * (b.val % 256) = b.val; omega
  | ⟨1, _⟩ => show win0_1.index (ptOf b) (1 : Fin 2) * 13 + 1 * f.val = f.val; omega

/-- Input window 2: the block of the point holding row `b`, at local row `b % 256`, is the array's row `b`. -/
theorem entry2 (c : Dev nD) (b : Fin 8192) (f : Fin 26) :
    iblk0 V c 2 (ptOf b) (ix2 ⟨b.val % 256, Nat.mod_lt _ (by decide)⟩ f : S256x26.Idx) = V c main_v5 (ix2 b f) := by
  show V c main_v5 (((cfg0.win 2).blk (ptOf b)).view.emb (ix2 ⟨b.val % 256, Nat.mod_lt _ (by decide)⟩ f : S256x26.Idx)) = _
  have h := in_idx_facts (ptOf b)
  have hv := ptOf_val b
  congr 1
  funext a; apply Fin.ext
  match a with
  | ⟨0, _⟩ => show win0_2.index (ptOf b) (0 : Fin 2) * 256 + 1 * (b.val % 256) = b.val; omega
  | ⟨1, _⟩ => show win0_2.index (ptOf b) (1 : Fin 2) * 26 + 1 * f.val = f.val; omega

/-- Input window 3: the block of the point holding row `b`, at local row `b % 256`, is the array's row `b`. -/
theorem entry3 (c : Dev nD) (b : Fin 8192) (j : Fin 26) (e : Fin 64) :
    iblk0 V c 3 (ptOf b) (ix3 ⟨b.val % 256, Nat.mod_lt _ (by decide)⟩ j e : S256x26x64.Idx) = V c main_v15 (ix3 b j e) := by
  show V c main_v15 (((cfg0.win 3).blk (ptOf b)).view.emb (ix3 ⟨b.val % 256, Nat.mod_lt _ (by decide)⟩ j e : S256x26x64.Idx)) = _
  have h := in_idx_facts (ptOf b)
  have hv := ptOf_val b
  congr 1
  funext a; apply Fin.ext
  match a with
  | ⟨0, _⟩ => show win0_3.index (ptOf b) (0 : Fin 3) * 256 + 1 * (b.val % 256) = b.val; omega
  | ⟨1, _⟩ => show win0_3.index (ptOf b) (1 : Fin 3) * 26 + 1 * j.val = j.val; omega
  | ⟨2, _⟩ => show win0_3.index (ptOf b) (2 : Fin 3) * 64 + 1 * e.val = e.val; omega

/-- Input window 4: the block of the point holding row `b`, at local row `b % 256`, is the array's row `b`. -/
theorem entry4 (c : Dev nD) (b : Fin 8192) (j : Fin 26) (e : Fin 64) :
    iblk0 V c 4 (ptOf b) (ix3 ⟨b.val % 256, Nat.mod_lt _ (by decide)⟩ j e : S256x26x64.Idx) = V c main_v24 (ix3 b j e) := by
  show V c main_v24 (((cfg0.win 4).blk (ptOf b)).view.emb (ix3 ⟨b.val % 256, Nat.mod_lt _ (by decide)⟩ j e : S256x26x64.Idx)) = _
  have h := in_idx_facts (ptOf b)
  have hv := ptOf_val b
  congr 1
  funext a; apply Fin.ext
  match a with
  | ⟨0, _⟩ => show win0_4.index (ptOf b) (0 : Fin 3) * 256 + 1 * (b.val % 256) = b.val; omega
  | ⟨1, _⟩ => show win0_4.index (ptOf b) (1 : Fin 3) * 26 + 1 * j.val = j.val; omega
  | ⟨2, _⟩ => show win0_4.index (ptOf b) (2 : Fin 3) * 64 + 1 * e.val = e.val; omega

/-- Input window 5 is staged whole: its block at any point is the array. -/
theorem whole5 (c : Dev nD) (t : Fin cfg0.N) (y : S13x64.Idx) : iblk0 V c 5 t y = V c main_arg2 y := by
  show V c main_arg2 (((cfg0.win 5).blk t).view.emb y) = _
  have h := in_idx_facts t
  have hy0 : (y 0).val < 13 := (y 0).isLt
  have hy1 : (y 1).val < 64 := (y 1).isLt
  congr 1
  funext a; apply Fin.ext
  match a with
  | ⟨0, _⟩ => show win0_5.index t (0 : Fin 2) * 13 + 1 * (y 0).val = (y 0).val; omega
  | ⟨1, _⟩ => show win0_5.index t (1 : Fin 2) * 64 + 1 * (y 1).val = (y 1).val; omega

/-- Input window 6 is staged whole: its block at any point is the array. -/
theorem whole6 (c : Dev nD) (t : Fin cfg0.N) (y : S13x64.Idx) : iblk0 V c 6 t y = V c main_arg3 y := by
  show V c main_arg3 (((cfg0.win 6).blk t).view.emb y) = _
  have h := in_idx_facts t
  have hy0 : (y 0).val < 13 := (y 0).isLt
  have hy1 : (y 1).val < 64 := (y 1).isLt
  congr 1
  funext a; apply Fin.ext
  match a with
  | ⟨0, _⟩ => show win0_6.index t (0 : Fin 2) * 13 + 1 * (y 0).val = (y 0).val; omega
  | ⟨1, _⟩ => show win0_6.index t (1 : Fin 2) * 64 + 1 * (y 1).val = (y 1).val; omega

/-- Input window 7 is staged whole: its block at any point is the array. -/
theorem whole7 (c : Dev nD) (t : Fin cfg0.N) (y : S13x64.Idx) : iblk0 V c 7 t y = V c main_arg5 y := by
  show V c main_arg5 (((cfg0.win 7).blk t).view.emb y) = _
  have h := in_idx_facts t
  have hy0 : (y 0).val < 13 := (y 0).isLt
  have hy1 : (y 1).val < 64 := (y 1).isLt
  congr 1
  funext a; apply Fin.ext
  match a with
  | ⟨0, _⟩ => show win0_7.index t (0 : Fin 2) * 13 + 1 * (y 0).val = (y 0).val; omega
  | ⟨1, _⟩ => show win0_7.index t (1 : Fin 2) * 64 + 1 * (y 1).val = (y 1).val; omega

/-- Input window 8 is staged whole: its block at any point is the array. -/
theorem whole8 (c : Dev nD) (t : Fin cfg0.N) (y : S13x64.Idx) : iblk0 V c 8 t y = V c main_arg6 y := by
  show V c main_arg6 (((cfg0.win 8).blk t).view.emb y) = _
  have h := in_idx_facts t
  have hy0 : (y 0).val < 13 := (y 0).isLt
  have hy1 : (y 1).val < 64 := (y 1).isLt
  congr 1
  funext a; apply Fin.ext
  match a with
  | ⟨0, _⟩ => show win0_8.index t (0 : Fin 2) * 13 + 1 * (y 0).val = (y 0).val; omega
  | ⟨1, _⟩ => show win0_8.index t (1 : Fin 2) * 64 + 1 * (y 1).val = (y 1).val; omega

/-- Input window 9 is staged whole: its block at any point is the array. -/
theorem whole9 (c : Dev nD) (t : Fin cfg0.N) (y : S2496x512.Idx) : iblk0 V c 9 t y = V c main_arg8 y := by
  show V c main_arg8 (((cfg0.win 9).blk t).view.emb y) = _
  have h := in_idx_facts t
  have hy0 : (y 0).val < 2496 := (y 0).isLt
  have hy1 : (y 1).val < 512 := (y 1).isLt
  congr 1
  funext a; apply Fin.ext
  match a with
  | ⟨0, _⟩ => show win0_9.index t (0 : Fin 2) * 2496 + 1 * (y 0).val = (y 0).val; omega
  | ⟨1, _⟩ => show win0_9.index t (1 : Fin 2) * 512 + 1 * (y 1).val = (y 1).val; omega

/-- Input window 10 is staged whole: its block at any point is the array. -/
theorem whole10 (c : Dev nD) (t : Fin cfg0.N) (y : S1x512.Idx) : iblk0 V c 10 t y = V c main_v25 y := by
  show V c main_v25 (((cfg0.win 10).blk t).view.emb y) = _
  have h := in_idx_facts t
  have hy0 : (y 0).val < 1 := (y 0).isLt
  have hy1 : (y 1).val < 512 := (y 1).isLt
  congr 1
  funext a; apply Fin.ext
  match a with
  | ⟨0, _⟩ => show win0_10.index t (0 : Fin 2) * 1 + 1 * (y 0).val = (y 0).val; omega
  | ⟨1, _⟩ => show win0_10.index t (1 : Fin 2) * 512 + 1 * (y 1).val = (y 1).val; omega

end Cert.KernelIdeal.Blocks0

end
-- ==== Proof.Whole.lean ====
/-
  From one grid point's blocks to the whole arrays: what regions 0 and 1 leave in their output arrays, read at a row
  of the full batch as sums over the arrays each region finds on entry.  Row `b` of an output of region 0 is computed
  by the point `b / 256` from its blocks at local row `b % 256`; the batch-tiled inputs' blocks there are the arrays'
  row `b`, and the parameters' blocks are the parameter arrays themselves.  Region 1 likewise with tiles of 1024 rows.
-/
import proofs.«131473_j31112743092597_2_alg».proof.Proof.Body0
import proofs.«131473_j31112743092597_2_alg».proof.Proof.Entries0
import proofs.«131473_j31112743092597_2_alg».proof.Proof.Blocks1

set_option maxRecDepth 16384

noncomputable section

namespace Cert.KernelIdeal.Whole

open Cert.KernelIdeal Cert.KernelIdeal.Gen Idealize.ShloMosaic Idealize.ShloMosaic.TcCoe Idealize.SL.Sem Idealize.ShloMosaic.ValueIdx
open scoped BigOperators

/-! ## The four results as functions of whole arrays -/

/-- The dense fields' second-order embedding at row `b` of the batch, field `f`, lane `e`. -/
def soDenseW (dense : Vec Ideal S8192x13 .f32) (w2 b2 : Vec Ideal S13x64 .f32) (b : Fin 8192) (f : Fin 13) (e : Fin 64) : EReal :=
  dense (ix2 b f) * w2 (ix2 f e) + b2 (ix2 f e)

/-- The sparse fields' second-order embedding at row `b` of the batch, field `j`, lane `e`. -/
def soSparseW (xvs : Vec Ideal S8192x26 .f32) (emb2 : Vec Ideal S8192x26x64 .f32) (b : Fin 8192) (j : Fin 26) (e : Fin 64) : EReal :=
  emb2 (ix3 b j e) * xvs (ix2 b j)

/-- Row `b` of the `[8192, 2496]` matrix the first layer multiplies: the 13 dense second-order rows followed by the 26
    sparse ones, 64 lanes each (`k = 64 * field + lane`). -/
def deepW (dense : Vec Ideal S8192x13 .f32) (xvs : Vec Ideal S8192x26 .f32) (emb2 : Vec Ideal S8192x26x64 .f32)
    (w2 b2 : Vec Ideal S13x64 .f32) (b : Fin 8192) (k : Fin 2496) : EReal :=
  if h : k.val < 832 then soDenseW dense w2 b2 b ⟨k.val / 64, by omega⟩ ⟨k.val % 64, by omega⟩
  else soSparseW xvs emb2 b ⟨k.val / 64 - 13, by have := k.isLt; omega⟩ ⟨k.val % 64, by omega⟩

/-- The summed first-order term at row `b`. -/
def fmFirstW (dense xvd : Vec Ideal S8192x13 .f32) (xvs : Vec Ideal S8192x26 .f32) (emb1 : Vec Ideal S8192x26x64 .f32)
    (w1 b1 : Vec Ideal S13x64 .f32) (b : Fin 8192) : EReal :=
  (∑ f : Fin 13, ∑ e : Fin 64, (dense (ix2 b f) * w1 (ix2 f e) + b1 (ix2 f e)) * xvd (ix2 b f))
    + (∑ j : Fin 26, ∑ e : Fin 64, emb1 (ix3 b j e) * xvs (ix2 b j))

/-- The summed second-order term at row `b`: half of (square of the sum minus sum of the squares), lane by lane. -/
def fmSecondW (dense : Vec Ideal S8192x13 .f32) (xvs : Vec Ideal S8192x26 .f32) (emb2 : Vec Ideal S8192x26x64 .f32)
    (w2 b2 : Vec Ideal S13x64 .f32) (b : Fin 8192) : EReal :=
  ∑ e : Fin 64, Ideal.ofBits .f32 0x3F000000#32 *
    (((∑ f : Fin 13, soDenseW dense w2 b2 b f e) + (∑ j : Fin 26, soSparseW xvs emb2 b j e))
        * ((∑ f : Fin 13, soDenseW dense w2 b2 b f e) + (∑ j : Fin 26, soSparseW xvs emb2 b j e))
      - ((∑ f : Fin 13, soDenseW dense w2 b2 b f e * soDenseW dense w2 b2 b f e)
        + (∑ j : Fin 26, soSparseW xvs emb2 b j e * soSparseW xvs emb2 b j e)))

/-- The first hidden layer before its activation, at `(b, n)`. -/
def hidden1W (dense : Vec Ideal S8192x13 .f32) (xvs : Vec Ideal S8192x26 .f32) (emb2 : Vec Ideal S8192x26x64 .f32)
    (w2 b2 : Vec Ideal S13x64 .f32) (W1 : Vec Ideal S2496x512 .f32) (c1 : Vec Ideal S1x512 .f32) (b : Fin 8192) (n : Fin 512) : EReal :=
  (∑ k : Fin 2496, deepW dense xvs emb2 w2 b2 b k * W1 (ix2 k n)) + c1 (ix2 (0 : Fin 1) n)

/-- The second matrix product with its bias, at `(b, n)`. -/
def hidden2W (h : Vec Ideal S8192x512 .f32) (W2 : Vec Ideal S512x256 .f32) (c2 : Vec Ideal S1x256 .f32) (b : Fin 8192) (n : Fin 256) : EReal :=
  (∑ k : Fin 512, h (ix2 b k) * W2 (ix2 k n)) + c2 (ix2 (0 : Fin 1) n)

variable (V : (c : Dev nD) → (b : Ref sig .tc) → Buf (Elt Ideal) ((c : Thread nD τ).loc b))

/-! ## Region 0: the summed first-order term -/

theorem G12_apply (c : Dev nD) (b : Fin 8192) :
    Blocks0.G12 V c (ix2 b (0 : Fin 1))
      = fmFirstW (V c main_v2) (V c main_v4) (V c main_v5) (V c main_v15) (V c main_arg2) (V c main_arg3) b := by
  refine (Body0.out0_12_apply (iblk0 V c 0 (Blocks0.ptOf b)) (iblk0 V c 1 (Blocks0.ptOf b)) (iblk0 V c 2 (Blocks0.ptOf b))
    (iblk0 V c 3 (Blocks0.ptOf b)) (iblk0 V c 4 (Blocks0.ptOf b)) (iblk0 V c 5 (Blocks0.ptOf b)) (iblk0 V c 6 (Blocks0.ptOf b))
    (iblk0 V c 7 (Blocks0.ptOf b)) (iblk0 V c 8 (Blocks0.ptOf b)) (iblk0 V c 9 (Blocks0.ptOf b)) (iblk0 V c 10 (Blocks0.ptOf b))
    ⟨b.val % 256, Nat.mod_lt _ (by decide)⟩).trans ?_
  unfold fmFirstW
  refine congrArg₂ (· + ·) ?_ ?_
  · refine Finset.sum_congr rfl fun f _ => Finset.sum_congr rfl fun e _ => ?_
    rw [Blocks0.entry0, Blocks0.entry1, Blocks0.whole5, Blocks0.whole6]
  · refine Finset.sum_congr rfl fun j _ => Finset.sum_congr rfl fun e _ => ?_
    rw [Blocks0.entry3, Blocks0.entry2]

/-! ## Region 0: the summed second-order term -/

theorem soDense_blk (c : Dev nD) (b : Fin 8192) (f : Fin 13) (e : Fin 64) :
    Body0.soDense (iblk0 V c 0 (Blocks0.ptOf b)) (iblk0 V c 7 (Blocks0.ptOf b)) (iblk0 V c 8 (Blocks0.ptOf b))
        ⟨b.val % 256, Nat.mod_lt _ (by decide)⟩ f e
      = soDenseW (V c main_v2) (V c main_arg5) (V c main_arg6) b f e := by
  unfold Body0.soDense soDenseW
  rw [Blocks0.entry0, Blocks0.whole7, Blocks0.whole8]

theorem soSparse_blk (c : Dev nD) (b : Fin 8192) (j : Fin 26) (e : Fin 64) :
    Body0.soSparse (iblk0 V c 2 (Blocks0.ptOf b)) (iblk0 V c 4 (Blocks0.ptOf b)) ⟨b.val % 256, Nat.mod_lt _ (by decide)⟩ j e
      = soSparseW (V c main_v5) (V c main_v24) b j e := by
  unfold Body0.soSparse soSparseW
  rw [Blocks0.entry4, Blocks0.entry2]

theorem G13_apply (c : Dev nD) (b : Fin 8192) :
    Blocks0.G13 V c (ix2 b (0 : Fin 1))
      = fmSecondW (V c main_v2) (V c main_v5) (V c main_v24) (V c main_arg5) (V c main_arg6) b := by
  refine (Body0.out0_13_apply (iblk0 V c 0 (Blocks0.ptOf b)) (iblk0 V c 1 (Blocks0.ptOf b)) (iblk0 V c 2 (Blocks0.ptOf b))
    (iblk0 V c 3 (Blocks0.ptOf b)) (iblk0 V c 4 (Blocks0.ptOf b)) (iblk0 V c 5 (Blocks0.ptOf b)) (iblk0 V c 6 (Blocks0.ptOf b))
    (iblk0 V c 7 (Blocks0.ptOf b)) (iblk0 V c 8 (Blocks0.ptOf b)) (iblk0 V c 9 (Blocks0.ptOf b)) (iblk0 V c 10 (Blocks0.ptOf b))
    ⟨b.val % 256, Nat.mod_lt _ (by decide)⟩).trans ?_
  unfold fmSecondW
  refine Finset.sum_congr rfl fun e _ => ?_
  simp only [soDense_blk, soSparse_blk]

/-! ## Region 0: the first hidden layer -/

theorem deep_blk (c : Dev nD) (b : Fin 8192) (k : Fin 2496) :
    Body0.deep (iblk0 V c 0 (Blocks0.ptOf b)) (iblk0 V c 2 (Blocks0.ptOf b)) (iblk0 V c 4 (Blocks0.ptOf b))
        (iblk0 V c 7 (Blocks0.ptOf b)) (iblk0 V c 8 (Blocks0.ptOf b)) ⟨b.val % 256, Nat.mod_lt _ (by decide)⟩ k
      = deepW (V c main_v2) (V c main_v5) (V c main_v24) (V c main_arg5) (V c main_arg6) b k := by
  unfold Body0.deep deepW
  by_cases h : k.val < 832
  · rw [dif_pos h, dif_pos h, soDense_blk]
  · rw [dif_neg h, dif_neg h, soSparse_blk]

theorem G11_apply (c : Dev nD) (b : Fin 8192) (n : Fin 512) :
    Blocks0.G11 V c (ix2 b n)
      = hidden1W (V c main_v2) (V c main_v5) (V c main_v24) (V c main_arg5) (V c main_arg6) (V c main_arg8) (V c main_v25) b n := by
  refine (Body0.out0_11_apply (iblk0 V c 0 (Blocks0.ptOf b)) (iblk0 V c 1 (Blocks0.ptOf b)) (iblk0 V c 2 (Blocks0.ptOf b))
    (iblk0 V c 3 (Blocks0.ptOf b)) (iblk0 V c 4 (Blocks0.ptOf b)) (iblk0 V c 5 (Blocks0.ptOf b)) (iblk0 V c 6 (Blocks0.ptOf b))
    (iblk0 V c 7 (Blocks0.ptOf b)) (iblk0 V c 8 (Blocks0.ptOf b)) (iblk0 V c 9 (Blocks0.ptOf b)) (iblk0 V c 10 (Blocks0.ptOf b))
    ⟨b.val % 256, Nat.mod_lt _ (by decide)⟩ n).trans ?_
  unfold hidden1W
  refine congrArg₂ (· + ·) (Finset.sum_congr rfl fun k _ => ?_) ?_
  · rw [deep_blk, Blocks0.whole9]
  · rw [Blocks0.whole10]

/-! ## Region 1: the second matrix product, at one point's blocks -/

/-- The product's left operand index at output `(r, n)` and contraction coordinate `k` is `(r, k)`. -/
theorem lhsIdx1_eq (r : Fin 1024) (n : Fin 256) (k : Fin 512) :
    dot_S1024x512_S512x256_S1024x256_1_0_0_1_n_n.lhsIdx (ix2 r n)
        ((contrEquiv1 dot_S1024x512_S512x256_S1024x256_1_0_0_1_n_n 512 rfl rfl).symm k) = ix2 r k := by
  funext ax; apply Fin.ext
  match ax with
  | ⟨0, _⟩ => rfl
  | ⟨1, _⟩ =>
    exact (DotDims.lhsIdx_val_of_single dot_S1024x512_S512x256_S1024x256_1_0_0_1_n_n (cl := (1 : Fin 2)) rfl _ _).trans
      (contrEquiv1_symm_val _ 512 rfl rfl k)

/-- … and the right operand's is `(k, n)`. -/
theorem rhsIdx1_eq (r : Fin 1024) (n : Fin 256) (k : Fin 512) :
    dot_S1024x512_S512x256_S1024x256_1_0_0_1_n_n.rhsIdx (ix2 r n)
        ((contrEquiv1 dot_S1024x512_S512x256_S1024x256_1_0_0_1_n_n 512 rfl rfl).symm k) = ix2 k n := by
  funext ax; apply Fin.ext
  match ax with
  | ⟨0, _⟩ =>
    exact (DotDims.rhsIdx_val_of_single dot_S1024x512_S512x256_S1024x256_1_0_0_1_n_n (cr := (0 : Fin 2)) rfl _ _).trans
      (contrEquiv1_symm_val _ 512 rfl rfl k)
  | ⟨1, _⟩ => rfl

/-- What the body of region 1 leaves in its output block, at `(r, n)`: the row of the left block times the column of
    the right one, plus the bias. -/
theorem out1_3_apply (x0 : Vec Ideal S1024x512 .f32) (x1 : Vec Ideal S512x256 .f32) (x2 : Vec Ideal S1x256 .f32)
    (r : Fin 1024) (n : Fin 256) :
    out1_3 (F := Ideal) x0 x1 x2 (ix2 r n) = (∑ k : Fin 512, x0 (ix2 r k) * x1 (ix2 k n)) + x2 (ix2 (0 : Fin 1) n) := by
  unfold out1_3
  rw [View.canon_unit_zero Body0.hz2]
  simp only [View.ld_unit_zero (S := S1024x512) Body0.hz2, View.ld_unit_zero (S := S512x256) Body0.hz2,
    View.ld_unit_zero (S := S1x256) Body0.hz2]
  unfold k1_pay1
  simp only [shapeCast_self]
  rw [addf_apply, broadcastTo_1b_ab_apply]
  refine congrArg₂ (· + ·) ?_ rfl
  simp only [matmul]
  rw [Ideal.matmul_constant_zero_apply,
    ← Equiv.sum_comp (contrEquiv1 dot_S1024x512_S512x256_S1024x256_1_0_0_1_n_n 512 rfl rfl).symm]
  refine Finset.sum_congr rfl fun k _ => ?_
  rw [lhsIdx1_eq, rhsIdx1_eq]

/-! ## Region 1: its input blocks as entries of the arrays it finds -/

/-- The block indices of region 1's input windows over the grid: the batch-tiled one moves with the point on axis 0,
    the two parameters stay at block 0. -/
theorem in_idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Input window 0: the block of the point holding row `b`, at local row `b % 1024`, is the array's row `b`. -/
theorem entry1_0 (c : Dev nD) (b : Fin 8192) (k : Fin 512) :
    iblk1 V c 0 (Blocks1.ptOf b) (ix2 ⟨b.val % 1024, Nat.mod_lt _ (by decide)⟩ k : S1024x512.Idx) = V c main_v46 (ix2 b k) := by
  show V c main_v46 (((cfg1.win 0).blk (Blocks1.ptOf b)).view.emb (ix2 ⟨b.val % 1024, Nat.mod_lt _ (by decide)⟩ k : S1024x512.Idx)) = _
  have h := in_idx_facts1 (Blocks1.ptOf b)
  have hv : (Blocks1.ptOf b).val = b.val / 1024 := rfl
  congr 1
  funext a; apply Fin.ext
  match a with
  | ⟨0, _⟩ => show win1_0.index (Blocks1.ptOf b) (0 : Fin 2) * 1024 + 1 * (b.val % 1024) = b.val; omega
  | ⟨1, _⟩ => show win1_0.index (Blocks1.ptOf b) (1 : Fin 2) * 512 + 1 * k.val = k.val; omega

/-- Input window 1 is staged whole: its block at any point is the array. -/
theorem whole1_1 (c : Dev nD) (t : Fin cfg1.N) (y : S512x256.Idx) : iblk1 V c 1 t y = V c main_arg12 y := by
  show V c main_arg12 (((cfg1.win 1).blk t).view.emb y) = _
  have h := in_idx_facts1 t
  have hy0 : (y 0).val < 512 := (y 0).isLt
  have hy1 : (y 1).val < 256 := (y 1).isLt
  congr 1
  funext a; apply Fin.ext
  match a with
  | ⟨0, _⟩ => show win1_1.index t (0 : Fin 2) * 512 + 1 * (y 0).val = (y 0).val; omega
  | ⟨1, _⟩ => show win1_1.index t (1 : Fin 2) * 256 + 1 * (y 1).val = (y 1).val; omega

/-- Input window 2 is staged whole: its block at any point is the array. -/
theorem whole1_2 (c : Dev nD) (t : Fin cfg1.N) (y : S1x256.Idx) : iblk1 V c 2 t y = V c main_v26 y := by
  show V c main_v26 (((cfg1.win 2).blk t).view.emb y) = _
  have h := in_idx_facts1 t
  have hy0 : (y 0).val < 1 := (y 0).isLt
  have hy1 : (y 1).val < 256 := (y 1).isLt
  congr 1
  funext a; apply Fin.ext
  match a with
  | ⟨0, _⟩ => show win1_2.index t (0 : Fin 2) * 1 + 1 * (y 0).val = (y 0).val; omega
  | ⟨1, _⟩ => show win1_2.index t (1 : Fin 2) * 256 + 1 * (y 1).val = (y 1).val; omega

/-! ## Region 1: the whole output array -/

theorem G3_apply (c : Dev nD) (b : Fin 8192) (n : Fin 256) :
    Blocks1.G3 V c (ix2 b n) = hidden2W (V c main_v46) (V c main_arg12) (V c main_v26) b n := by
  refine (out1_3_apply (iblk1 V c 0 (Blocks1.ptOf b)) (iblk1 V c 1 (Blocks1.ptOf b)) (iblk1 V c 2 (Blocks1.ptOf b))
    ⟨b.val % 1024, Nat.mod_lt _ (by decide)⟩ n).trans ?_
  unfold hidden2W
  refine congrArg₂ (· + ·) (Finset.sum_congr rfl fun k _ => ?_) ?_
  · rw [entry1_0, whole1_1]
  · rw [whole1_2]

end Cert.KernelIdeal.Whole

end
-- ==== Proof.RefIdx.lean ====
/-
  The reference's stages as functions of their inputs, and each stage read at an index, at the ideal values.

  The reference computes, per row `b` of 8192: first-order terms over 13 dense and 26 sparse fields of 64 lanes
  (`foDense`, `foSparse`), laid end to end as a row of 2496 columns (`firstCat`) whose sum is the first-order
  score (`firstSum`); second-order embeddings of the same fields (`soDense`, `soSparse`), stacked as 39 fields
  (`soCat`), from which the interaction vector `½ ((Σ_g s_g)² − Σ_g s_g²)` per lane (`secondVec`) and its row sum
  (`secondSum`); and the same embeddings flattened to 2496 columns (`deep`), fed to two affine layers
  (`h1pre`, `h2pre`). Each definition is the composition of the reference's own operations in its order; each
  `_apply` theorem is the closed form of one element: products and sums of extended reals, with the zero
  initial values of the sums removed and the constant one half kept as the value of its bit pattern.
-/
import proofs.«131473_j31112743092597_2_alg».proof.ReferenceIdeal
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

open Idealize.ShloMosaic Idealize.ShloMosaic.ValueIdx
open scoped BigOperators

namespace Cert.ReferenceIdeal.RefIdx

open Cert.ReferenceIdeal Cert.ReferenceIdeal.Facts₀

variable [Cert.ReferenceIdeal.Facts₀]

/-! ## The stages, as the reference composes them -/

/-- First-order dense term: `(d ⊗ w1 + b1) ⊗ xvd`, every factor broadcast to `[8192, 13, 64]`. -/
noncomputable def foDense (d : Vec Ideal S8192x13 .f32) (w1 b1 : Vec Ideal S13x64 .f32) (xvd : Vec Ideal S8192x13 .f32) :
    Vec Ideal S8192x13x64 .f32 :=
  mulf (F := Ideal) (φ := .f32)
    (addf (F := Ideal) (φ := .f32)
      (mulf (F := Ideal) (φ := .f32)
        (broadcastInDim S8192x13x64 ![0, 1, 2] bcast_S8192x13x1_S8192x13x64_0_1_2
          (broadcastInDim S8192x13x1 ![0, 1] bcast_S8192x13_S8192x13x1_0_1 d))
        (broadcastInDim S8192x13x64 ![0, 1, 2] bcast_S1x13x64_S8192x13x64_0_1_2
          (broadcastInDim S1x13x64 ![1, 2] bcast_S13x64_S1x13x64_1_2 w1)))
      (broadcastInDim S8192x13x64 ![0, 1, 2] bcast_S1x13x64_S8192x13x64_0_1_2
        (broadcastInDim S1x13x64 ![1, 2] bcast_S13x64_S1x13x64_1_2 b1)))
    (broadcastInDim S8192x13x64 ![0, 1, 2] bcast_S8192x13x1_S8192x13x64_0_1_2
      (broadcastInDim S8192x13x1 ![0, 1] bcast_S8192x13_S8192x13x1_0_1 xvd))

/-- First-order sparse term: the gathered rows scaled by `xvs`, broadcast along the lanes. -/
noncomputable def foSparse (g1 : Vec Ideal S8192x26x64 .f32) (xvs : Vec Ideal S8192x26 .f32) : Vec Ideal S8192x26x64 .f32 :=
  mulf (F := Ideal) (φ := .f32) g1
    (broadcastInDim S8192x26x64 ![0, 1, 2] bcast_S8192x26x1_S8192x26x64_0_1_2
      (broadcastInDim S8192x26x1 ![0, 1] bcast_S8192x26_S8192x26x1_0_1 xvs))

/-- The first-order row `[8192, 2496]`: the dense term flattened to 832 columns, then the sparse term flattened
    to 1664. -/
noncomputable def firstCat (fd : Vec Ideal S8192x13x64 .f32) (fs : Vec Ideal S8192x26x64 .f32) : Vec Ideal S8192x2496 .f32 :=
  concatenate S8192x2496 1
    [⟨S8192x832, shapeCast S8192x832 fd shapeCasts_S8192x13x64_S8192x832⟩,
     ⟨S8192x1664, shapeCast S8192x1664 fs shapeCasts_S8192x26x64_S8192x1664⟩]
    concatenates_S8192x832_S8192x1664_S8192x2496_d1

/-- Second-order dense embedding: `d ⊗ w2 + b2`. -/
noncomputable def soDense (d : Vec Ideal S8192x13 .f32) (w2 b2 : Vec Ideal S13x64 .f32) : Vec Ideal S8192x13x64 .f32 :=
  addf (F := Ideal) (φ := .f32)
    (mulf (F := Ideal) (φ := .f32)
      (broadcastInDim S8192x13x64 ![0, 1, 2] bcast_S8192x13x1_S8192x13x64_0_1_2
        (broadcastInDim S8192x13x1 ![0, 1] bcast_S8192x13_S8192x13x1_0_1 d))
      (broadcastInDim S8192x13x64 ![0, 1, 2] bcast_S1x13x64_S8192x13x64_0_1_2
        (broadcastInDim S1x13x64 ![1, 2] bcast_S13x64_S1x13x64_1_2 w2)))
    (broadcastInDim S8192x13x64 ![0, 1, 2] bcast_S1x13x64_S8192x13x64_0_1_2
      (broadcastInDim S1x13x64 ![1, 2] bcast_S13x64_S1x13x64_1_2 b2))

/-- Second-order sparse embedding: the gathered rows scaled by `xvs`. -/
noncomputable def soSparse (g2 : Vec Ideal S8192x26x64 .f32) (xvs : Vec Ideal S8192x26 .f32) : Vec Ideal S8192x26x64 .f32 :=
  mulf (F := Ideal) (φ := .f32) g2
    (broadcastInDim S8192x26x64 ![0, 1, 2] bcast_S8192x26x1_S8192x26x64_0_1_2
      (broadcastInDim S8192x26x1 ![0, 1] bcast_S8192x26_S8192x26x1_0_1 xvs))

/-- The 39 second-order embeddings: the 13 dense fields, then the 26 sparse ones. -/
noncomputable def soCat (sd : Vec Ideal S8192x13x64 .f32) (ss : Vec Ideal S8192x26x64 .f32) : Vec Ideal S8192x39x64 .f32 :=
  concatenate S8192x39x64 1 [⟨S8192x13x64, sd⟩, ⟨S8192x26x64, ss⟩] concatenates_S8192x13x64_S8192x26x64_S8192x39x64_d1

/-- The pairwise-interaction vector: half of (square of the sum over fields, less the sum of squares). -/
noncomputable def secondVec (s : Vec Ideal S8192x39x64 .f32) : Vec Ideal S8192x64 .f32 :=
  mulf (F := Ideal) (φ := .f32)
    (broadcastInDim S8192x64 ![] bcast_S_S8192x64 (constant (F := Ideal) S_ .f32 0x3F000000#32))
    (subf (F := Ideal) (φ := .f32)
      (mulf (F := Ideal) (φ := .f32)
        (Host.reduceAdd (F := Ideal) s (constant (F := Ideal) S_ .f32 0x00000000#32) reducesTo_S8192x39x64_S8192x64_d1 h_S_)
        (Host.reduceAdd (F := Ideal) s (constant (F := Ideal) S_ .f32 0x00000000#32) reducesTo_S8192x39x64_S8192x64_d1 h_S_))
      (Host.reduceAdd (F := Ideal) (mulf (F := Ideal) (φ := .f32) s s) (constant (F := Ideal) S_ .f32 0x00000000#32) reducesTo_S8192x39x64_S8192x64_d1 h_S_))

/-- The deep network's input row `[8192, 2496]`: the second-order embeddings flattened, dense then sparse. -/
noncomputable def deep (sd : Vec Ideal S8192x13x64 .f32) (ss : Vec Ideal S8192x26x64 .f32) : Vec Ideal S8192x2496 .f32 :=
  concatenate S8192x2496 1
    [⟨S8192x832, shapeCast S8192x832 sd shapeCasts_S8192x13x64_S8192x832⟩,
     ⟨S8192x1664, shapeCast S8192x1664 ss shapeCasts_S8192x26x64_S8192x1664⟩]
    concatenates_S8192x832_S8192x1664_S8192x2496_d1

/-- First layer before normalisation: `x · W1 + c1`. -/
noncomputable def h1pre (x : Vec Ideal S8192x2496 .f32) (W1 : Vec Ideal S2496x512 .f32) (c1 : Vec Ideal S512 .f32) :
    Vec Ideal S8192x512 .f32 :=
  addf (F := Ideal) (φ := .f32) (Host.dotGeneral (F := Ideal) (φ₁ := .f32) (φ₂ := .f32) dot_S8192x2496_S2496x512_S8192x512_1_0_0_1_n_n none x W1)
    (broadcastInDim S8192x512 ![0, 1] bcast_S1x512_S8192x512_0_1 (broadcastInDim S1x512 ![1] bcast_S512_S1x512_1 c1))

/-- Second layer before normalisation: `h · W2 + c2`. -/
noncomputable def h2pre (h : Vec Ideal S8192x512 .f32) (W2 : Vec Ideal S512x256 .f32) (c2 : Vec Ideal S256 .f32) :
    Vec Ideal S8192x256 .f32 :=
  addf (F := Ideal) (φ := .f32) (Host.dotGeneral (F := Ideal) (φ₁ := .f32) (φ₂ := .f32) dot_S8192x512_S512x256_S8192x256_1_0_0_1_n_n none h W2)
    (broadcastInDim S8192x256 ![0, 1] bcast_S1x256_S8192x256_0_1 (broadcastInDim S1x256 ![1] bcast_S256_S1x256_1 c2))

/-- The first-order score: the row sum of the first-order row. -/
noncomputable def firstSum (x : Vec Ideal S8192x2496 .f32) : Vec Ideal S8192 .f32 :=
  Host.reduceAdd (F := Ideal) x (constant (F := Ideal) S_ .f32 0x00000000#32) reducesTo_S8192x2496_S8192_d1 h_S_

/-- The second-order score: the row sum of the interaction vector. -/
noncomputable def secondSum (x : Vec Ideal S8192x64 .f32) : Vec Ideal S8192 .f32 :=
  Host.reduceAdd (F := Ideal) x (constant (F := Ideal) S_ .f32 0x00000000#32) reducesTo_S8192x64_S8192_d1 h_S_

/-! ## Broadcast chains at an index -/

section Bcast
variable {α : Type}

/-- A per-(row, field) value spread along the lanes. -/
theorem bcast13_col_apply (x : S8192x13.Idx → α) (b : Fin 8192) (f : Fin 13) (e : Fin 64) :
    broadcastInDim S8192x13x64 ![0, 1, 2] bcast_S8192x13x1_S8192x13x64_0_1_2
        (broadcastInDim S8192x13x1 ![0, 1] bcast_S8192x13_S8192x13x1_0_1 x) (ix3 b f e) = x (ix2 b f) :=
  (broadcastInDim_apply (s := S8192x13x1) _ _ _ _ (ix3 b f (0 : Fin 1))
      (fun a => match a with | ⟨0, _⟩ => rfl | ⟨1, _⟩ => rfl | ⟨2, _⟩ => rfl)).trans
    (broadcastInDim_apply (s := S8192x13) _ _ _ _ (ix2 b f) (fun a => match a with | ⟨0, _⟩ => rfl | ⟨1, _⟩ => rfl))

/-- A per-(field, lane) value spread down the rows. -/
theorem bcast13_row_apply (w : S13x64.Idx → α) (b : Fin 8192) (f : Fin 13) (e : Fin 64) :
    broadcastInDim S8192x13x64 ![0, 1, 2] bcast_S1x13x64_S8192x13x64_0_1_2
        (broadcastInDim S1x13x64 ![1, 2] bcast_S13x64_S1x13x64_1_2 w) (ix3 b f e) = w (ix2 f e) :=
  (broadcastInDim_apply (s := S1x13x64) _ _ _ _ (ix3 (0 : Fin 1) f e)
      (fun a => match a with | ⟨0, _⟩ => rfl | ⟨1, _⟩ => rfl | ⟨2, _⟩ => rfl)).trans
    (broadcastInDim_apply (s := S13x64) _ _ _ _ (ix2 f e) (fun a => match a with | ⟨0, _⟩ => rfl | ⟨1, _⟩ => rfl))

/-- A per-(row, field) value of the 26 sparse fields spread along the lanes. -/
theorem bcast26_col_apply (x : S8192x26.Idx → α) (b : Fin 8192) (j : Fin 26) (e : Fin 64) :
    broadcastInDim S8192x26x64 ![0, 1, 2] bcast_S8192x26x1_S8192x26x64_0_1_2
        (broadcastInDim S8192x26x1 ![0, 1] bcast_S8192x26_S8192x26x1_0_1 x) (ix3 b j e) = x (ix2 b j) :=
  (broadcastInDim_apply (s := S8192x26x1) _ _ _ _ (ix3 b j (0 : Fin 1))
      (fun a => match a with | ⟨0, _⟩ => rfl | ⟨1, _⟩ => rfl | ⟨2, _⟩ => rfl)).trans
    (broadcastInDim_apply (s := S8192x26) _ _ _ _ (ix2 b j) (fun a => match a with | ⟨0, _⟩ => rfl | ⟨1, _⟩ => rfl))

/-- A bias over 512 columns spread down the rows. -/
theorem bias512_apply (c : S512.Idx → α) (b : Fin 8192) (n : Fin 512) :
    broadcastInDim S8192x512 ![0, 1] bcast_S1x512_S8192x512_0_1 (broadcastInDim S1x512 ![1] bcast_S512_S1x512_1 c) (ix2 b n)
      = c (ix1 n) :=
  (broadcastInDim_apply (s := S1x512) _ _ _ _ (ix2 (0 : Fin 1) n) (fun a => match a with | ⟨0, _⟩ => rfl | ⟨1, _⟩ => rfl)).trans
    (broadcastInDim_apply (s := S512) _ _ _ _ (ix1 n) (fun a => match a with | ⟨0, _⟩ => rfl))

/-- A bias over 256 columns spread down the rows. -/
theorem bias256_apply (c : S256.Idx → α) (b : Fin 8192) (n : Fin 256) :
    broadcastInDim S8192x256 ![0, 1] bcast_S1x256_S8192x256_0_1 (broadcastInDim S1x256 ![1] bcast_S256_S1x256_1 c) (ix2 b n)
      = c (ix1 n) :=
  (broadcastInDim_apply (s := S1x256) _ _ _ _ (ix2 (0 : Fin 1) n) (fun a => match a with | ⟨0, _⟩ => rfl | ⟨1, _⟩ => rfl)).trans
    (broadcastInDim_apply (s := S256) _ _ _ _ (ix1 n) (fun a => match a with | ⟨0, _⟩ => rfl))
end Bcast

/-! ## The pointwise stages at an index -/

theorem soDense_apply (d : Vec Ideal S8192x13 .f32) (w2 b2 : Vec Ideal S13x64 .f32) (b : Fin 8192) (f : Fin 13) (e : Fin 64) :
    soDense d w2 b2 (ix3 b f e) = d (ix2 b f) * w2 (ix2 f e) + b2 (ix2 f e) := by
  unfold soDense
  rw [addf_apply, mulf_apply, bcast13_col_apply, bcast13_row_apply, bcast13_row_apply]

theorem soSparse_apply (g2 : Vec Ideal S8192x26x64 .f32) (xvs : Vec Ideal S8192x26 .f32) (b : Fin 8192) (j : Fin 26) (e : Fin 64) :
    soSparse g2 xvs (ix3 b j e) = g2 (ix3 b j e) * xvs (ix2 b j) := by
  unfold soSparse
  rw [mulf_apply, bcast26_col_apply]

theorem foDense_apply (d : Vec Ideal S8192x13 .f32) (w1 b1 : Vec Ideal S13x64 .f32) (xvd : Vec Ideal S8192x13 .f32)
    (b : Fin 8192) (f : Fin 13) (e : Fin 64) :
    foDense d w1 b1 xvd (ix3 b f e) = (d (ix2 b f) * w1 (ix2 f e) + b1 (ix2 f e)) * xvd (ix2 b f) := by
  unfold foDense
  rw [mulf_apply, addf_apply, mulf_apply, bcast13_col_apply, bcast13_row_apply, bcast13_row_apply, bcast13_col_apply]

theorem foSparse_apply (g1 : Vec Ideal S8192x26x64 .f32) (xvs : Vec Ideal S8192x26 .f32) (b : Fin 8192) (j : Fin 26) (e : Fin 64) :
    foSparse g1 xvs (ix3 b j e) = g1 (ix3 b j e) * xvs (ix2 b j) := by
  unfold foSparse
  rw [mulf_apply, bcast26_col_apply]

/-! ## The two matrix products at an index -/

theorem h1pre_apply (x : Vec Ideal S8192x2496 .f32) (W1 : Vec Ideal S2496x512 .f32) (c1 : Vec Ideal S512 .f32)
    (b : Fin 8192) (n : Fin 512) :
    h1pre x W1 c1 (ix2 b n) = (∑ k : Fin 2496, x (ix2 b k) * W1 (ix2 k n)) + c1 (ix1 n) := by
  unfold h1pre
  rw [addf_apply, bias512_apply]
  congr 1
  simp only [Host.dotGeneral]
  rw [Ideal.dotGeneral_apply,
    ← Equiv.sum_comp (contrEquiv1 dot_S8192x2496_S2496x512_S8192x512_1_0_0_1_n_n 2496 rfl rfl).symm]
  refine Finset.sum_congr rfl fun k _ => ?_
  congr 1
  · exact congrArg x (funext fun a => match a with | ⟨0, _⟩ => Fin.ext rfl | ⟨1, _⟩ => Fin.ext rfl)
  · exact congrArg W1 (funext fun a => match a with | ⟨0, _⟩ => Fin.ext rfl | ⟨1, _⟩ => Fin.ext rfl)

theorem h2pre_apply (h : Vec Ideal S8192x512 .f32) (W2 : Vec Ideal S512x256 .f32) (c2 : Vec Ideal S256 .f32)
    (b : Fin 8192) (n : Fin 256) :
    h2pre h W2 c2 (ix2 b n) = (∑ k : Fin 512, h (ix2 b k) * W2 (ix2 k n)) + c2 (ix1 n) := by
  unfold h2pre
  rw [addf_apply, bias256_apply]
  congr 1
  simp only [Host.dotGeneral]
  rw [Ideal.dotGeneral_apply,
    ← Equiv.sum_comp (contrEquiv1 dot_S8192x512_S512x256_S8192x256_1_0_0_1_n_n 512 rfl rfl).symm]
  refine Finset.sum_congr rfl fun k _ => ?_
  congr 1
  · exact congrArg h (funext fun a => match a with | ⟨0, _⟩ => Fin.ext rfl | ⟨1, _⟩ => Fin.ext rfl)
  · exact congrArg W2 (funext fun a => match a with | ⟨0, _⟩ => Fin.ext rfl | ⟨1, _⟩ => Fin.ext rfl)

/-! ## The flattened rows at a column -/

section Flat
variable {α : Type}

/-- The row `[8192, 2496]` made of a `[8192, 13, 64]` array flattened to 832 columns followed by a
    `[8192, 26, 64]` array flattened to 1664, at a column of the first part: field `k / 64`, lane `k % 64`. -/
theorem flat_apply_left (u : S8192x13x64.Idx → α) (v : S8192x26x64.Idx → α) (b : Fin 8192) (k : Fin 2496)
    (hk : k.val < 832) :
    concatenate S8192x2496 1
        [⟨S8192x832, shapeCast S8192x832 u shapeCasts_S8192x13x64_S8192x832⟩,
         ⟨S8192x1664, shapeCast S8192x1664 v shapeCasts_S8192x26x64_S8192x1664⟩]
        concatenates_S8192x832_S8192x1664_S8192x2496_d1 (ix2 b k)
      = u (ix3 b ⟨k.val / 64, by omega⟩ ⟨k.val % 64, by omega⟩) := by
  refine (concatenate_pair_apply_left (t := S8192x2496) (s₁ := S8192x832) (s₂ := S8192x1664) 1 _ _
    concatenates_S8192x832_S8192x1664_S8192x2496_d1 (ix2 b k) rfl (ix2 b (⟨k.val, hk⟩ : Fin 832))
    (fun c => match c with | ⟨0, _⟩ => rfl | ⟨1, _⟩ => rfl)).trans ?_
  refine shapeCast_apply (s := S8192x13x64) (t := S8192x832) u _ _ (ix3 b ⟨k.val / 64, by omega⟩ ⟨k.val % 64, by omega⟩) ?_
  rw [Shape.rowMajor_val_two, Shape.rowMajor_val_three]
  show (b.val * 13 + k.val / 64) * 64 + k.val % 64 = b.val * 832 + k.val
  omega

/-- The same at a column of the second part: field `(k − 832) / 64`, lane `(k − 832) % 64`. -/
theorem flat_apply_right (u : S8192x13x64.Idx → α) (v : S8192x26x64.Idx → α) (b : Fin 8192) (k : Fin 2496)
    (hk : 832 ≤ k.val) :
    concatenate S8192x2496 1
        [⟨S8192x832, shapeCast S8192x832 u shapeCasts_S8192x13x64_S8192x832⟩,
         ⟨S8192x1664, shapeCast S8192x1664 v shapeCasts_S8192x26x64_S8192x1664⟩]
        concatenates_S8192x832_S8192x1664_S8192x2496_d1 (ix2 b k)
      = v (ix3 b ⟨(k.val - 832) / 64, by omega⟩ ⟨(k.val - 832) % 64, by omega⟩) := by
  refine (concatenate_pair_apply_right (t := S8192x2496) (s₁ := S8192x832) (s₂ := S8192x1664) 1 _ _
    concatenates_S8192x832_S8192x1664_S8192x2496_d1 (ix2 b k) rfl rfl (ix2 b (⟨k.val - 832, by omega⟩ : Fin 1664))
    (fun c hc => match c, hc with
      | ⟨0, _⟩, _ => rfl
      | ⟨1, _⟩, hc => (hc rfl).elim)
    (by show k.val - 832 + 832 = k.val; omega)).trans ?_
  refine shapeCast_apply (s := S8192x26x64) (t := S8192x1664) v _ _
    (ix3 b ⟨(k.val - 832) / 64, by omega⟩ ⟨(k.val - 832) % 64, by omega⟩) ?_
  rw [Shape.rowMajor_val_two, Shape.rowMajor_val_three]
  show (b.val * 26 + (k.val - 832) / 64) * 64 + (k.val - 832) % 64 = b.val * 1664 + (k.val - 832)
  omega
end Flat

theorem deep_apply_dense (sd : Vec Ideal S8192x13x64 .f32) (ss : Vec Ideal S8192x26x64 .f32) (b : Fin 8192) (k : Fin 2496)
    (hk : k.val < 832) :
    deep sd ss (ix2 b k) = sd (ix3 b ⟨k.val / 64, by omega⟩ ⟨k.val % 64, by omega⟩) :=
  flat_apply_left sd ss b k hk

theorem deep_apply_sparse (sd : Vec Ideal S8192x13x64 .f32) (ss : Vec Ideal S8192x26x64 .f32) (b : Fin 8192) (k : Fin 2496)
    (hk : 832 ≤ k.val) :
    deep sd ss (ix2 b k) = ss (ix3 b ⟨(k.val - 832) / 64, by omega⟩ ⟨(k.val - 832) % 64, by omega⟩) :=
  flat_apply_right sd ss b k hk

theorem deep_apply (sd : Vec Ideal S8192x13x64 .f32) (ss : Vec Ideal S8192x26x64 .f32) (b : Fin 8192) (k : Fin 2496) :
    deep sd ss (ix2 b k) =
      if hk : k.val < 832 then sd (ix3 b ⟨k.val / 64, by omega⟩ ⟨k.val % 64, by omega⟩)
      else ss (ix3 b ⟨(k.val - 832) / 64, by omega⟩ ⟨(k.val - 832) % 64, by omega⟩) := by
  by_cases hk : k.val < 832
  · rw [dif_pos hk]; exact deep_apply_dense sd ss b k hk
  · rw [dif_neg hk]; exact deep_apply_sparse sd ss b k (by omega)

theorem firstCat_apply_dense (fd : Vec Ideal S8192x13x64 .f32) (fs : Vec Ideal S8192x26x64 .f32) (b : Fin 8192) (k : Fin 2496)
    (hk : k.val < 832) :
    firstCat fd fs (ix2 b k) = fd (ix3 b ⟨k.val / 64, by omega⟩ ⟨k.val % 64, by omega⟩) :=
  flat_apply_left fd fs b k hk

theorem firstCat_apply_sparse (fd : Vec Ideal S8192x13x64 .f32) (fs : Vec Ideal S8192x26x64 .f32) (b : Fin 8192) (k : Fin 2496)
    (hk : 832 ≤ k.val) :
    firstCat fd fs (ix2 b k) = fs (ix3 b ⟨(k.val - 832) / 64, by omega⟩ ⟨(k.val - 832) % 64, by omega⟩) :=
  flat_apply_right fd fs b k hk

theorem firstCat_apply (fd : Vec Ideal S8192x13x64 .f32) (fs : Vec Ideal S8192x26x64 .f32) (b : Fin 8192) (k : Fin 2496) :
    firstCat fd fs (ix2 b k) =
      if hk : k.val < 832 then fd (ix3 b ⟨k.val / 64, by omega⟩ ⟨k.val % 64, by omega⟩)
      else fs (ix3 b ⟨(k.val - 832) / 64, by omega⟩ ⟨(k.val - 832) % 64, by omega⟩) := by
  by_cases hk : k.val < 832
  · rw [dif_pos hk]; exact firstCat_apply_dense fd fs b k hk
  · rw [dif_neg hk]; exact firstCat_apply_sparse fd fs b k (by omega)

/-! ## The 39 fields at an index -/

theorem soCat_apply_dense (sd : Vec Ideal S8192x13x64 .f32) (ss : Vec Ideal S8192x26x64 .f32) (b : Fin 8192) (g : Fin 39)
    (e : Fin 64) (hg : g.val < 13) :
    soCat sd ss (ix3 b g e) = sd (ix3 b ⟨g.val, hg⟩ e) :=
  concatenate_pair_apply_left (t := S8192x39x64) (s₁ := S8192x13x64) (s₂ := S8192x26x64) 1 _ _
    concatenates_S8192x13x64_S8192x26x64_S8192x39x64_d1 (ix3 b g e) rfl (ix3 b (⟨g.val, hg⟩ : Fin 13) e)
    (fun c => match c with | ⟨0, _⟩ => rfl | ⟨1, _⟩ => rfl | ⟨2, _⟩ => rfl)

theorem soCat_apply_sparse (sd : Vec Ideal S8192x13x64 .f32) (ss : Vec Ideal S8192x26x64 .f32) (b : Fin 8192) (g : Fin 39)
    (e : Fin 64) (hg : 13 ≤ g.val) :
    soCat sd ss (ix3 b g e) = ss (ix3 b ⟨g.val - 13, by omega⟩ e) :=
  concatenate_pair_apply_right (t := S8192x39x64) (s₁ := S8192x13x64) (s₂ := S8192x26x64) 1 _ _
    concatenates_S8192x13x64_S8192x26x64_S8192x39x64_d1 (ix3 b g e) rfl rfl (ix3 b (⟨g.val - 13, by omega⟩ : Fin 26) e)
    (fun c hc => match c, hc with
      | ⟨0, _⟩, _ => rfl
      | ⟨1, _⟩, hc => (hc rfl).elim
      | ⟨2, _⟩, _ => rfl)
    (by show g.val - 13 + 13 = g.val; omega)

theorem soCat_apply (sd : Vec Ideal S8192x13x64 .f32) (ss : Vec Ideal S8192x26x64 .f32) (b : Fin 8192) (g : Fin 39) (e : Fin 64) :
    soCat sd ss (ix3 b g e) =
      if hg : g.val < 13 then sd (ix3 b ⟨g.val, hg⟩ e) else ss (ix3 b ⟨g.val - 13, by omega⟩ e) := by
  by_cases hg : g.val < 13
  · rw [dif_pos hg]; exact soCat_apply_dense sd ss b g e hg
  · rw [dif_neg hg]; exact soCat_apply_sparse sd ss b g e (by omega)

/-! ## The row sums -/

theorem firstSum_apply (x : Vec Ideal S8192x2496 .f32) (b : Fin 8192) :
    firstSum x (ix1 b) = ∑ k : Fin 2496, x (ix2 b k) := by
  unfold firstSum
  rw [hostReduceAdd_apply, Ideal.hostReduceAdd_single reducesTo_S8192x2496_S8192_d1 (by decide)]
  show Ideal.ofBits .f32 0x00000000#32 + _ = _
  rw [Ideal.ofBits_zero_f32, zero_add]
  refine Finset.sum_congr rfl fun k _ => congrArg x (funext fun a => ?_)
  match a with
  | ⟨0, _⟩ => exact Fin.ext rfl
  | ⟨1, _⟩ => exact Fin.ext rfl

theorem secondSum_apply (x : Vec Ideal S8192x64 .f32) (b : Fin 8192) :
    secondSum x (ix1 b) = ∑ e : Fin 64, x (ix2 b e) := by
  unfold secondSum
  rw [hostReduceAdd_apply, Ideal.hostReduceAdd_single reducesTo_S8192x64_S8192_d1 (by decide)]
  show Ideal.ofBits .f32 0x00000000#32 + _ = _
  rw [Ideal.ofBits_zero_f32, zero_add]
  refine Finset.sum_congr rfl fun k _ => congrArg x (funext fun a => ?_)
  match a with
  | ⟨0, _⟩ => exact Fin.ext rfl
  | ⟨1, _⟩ => exact Fin.ext rfl

/-! ## The interaction vector at an index -/

/-- The sum over the 39 fields, from a zero initial value. -/
theorem fieldSum_apply (s : Vec Ideal S8192x39x64 .f32) (b : Fin 8192) (e : Fin 64) :
    Host.reduceAdd (F := Ideal) s (constant (F := Ideal) S_ .f32 0x00000000#32) reducesTo_S8192x39x64_S8192x64_d1 h_S_ (ix2 b e)
      = ∑ g : Fin 39, s (ix3 b g e) := by
  rw [hostReduceAdd_apply, Ideal.hostReduceAdd_single reducesTo_S8192x39x64_S8192x64_d1 (by decide)]
  show Ideal.ofBits .f32 0x00000000#32 + _ = _
  rw [Ideal.ofBits_zero_f32, zero_add]
  refine Finset.sum_congr rfl fun k _ => congrArg s (funext fun a => ?_)
  match a with
  | ⟨0, _⟩ => exact Fin.ext rfl
  | ⟨1, _⟩ => exact Fin.ext rfl
  | ⟨2, _⟩ => exact Fin.ext rfl

theorem secondVec_apply (s : Vec Ideal S8192x39x64 .f32) (b : Fin 8192) (e : Fin 64) :
    secondVec s (ix2 b e)
      = Ideal.ofBits .f32 0x3F000000#32
          * ((∑ g : Fin 39, s (ix3 b g e)) * (∑ g : Fin 39, s (ix3 b g e)) - ∑ g : Fin 39, s (ix3 b g e) * s (ix3 b g e)) := by
  unfold secondVec
  rw [mulf_apply, subf_apply, mulf_apply, broadcastInDim_scalar_apply, constant_apply, fieldSum_apply, fieldSum_apply]
  rfl

/-! ## The flattened rows at the column of a (field, lane) pair -/

theorem deep_dense_at (sd : Vec Ideal S8192x13x64 .f32) (ss : Vec Ideal S8192x26x64 .f32) (b : Fin 8192) (f : Fin 13) (e : Fin 64) :
    deep sd ss (ix2 b ⟨64 * f.val + e.val, by omega⟩) = sd (ix3 b f e) := by
  refine (deep_apply_dense sd ss b ⟨64 * f.val + e.val, by omega⟩ (by show 64 * f.val + e.val < 832; omega)).trans ?_
  refine congrArg sd (funext fun a => ?_)
  match a with
  | ⟨0, _⟩ => rfl
  | ⟨1, _⟩ => exact Fin.ext (by show (64 * f.val + e.val) / 64 = f.val; omega)
  | ⟨2, _⟩ => exact Fin.ext (by show (64 * f.val + e.val) % 64 = e.val; omega)

theorem deep_sparse_at (sd : Vec Ideal S8192x13x64 .f32) (ss : Vec Ideal S8192x26x64 .f32) (b : Fin 8192) (j : Fin 26) (e : Fin 64) :
    deep sd ss (ix2 b ⟨832 + 64 * j.val + e.val, by omega⟩) = ss (ix3 b j e) := by
  refine (deep_apply_sparse sd ss b ⟨832 + 64 * j.val + e.val, by omega⟩ (by show 832 ≤ 832 + 64 * j.val + e.val; omega)).trans ?_
  refine congrArg ss (funext fun a => ?_)
  match a with
  | ⟨0, _⟩ => rfl
  | ⟨1, _⟩ => exact Fin.ext (by show (832 + 64 * j.val + e.val - 832) / 64 = j.val; omega)
  | ⟨2, _⟩ => exact Fin.ext (by show (832 + 64 * j.val + e.val - 832) % 64 = e.val; omega)

theorem firstCat_dense_at (fd : Vec Ideal S8192x13x64 .f32) (fs : Vec Ideal S8192x26x64 .f32) (b : Fin 8192) (f : Fin 13) (e : Fin 64) :
    firstCat fd fs (ix2 b ⟨64 * f.val + e.val, by omega⟩) = fd (ix3 b f e) :=
  deep_dense_at fd fs b f e

theorem firstCat_sparse_at (fd : Vec Ideal S8192x13x64 .f32) (fs : Vec Ideal S8192x26x64 .f32) (b : Fin 8192) (j : Fin 26) (e : Fin 64) :
    firstCat fd fs (ix2 b ⟨832 + 64 * j.val + e.val, by omega⟩) = fs (ix3 b j e) :=
  deep_sparse_at fd fs b j e

end Cert.ReferenceIdeal.RefIdx
-- ==== Proof.LibSumSplit.lean ====
/-
  Finite sums over `Fin (m + n)` and `Fin (m * n)` split by blocks: a sum over 39 fields as the first 13 plus the
  last 26, and a sum over 2496 columns as 13 blocks of 64 followed by 26 blocks of 64. Commutative-monoid facts.
-/
import Mathlib.Algebra.BigOperators.Fin

open scoped BigOperators

namespace Cert.Lib.SumSplit

variable {M : Type*} [AddCommMonoid M]

/-- A sum over `Fin (m + n)` is the sum over the first `m` indices plus the sum over the last `n`, the latter
    written `m + j`. -/
theorem sum_fin_add_split (m n : ℕ) (h : Fin (m + n) → M) :
    ∑ g, h g = (∑ f : Fin m, h ⟨f.val, by omega⟩) + ∑ j : Fin n, h ⟨m + j.val, by omega⟩ :=
  Fin.sum_univ_add h

/-- A sum over `Fin (m * n)` is the double sum over `m` blocks of `n` consecutive indices, index `n * f + e` being
    position `e` of block `f`. -/
theorem sum_fin_mul_split (m n : ℕ) (h : Fin (m * n) → M) :
    ∑ k, h k = ∑ f : Fin m, ∑ e : Fin n, h ⟨n * f.val + e.val, by
      have := f.isLt; have := e.isLt
      calc n * f.val + e.val < n * f.val + n := by omega
        _ = n * (f.val + 1) := (Nat.mul_succ n f.val).symm
        _ ≤ n * m := Nat.mul_le_mul_left n (by omega)
        _ = m * n := Nat.mul_comm n m⟩ := by
  rw [← Equiv.sum_comp finProdFinEquiv h, Fintype.sum_prod_type]
  refine Finset.sum_congr rfl fun f _ => Finset.sum_congr rfl fun e _ => congrArg h (Fin.ext ?_)
  show e.val + n * f.val = n * f.val + e.val
  omega

/-- A sum over 39 indices: the first 13, then the last 26 written `13 + j`. -/
theorem sum_fin39_split (h : Fin 39 → M) :
    ∑ g, h g = (∑ f : Fin 13, h ⟨f.val, by omega⟩) + ∑ j : Fin 26, h ⟨13 + j.val, by omega⟩ :=
  sum_fin_add_split 13 26 h

/-- A sum over 2496 indices: 13 blocks of 64 (index `64 f + e`), then 26 blocks of 64 (index `832 + 64 j + e`). -/
theorem sum_fin2496_split (h : Fin 2496 → M) :
    ∑ k, h k = (∑ f : Fin 13, ∑ e : Fin 64, h ⟨64 * f.val + e.val, by omega⟩)
      + ∑ j : Fin 26, ∑ e : Fin 64, h ⟨832 + 64 * j.val + e.val, by omega⟩ := by
  rw [sum_fin_add_split 832 1664 h,
    sum_fin_mul_split 13 64 (fun k : Fin (13 * 64) => h ⟨k.val, by have := k.isLt; omega⟩),
    sum_fin_mul_split 26 64 (fun k : Fin (26 * 64) => h ⟨832 + k.val, by have := k.isLt; omega⟩)]
  refine congrArg₂ (· + ·) rfl
    (Finset.sum_congr rfl fun j _ => Finset.sum_congr rfl fun e _ => congrArg h (Fin.ext ?_))
  show 832 + (64 * j.val + e.val) = 832 + 64 * j.val + e.val
  omega

end Cert.Lib.SumSplit
-- ==== Proof.Bridge.lean ====
/-
  The reference's stages, read at an index, are the sums over whole arrays that the kernel's two regions compute:
  the first-order score, the second-order score, and the two affine layers. Each equation regroups a finite sum
  over 2496 columns (or 39 fields) as the dense block of 13 fields plus the sparse block of 26 fields of 64 lanes.
-/
import proofs.«131473_j31112743092597_2_alg».proof.Proof.RefIdx
import proofs.«131473_j31112743092597_2_alg».proof.Proof.Whole
import proofs.«131473_j31112743092597_2_alg».proof.Proof.LibSumSplit

open Idealize.ShloMosaic Idealize.ShloMosaic.ValueIdx
open scoped BigOperators

namespace Cert.Bridge

open Cert.ReferenceIdeal Cert.ReferenceIdeal.RefIdx Cert.KernelIdeal.Whole Cert.Lib.SumSplit

variable [Cert.ReferenceIdeal.Facts₀]

/-! ## The 39 stacked fields at a dense or a sparse field -/

theorem soCat_at_dense (sd : Vec Ideal S8192x13x64 .f32) (ss : Vec Ideal S8192x26x64 .f32) (b : Fin 8192) (f : Fin 13) (e : Fin 64) :
    soCat sd ss (ix3 b (⟨f.val, by omega⟩ : Fin 39) e) = sd (ix3 b f e) :=
  soCat_apply_dense sd ss b ⟨f.val, by omega⟩ e f.isLt

theorem soCat_at_sparse (sd : Vec Ideal S8192x13x64 .f32) (ss : Vec Ideal S8192x26x64 .f32) (b : Fin 8192) (j : Fin 26) (e : Fin 64) :
    soCat sd ss (ix3 b (⟨13 + j.val, by omega⟩ : Fin 39) e) = ss (ix3 b j e) := by
  refine (soCat_apply_sparse sd ss b ⟨13 + j.val, by omega⟩ e (by show 13 ≤ 13 + j.val; omega)).trans ?_
  refine congrArg ss (funext fun a => ?_)
  match a with
  | ⟨0, _⟩ => rfl
  | ⟨1, _⟩ => exact Fin.ext (by show 13 + j.val - 13 = j.val; omega)
  | ⟨2, _⟩ => rfl

/-! ## The first-order score -/

theorem first_eq (d xvd : Vec Ideal S8192x13 .f32) (xvs : Vec Ideal S8192x26 .f32) (g1 : Vec Ideal S8192x26x64 .f32)
    (w1 b1 : Vec Ideal S13x64 .f32) (b : Fin 8192) :
    firstSum (firstCat (foDense d w1 b1 xvd) (foSparse g1 xvs)) (ix1 b) = fmFirstW d xvd xvs g1 w1 b1 b := by
  rw [firstSum_apply, sum_fin2496_split]
  unfold fmFirstW
  refine congrArg₂ (· + ·) ?_ ?_
  · refine Finset.sum_congr rfl fun f _ => Finset.sum_congr rfl fun e _ => ?_
    rw [firstCat_dense_at, foDense_apply]
  · refine Finset.sum_congr rfl fun j _ => Finset.sum_congr rfl fun e _ => ?_
    rw [firstCat_sparse_at, foSparse_apply]

/-! ## The second-order score -/

theorem second_eq (d : Vec Ideal S8192x13 .f32) (xvs : Vec Ideal S8192x26 .f32) (g2 : Vec Ideal S8192x26x64 .f32)
    (w2 b2 : Vec Ideal S13x64 .f32) (b : Fin 8192) :
    secondSum (secondVec (soCat (soDense d w2 b2) (soSparse g2 xvs))) (ix1 b) = fmSecondW d xvs g2 w2 b2 b := by
  rw [secondSum_apply]
  unfold fmSecondW
  refine Finset.sum_congr rfl fun e _ => ?_
  rw [secondVec_apply,
    sum_fin39_split (fun g => soCat (soDense d w2 b2) (soSparse g2 xvs) (ix3 b g e)),
    sum_fin39_split (fun g => soCat (soDense d w2 b2) (soSparse g2 xvs) (ix3 b g e)
      * soCat (soDense d w2 b2) (soSparse g2 xvs) (ix3 b g e))]
  simp only [soCat_at_dense, soCat_at_sparse, soDense_apply, soSparse_apply, soDenseW, soSparseW]

/-! ## The first affine layer -/

theorem deep_eq (d : Vec Ideal S8192x13 .f32) (xvs : Vec Ideal S8192x26 .f32) (g2 : Vec Ideal S8192x26x64 .f32)
    (w2 b2 : Vec Ideal S13x64 .f32) (b : Fin 8192) (k : Fin 2496) :
    deep (soDense d w2 b2) (soSparse g2 xvs) (ix2 b k) = deepW d xvs g2 w2 b2 b k := by
  unfold deepW
  by_cases hk : k.val < 832
  · rw [dif_pos hk, deep_apply_dense _ _ b k hk, soDense_apply]
    rfl
  · rw [dif_neg hk, deep_apply_sparse _ _ b k (by omega), soSparse_apply]
    unfold soSparseW
    have h1 : (⟨(k.val - 832) / 64, by omega⟩ : Fin 26) = ⟨k.val / 64 - 13, by have := k.isLt; omega⟩ :=
      Fin.ext (by show (k.val - 832) / 64 = k.val / 64 - 13; omega)
    have h2 : (⟨(k.val - 832) % 64, by omega⟩ : Fin 64) = ⟨k.val % 64, by omega⟩ :=
      Fin.ext (by show (k.val - 832) % 64 = k.val % 64; omega)
    rw [h1, h2]

theorem h1_eq (d : Vec Ideal S8192x13 .f32) (xvs : Vec Ideal S8192x26 .f32) (g2 : Vec Ideal S8192x26x64 .f32)
    (w2 b2 : Vec Ideal S13x64 .f32) (W1 : Vec Ideal S2496x512 .f32) (c1 : Vec Ideal S512 .f32) (c1r : Vec Ideal S1x512 .f32)
    (hc1 : ∀ n : Fin 512, c1r (ix2 (0 : Fin 1) n) = c1 (ix1 n)) (b : Fin 8192) (n : Fin 512) :
    h1pre (deep (soDense d w2 b2) (soSparse g2 xvs)) W1 c1 (ix2 b n) = hidden1W d xvs g2 w2 b2 W1 c1r b n := by
  rw [h1pre_apply]
  unfold hidden1W
  refine congrArg₂ (· + ·) (Finset.sum_congr rfl fun k _ => ?_) (hc1 n).symm
  rw [deep_eq]

/-! ## The second affine layer -/

theorem h2_eq (h : Vec Ideal S8192x512 .f32) (W2 : Vec Ideal S512x256 .f32) (c2 : Vec Ideal S256 .f32) (c2r : Vec Ideal S1x256 .f32)
    (hc2 : ∀ n : Fin 256, c2r (ix2 (0 : Fin 1) n) = c2 (ix1 n)) (b : Fin 8192) (n : Fin 256) :
    h2pre h W2 c2 (ix2 b n) = hidden2W h W2 c2r b n := by
  rw [h2pre_apply]
  unfold hidden2W
  exact congrArg₂ (· + ·) rfl (hc2 n).symm

end Cert.Bridge
-- ==== Proof.RefNamed.lean ====
/- The reference's buffers in terms of its named stage functions, at the ideal values. Chaining the stage equations of
   the first segment, the first affine layer's value is the affine-layer function of the flattened second-order
   embeddings; the row sums that the last segment takes of the first-order row and of the interaction vector are the
   first-order and second-order scores; and the third segment's value is the second affine-layer function. Each
   equation is the stage equations rewritten in order, after which both sides are the same composition of operations. -/
import proofs.«131473_j31112743092597_2_alg».proof.Proof.RefStages
import proofs.«131473_j31112743092597_2_alg».proof.Proof.RefIdx

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The first affine layer's value: `h1pre` of the deep input — the second-order dense and sparse embeddings
    flattened side by side — with the first layer's weights and bias. -/
theorem named_v79 (V : Valuation τ sig (Elt Ideal)) :
    after opsA V (Proc.devRef .tc main_v79)
      = RefIdx.h1pre
          (RefIdx.deep
            (RefIdx.soDense (after opsA V (Proc.devRef .tc main_v2)) (V (Proc.devRef .tc main_arg5))
              (V (Proc.devRef .tc main_arg6)))
            (RefIdx.soSparse (after opsA V (Proc.devRef .tc main_v61)) (after opsA V (Proc.devRef .tc main_v5))))
          (V (Proc.devRef .tc main_arg8)) (V (Proc.devRef .tc main_arg9)) := by
  rw [opsA_v79, opsA_v75, opsA_v46, opsA_v64]
  rfl

/-- The row sum of the first-order row is the first-order score of the dense and sparse first-order terms. -/
theorem named_first (V : Valuation τ sig (Elt Ideal)) :
    Host.reduceAdd (F := Ideal) (after opsA V (Proc.devRef .tc main_v38)) (constant (F := Ideal) S_ .f32 0x00000000#32)
        reducesTo_S8192x2496_S8192_d1 h_S_
      = RefIdx.firstSum
          (RefIdx.firstCat
            (RefIdx.foDense (after opsA V (Proc.devRef .tc main_v2)) (V (Proc.devRef .tc main_arg2))
              (V (Proc.devRef .tc main_arg3)) (after opsA V (Proc.devRef .tc main_v4)))
            (RefIdx.foSparse (after opsA V (Proc.devRef .tc main_v32)) (after opsA V (Proc.devRef .tc main_v5)))) := by
  rw [opsA_v38, opsA_v17, opsA_v35]
  rfl

/-- The row sum of the interaction vector is the second-order score of the 39 second-order embeddings. -/
theorem named_second (V : Valuation τ sig (Elt Ideal)) :
    Host.reduceAdd (F := Ideal) (after opsA V (Proc.devRef .tc main_v72)) (constant (F := Ideal) S_ .f32 0x00000000#32)
        reducesTo_S8192x64_S8192_d1 h_S_
      = RefIdx.secondSum
          (RefIdx.secondVec
            (RefIdx.soCat
              (RefIdx.soDense (after opsA V (Proc.devRef .tc main_v2)) (V (Proc.devRef .tc main_arg5))
                (V (Proc.devRef .tc main_arg6)))
              (RefIdx.soSparse (after opsA V (Proc.devRef .tc main_v61)) (after opsA V (Proc.devRef .tc main_v5))))) := by
  rw [opsA_v72, opsA_v66, opsA_v69, opsA_v65, opsA_v46, opsA_v64]
  rfl

/-- The third segment's value: `h2pre` of what it starts from, with the second layer's weights and bias. -/
theorem named_v102 (W : Valuation τ sig (Elt Ideal)) :
    after opsC W (Proc.devRef .tc main_v102)
      = RefIdx.h2pre (W (Proc.devRef .tc main_v98)) (W (Proc.devRef .tc main_arg12))
          (W (Proc.devRef .tc main_arg13)) := by
  rw [opsC_v102]
  rfl

end Cert.ReferenceIdeal.RefRun

end
-- ==== Proof.Reshapes.lean ====
/-
  Three reshapes read at an index: the two bias vectors viewed as one-row matrices before the regions, and the
  closing view of a one-column matrix as a vector.  A reshape keeps the row-major position, and the position of
  `(0, n)` in `[1, N]` is `n`, that of `(b, 0)` in `[B, 1]` is `b`.
-/
import proofs.«131473_j31112743092597_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Reshapes

open Cert.KernelIdeal Cert.KernelIdeal.Gen Idealize.ShloMosaic Idealize.ShloMosaic.TcCoe Idealize.SL.Sem Idealize.ShloMosaic.ValueIdx
open Idealize.ShloMosaic.StableHlo

/-! ## A one-column matrix viewed as a vector -/

/-- A `[a, 1]` array cast to `[a]` reads, at `i`, the entry `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The closing reshape `[8192, 1] → [8192]` at row `b`. -/
theorem col_apply (X : Vec Ideal S8192x1 .f32) (b : Fin 8192) :
    shapeCast S8192 X shapeCasts_S8192x1_S8192 (ix1 b) = X (ix2 b (0 : Fin 1)) :=
  shapeCast_a1_a_apply X _ b

/-! ## The bias vectors viewed as one-row matrices -/

/-- The first layer's bias as the first region finds it, at `(0, n)`: entry `n` of the bias vector at launch. -/
theorem c1r_apply (m : (ℓ : Loc nD τ sig) → Buf (Elt Ideal) ℓ) (ρ : Dev nD → PrngReg) (c : Dev nD) (n : Fin 512) :
    (Gen.W1 m ρ c (Proc.devRef .tc main_v25) : Vec Ideal S1x512 .f32) (ix2 (0 : Fin 1) n)
      = (m ((c : Thread nD τ).loc main_arg9) : Vec Ideal S512 .f32) (ix1 n) := by
  have e : (Gen.W1 m ρ c (Proc.devRef .tc main_v25) : Vec Ideal S1x512 .f32)
      = shapeCast S1x512 (m ((c : Thread nD τ).loc main_arg9) : Vec Ideal S512 .f32) shapeCasts_S512_S1x512 := by
    dsimp only [Gen.W1]
    after_results_simp
    rfl
  rw [e, shapeCast_a_1a_apply]

/-- The second layer's bias likewise, at `(0, n)`: entry `n` of the bias vector at launch. -/
theorem c2r_apply (m : (ℓ : Loc nD τ sig) → Buf (Elt Ideal) ℓ) (ρ : Dev nD → PrngReg) (c : Dev nD) (n : Fin 256) :
    (Gen.W1 m ρ c (Proc.devRef .tc main_v26) : Vec Ideal S1x256 .f32) (ix2 (0 : Fin 1) n)
      = (m ((c : Thread nD τ).loc main_arg13) : Vec Ideal S256 .f32) (ix1 n) := by
  have e : (Gen.W1 m ρ c (Proc.devRef .tc main_v26) : Vec Ideal S1x256 .f32)
      = shapeCast S1x256 (m ((c : Thread nD τ).loc main_arg13) : Vec Ideal S256 .f32) shapeCasts_S256_S1x256 := by
    dsimp only [Gen.W1]
    after_results_simp
    rfl
  rw [e, shapeCast_a_1a_apply]

end Cert.KernelIdeal.Reshapes

end
-- ==== Proof.Value.lean ====
/-
  The two idealized programs end with the same result.  From memories that agree on the seventeen arguments, the
  reference's fold of host operations, read at its result, equals the last boundary contents of the kernel's program read
  at its result.  The proof walks both programs in step:
    the inputs (dense values converted, the two slices of Xv, the two embedding lookups) are the same arrays;
    the first region's three outputs are, row by row, the reference's first matrix product with bias, its first-order
    sum and its second-order sum (sums over a concatenation split into the sums over its two parts, and the flattened
    [39·64] axis re-indexed by field and lane: commutative-monoid laws on the extended reals, no finiteness needed);
    the first batch normalisation is the same chain of operations on equal arrays;
    the second region's output is the reference's second matrix product with bias;
    the second batch normalisation and the closing additions are again the same chain.
-/
import proofs.«131473_j31112743092597_2_alg».proof.Proof.Chains
import proofs.«131473_j31112743092597_2_alg».proof.Proof.KVal
import proofs.«131473_j31112743092597_2_alg».proof.Proof.Whole
import proofs.«131473_j31112743092597_2_alg».proof.Proof.Bridge
import proofs.«131473_j31112743092597_2_alg».proof.Proof.RefNamed
import proofs.«131473_j31112743092597_2_alg».proof.Proof.Reshapes

set_option maxRecDepth 16384

noncomputable section

namespace Cert.Value

open Idealize.ShloMosaic Idealize.ShloMosaic.TcCoe Idealize.SL.Sem Idealize.ShloMosaic.StableHlo Idealize.ShloMosaic.ValueIdx

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The two launch memories agree on every argument array. -/
structure Agree : Prop where
  h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

/-! Below, the reference's launch contents are `launchContents m' c`, and its contents after its first three segments are
    the folds of `opsA`, `opsB`, `opsC` over them, in turn. -/

variable {m ρ m' c} (ag : Agree m m' c)
include ag

/-! ## The inputs -/

theorem ra_v2 : after Cert.ReferenceIdeal.RefRun.opsA (launchContents m' c) (Proc.devRef .tc Cert.ReferenceIdeal.main_v2) = Cert.KernelIdeal.Gen.W1 m ρ c (Proc.devRef .tc Cert.KernelIdeal.main_v2) :=
  Cert.Chains.dense_agree (launchContents m' c) (Cert.KernelIdeal.Gen.W0 m ρ c) ag.h0
theorem ra_v4 : after Cert.ReferenceIdeal.RefRun.opsA (launchContents m' c) (Proc.devRef .tc Cert.ReferenceIdeal.main_v4) = Cert.KernelIdeal.Gen.W1 m ρ c (Proc.devRef .tc Cert.KernelIdeal.main_v4) :=
  Cert.Chains.xvd_agree (launchContents m' c) (Cert.KernelIdeal.Gen.W0 m ρ c) ag.h1
theorem ra_v5 : after Cert.ReferenceIdeal.RefRun.opsA (launchContents m' c) (Proc.devRef .tc Cert.ReferenceIdeal.main_v5) = Cert.KernelIdeal.Gen.W1 m ρ c (Proc.devRef .tc Cert.KernelIdeal.main_v5) :=
  Cert.Chains.xvs_agree (launchContents m' c) (Cert.KernelIdeal.Gen.W0 m ρ c) ag.h1
theorem ra_v32 : after Cert.ReferenceIdeal.RefRun.opsA (launchContents m' c) (Proc.devRef .tc Cert.ReferenceIdeal.main_v32) = Cert.KernelIdeal.Gen.W1 m ρ c (Proc.devRef .tc Cert.KernelIdeal.main_v15) :=
  Cert.Chains.emb1_agree (launchContents m' c) (Cert.KernelIdeal.Gen.W0 m ρ c) ag.h0 ag.h4
theorem ra_v61 : after Cert.ReferenceIdeal.RefRun.opsA (launchContents m' c) (Proc.devRef .tc Cert.ReferenceIdeal.main_v61) = Cert.KernelIdeal.Gen.W1 m ρ c (Proc.devRef .tc Cert.KernelIdeal.main_v24) :=
  Cert.Chains.emb2_agree (launchContents m' c) (Cert.KernelIdeal.Gen.W0 m ρ c) ag.h0 ag.h7
theorem vr_arg2 : launchContents m' c (Proc.devRef .tc Cert.ReferenceIdeal.main_arg2) = Cert.KernelIdeal.Gen.W1 m ρ c (Proc.devRef .tc Cert.KernelIdeal.main_arg2) :=
  ag.h2.trans (Cert.KernelIdeal.KVal.W1_arg2 m ρ c).symm
theorem vr_arg3 : launchContents m' c (Proc.devRef .tc Cert.ReferenceIdeal.main_arg3) = Cert.KernelIdeal.Gen.W1 m ρ c (Proc.devRef .tc Cert.KernelIdeal.main_arg3) :=
  ag.h3.trans (Cert.KernelIdeal.KVal.W1_arg3 m ρ c).symm
theorem vr_arg5 : launchContents m' c (Proc.devRef .tc Cert.ReferenceIdeal.main_arg5) = Cert.KernelIdeal.Gen.W1 m ρ c (Proc.devRef .tc Cert.KernelIdeal.main_arg5) :=
  ag.h5.trans (Cert.KernelIdeal.KVal.W1_arg5 m ρ c).symm
theorem vr_arg6 : launchContents m' c (Proc.devRef .tc Cert.ReferenceIdeal.main_arg6) = Cert.KernelIdeal.Gen.W1 m ρ c (Proc.devRef .tc Cert.KernelIdeal.main_arg6) :=
  ag.h6.trans (Cert.KernelIdeal.KVal.W1_arg6 m ρ c).symm
theorem vr_arg8 : launchContents m' c (Proc.devRef .tc Cert.ReferenceIdeal.main_arg8) = Cert.KernelIdeal.Gen.W1 m ρ c (Proc.devRef .tc Cert.KernelIdeal.main_arg8) :=
  ag.h8.trans (Cert.KernelIdeal.KVal.W1_arg8 m ρ c).symm

/-! ## Region 0 against the reference's first-order sum, second-order sum and first matrix product -/

/-- The bias of the first matrix product, reshaped to a row on the kernel's side. -/
theorem hc1 (n : Fin 512) : (Cert.KernelIdeal.Gen.W1 m ρ c (Proc.devRef .tc Cert.KernelIdeal.main_v25) : Vec Ideal Cert.KernelIdeal.S1x512 .f32) (ix2 (0 : Fin 1) n)
    = (launchContents m' c (Proc.devRef .tc Cert.ReferenceIdeal.main_arg9) : Vec Ideal Cert.ReferenceIdeal.S512 .f32) (ix1 n) :=
  (Cert.KernelIdeal.Reshapes.c1r_apply m ρ c n).trans (congrFun ag.h9.symm _)

theorem h79 : after Cert.ReferenceIdeal.RefRun.opsA (launchContents m' c) (Proc.devRef .tc Cert.ReferenceIdeal.main_v79) = Cert.KernelIdeal.Gen.W2 m ρ c (Proc.devRef .tc Cert.KernelIdeal.main_v27_0) := by
  rw [Cert.KernelIdeal.KVal.W2_v27_0, Cert.ReferenceIdeal.RefRun.named_v79]
  funext i
  obtain ⟨b, n, rfl⟩ : ∃ (b : Fin 8192) (n : Fin 512), i = ix2 b n := ⟨i 0, i 1, eq_ix2 i⟩
  refine (Cert.Bridge.h1_eq _ _ _ _ _ _ _ (Cert.KernelIdeal.Gen.W1 m ρ c (Proc.devRef .tc Cert.KernelIdeal.main_v25)) (hc1 ag) b n).trans ?_
  rw [Cert.KernelIdeal.Whole.G11_apply, ra_v2 ag, ra_v5 ag, ra_v61 ag, vr_arg5 ag, vr_arg6 ag, vr_arg8 ag]

/-! ## The first batch normalisation -/

theorem ra_arg10 : after Cert.ReferenceIdeal.RefRun.opsA (launchContents m' c) (Proc.devRef .tc Cert.ReferenceIdeal.main_arg10) = Cert.KernelIdeal.Gen.W2 m ρ c (Proc.devRef .tc Cert.KernelIdeal.main_arg10) :=
  (Cert.ReferenceIdeal.RefRun.opsA_keep (launchContents m' c) Cert.ReferenceIdeal.main_arg10 (by decide)).trans (ag.h10.trans (Cert.KernelIdeal.KVal.W2_arg10 m ρ c).symm)
theorem ra_arg11 : after Cert.ReferenceIdeal.RefRun.opsA (launchContents m' c) (Proc.devRef .tc Cert.ReferenceIdeal.main_arg11) = Cert.KernelIdeal.Gen.W2 m ρ c (Proc.devRef .tc Cert.KernelIdeal.main_arg11) :=
  (Cert.ReferenceIdeal.RefRun.opsA_keep (launchContents m' c) Cert.ReferenceIdeal.main_arg11 (by decide)).trans (ag.h11.trans (Cert.KernelIdeal.KVal.W2_arg11 m ρ c).symm)

theorem rb_v98 : after Cert.ReferenceIdeal.RefRun.opsB (after Cert.ReferenceIdeal.RefRun.opsA (launchContents m' c)) (Proc.devRef .tc Cert.ReferenceIdeal.main_v98) = Cert.KernelIdeal.Gen.W5 m ρ c (Proc.devRef .tc Cert.KernelIdeal.main_v46) :=
  Cert.Chains.bn1_agree (after Cert.ReferenceIdeal.RefRun.opsA (launchContents m' c)) (Cert.KernelIdeal.Gen.W2 m ρ c) (h79 ag) (ra_arg10 ag) (ra_arg11 ag)

/-! ## Region 1 against the reference's second matrix product -/

theorem rb_arg12 : after Cert.ReferenceIdeal.RefRun.opsB (after Cert.ReferenceIdeal.RefRun.opsA (launchContents m' c)) (Proc.devRef .tc Cert.ReferenceIdeal.main_arg12) = Cert.KernelIdeal.Gen.W5 m ρ c (Proc.devRef .tc Cert.KernelIdeal.main_arg12) :=
  (Cert.ReferenceIdeal.RefRun.opsB_keep (after Cert.ReferenceIdeal.RefRun.opsA (launchContents m' c)) Cert.ReferenceIdeal.main_arg12 (by decide)).trans
    ((Cert.ReferenceIdeal.RefRun.opsA_keep (launchContents m' c) Cert.ReferenceIdeal.main_arg12 (by decide)).trans (ag.h12.trans (Cert.KernelIdeal.KVal.W5_arg12 m ρ c).symm))

/-- The bias of the second matrix product, reshaped to a row on the kernel's side. -/
theorem hc2 (n : Fin 256) : (Cert.KernelIdeal.Gen.W5 m ρ c (Proc.devRef .tc Cert.KernelIdeal.main_v26) : Vec Ideal Cert.KernelIdeal.S1x256 .f32) (ix2 (0 : Fin 1) n)
    = (after Cert.ReferenceIdeal.RefRun.opsB (after Cert.ReferenceIdeal.RefRun.opsA (launchContents m' c)) (Proc.devRef .tc Cert.ReferenceIdeal.main_arg13) : Vec Ideal Cert.ReferenceIdeal.S256 .f32) (ix1 n) := by
  rw [Cert.KernelIdeal.KVal.W5_v26, Cert.ReferenceIdeal.RefRun.opsB_keep (after Cert.ReferenceIdeal.RefRun.opsA (launchContents m' c)) Cert.ReferenceIdeal.main_arg13 (by decide), Cert.ReferenceIdeal.RefRun.opsA_keep (launchContents m' c) Cert.ReferenceIdeal.main_arg13 (by decide)]
  exact (Cert.KernelIdeal.Reshapes.c2r_apply m ρ c n).trans (congrFun ag.h13.symm _)

theorem rc_v102 : after Cert.ReferenceIdeal.RefRun.opsC (after Cert.ReferenceIdeal.RefRun.opsB (after Cert.ReferenceIdeal.RefRun.opsA (launchContents m' c))) (Proc.devRef .tc Cert.ReferenceIdeal.main_v102) = Cert.KernelIdeal.Gen.W6 m ρ c (Proc.devRef .tc Cert.KernelIdeal.main_v47) := by
  rw [Cert.KernelIdeal.KVal.W6_v47, Cert.ReferenceIdeal.RefRun.named_v102]
  funext i
  obtain ⟨b, n, rfl⟩ : ∃ (b : Fin 8192) (n : Fin 256), i = ix2 b n := ⟨i 0, i 1, eq_ix2 i⟩
  refine (Cert.Bridge.h2_eq _ _ _ (Cert.KernelIdeal.Gen.W5 m ρ c (Proc.devRef .tc Cert.KernelIdeal.main_v26)) (hc2 ag) b n).trans ?_
  rw [Cert.KernelIdeal.Whole.G3_apply, rb_v98 ag, rb_arg12 ag]

/-! ## The first- and second-order sums -/

theorem rc_v38 : after Cert.ReferenceIdeal.RefRun.opsC (after Cert.ReferenceIdeal.RefRun.opsB (after Cert.ReferenceIdeal.RefRun.opsA (launchContents m' c))) (Proc.devRef .tc Cert.ReferenceIdeal.main_v38) = after Cert.ReferenceIdeal.RefRun.opsA (launchContents m' c) (Proc.devRef .tc Cert.ReferenceIdeal.main_v38) :=
  (Cert.ReferenceIdeal.RefRun.opsC_keep (after Cert.ReferenceIdeal.RefRun.opsB (after Cert.ReferenceIdeal.RefRun.opsA (launchContents m' c))) Cert.ReferenceIdeal.main_v38 (by decide)).trans (Cert.ReferenceIdeal.RefRun.opsB_keep (after Cert.ReferenceIdeal.RefRun.opsA (launchContents m' c)) Cert.ReferenceIdeal.main_v38 (by decide))
theorem rc_v72 : after Cert.ReferenceIdeal.RefRun.opsC (after Cert.ReferenceIdeal.RefRun.opsB (after Cert.ReferenceIdeal.RefRun.opsA (launchContents m' c))) (Proc.devRef .tc Cert.ReferenceIdeal.main_v72) = after Cert.ReferenceIdeal.RefRun.opsA (launchContents m' c) (Proc.devRef .tc Cert.ReferenceIdeal.main_v72) :=
  (Cert.ReferenceIdeal.RefRun.opsC_keep (after Cert.ReferenceIdeal.RefRun.opsB (after Cert.ReferenceIdeal.RefRun.opsA (launchContents m' c))) Cert.ReferenceIdeal.main_v72 (by decide)).trans (Cert.ReferenceIdeal.RefRun.opsB_keep (after Cert.ReferenceIdeal.RefRun.opsA (launchContents m' c)) Cert.ReferenceIdeal.main_v72 (by decide))

theorem first_sum : Host.reduceAdd (F := Ideal) (after Cert.ReferenceIdeal.RefRun.opsC (after Cert.ReferenceIdeal.RefRun.opsB (after Cert.ReferenceIdeal.RefRun.opsA (launchContents m' c))) (Proc.devRef .tc Cert.ReferenceIdeal.main_v38)) (constant (F := Ideal) Cert.ReferenceIdeal.S_ .f32 0x00000000#32) Cert.ReferenceIdeal.Gen.reducesTo_S8192x2496_S8192_d1 Cert.ReferenceIdeal.Gen.h_S_
    = shapeCast Cert.KernelIdeal.S8192 (Cert.KernelIdeal.Gen.W6 m ρ c (Proc.devRef .tc Cert.KernelIdeal.main_v27_1)) Cert.KernelIdeal.Gen.shapeCasts_S8192x1_S8192 := by
  rw [rc_v38 ag, Cert.ReferenceIdeal.RefRun.named_first]
  funext i
  obtain ⟨b, rfl⟩ : ∃ b : Fin 8192, i = ix1 b := ⟨i 0, eq_ix1 i⟩
  refine (Cert.Bridge.first_eq _ _ _ _ _ _ b).trans ?_
  rw [Cert.KernelIdeal.Reshapes.col_apply, Cert.KernelIdeal.KVal.W6_v27_1, Cert.KernelIdeal.Whole.G12_apply, ra_v2 ag, ra_v4 ag, ra_v5 ag, ra_v32 ag, vr_arg2 ag, vr_arg3 ag]

theorem second_sum : Host.reduceAdd (F := Ideal) (after Cert.ReferenceIdeal.RefRun.opsC (after Cert.ReferenceIdeal.RefRun.opsB (after Cert.ReferenceIdeal.RefRun.opsA (launchContents m' c))) (Proc.devRef .tc Cert.ReferenceIdeal.main_v72)) (constant (F := Ideal) Cert.ReferenceIdeal.S_ .f32 0x00000000#32) Cert.ReferenceIdeal.Gen.reducesTo_S8192x64_S8192_d1 Cert.ReferenceIdeal.Gen.h_S_
    = shapeCast Cert.KernelIdeal.S8192 (Cert.KernelIdeal.Gen.W6 m ρ c (Proc.devRef .tc Cert.KernelIdeal.main_v27_2)) Cert.KernelIdeal.Gen.shapeCasts_S8192x1_S8192 := by
  rw [rc_v72 ag, Cert.ReferenceIdeal.RefRun.named_second]
  funext i
  obtain ⟨b, rfl⟩ : ∃ b : Fin 8192, i = ix1 b := ⟨i 0, eq_ix1 i⟩
  refine (Cert.Bridge.second_eq _ _ _ _ _ b).trans ?_
  rw [Cert.KernelIdeal.Reshapes.col_apply, Cert.KernelIdeal.KVal.W6_v27_2, Cert.KernelIdeal.Whole.G13_apply, ra_v2 ag, ra_v5 ag, ra_v61 ag, vr_arg5 ag, vr_arg6 ag]

/-! ## The second batch normalisation and the closing additions: the result -/

theorem rc_arg14 : after Cert.ReferenceIdeal.RefRun.opsC (after Cert.ReferenceIdeal.RefRun.opsB (after Cert.ReferenceIdeal.RefRun.opsA (launchContents m' c))) (Proc.devRef .tc Cert.ReferenceIdeal.main_arg14) = Cert.KernelIdeal.Gen.W6 m ρ c (Proc.devRef .tc Cert.KernelIdeal.main_arg14) :=
  (Cert.ReferenceIdeal.RefRun.opsC_keep (after Cert.ReferenceIdeal.RefRun.opsB (after Cert.ReferenceIdeal.RefRun.opsA (launchContents m' c))) Cert.ReferenceIdeal.main_arg14 (by decide)).trans ((Cert.ReferenceIdeal.RefRun.opsB_keep (after Cert.ReferenceIdeal.RefRun.opsA (launchContents m' c)) Cert.ReferenceIdeal.main_arg14 (by decide)).trans
    ((Cert.ReferenceIdeal.RefRun.opsA_keep (launchContents m' c) Cert.ReferenceIdeal.main_arg14 (by decide)).trans (ag.h14.trans (Cert.KernelIdeal.KVal.W6_arg14 m ρ c).symm)))
theorem rc_arg15 : after Cert.ReferenceIdeal.RefRun.opsC (after Cert.ReferenceIdeal.RefRun.opsB (after Cert.ReferenceIdeal.RefRun.opsA (launchContents m' c))) (Proc.devRef .tc Cert.ReferenceIdeal.main_arg15) = Cert.KernelIdeal.Gen.W6 m ρ c (Proc.devRef .tc Cert.KernelIdeal.main_arg15) :=
  (Cert.ReferenceIdeal.RefRun.opsC_keep (after Cert.ReferenceIdeal.RefRun.opsB (after Cert.ReferenceIdeal.RefRun.opsA (launchContents m' c))) Cert.ReferenceIdeal.main_arg15 (by decide)).trans ((Cert.ReferenceIdeal.RefRun.opsB_keep (after Cert.ReferenceIdeal.RefRun.opsA (launchContents m' c)) Cert.ReferenceIdeal.main_arg15 (by decide)).trans
    ((Cert.ReferenceIdeal.RefRun.opsA_keep (launchContents m' c) Cert.ReferenceIdeal.main_arg15 (by decide)).trans (ag.h15.trans (Cert.KernelIdeal.KVal.W6_arg15 m ρ c).symm)))
theorem rc_arg16 : after Cert.ReferenceIdeal.RefRun.opsC (after Cert.ReferenceIdeal.RefRun.opsB (after Cert.ReferenceIdeal.RefRun.opsA (launchContents m' c))) (Proc.devRef .tc Cert.ReferenceIdeal.main_arg16) = Cert.KernelIdeal.Gen.W6 m ρ c (Proc.devRef .tc Cert.KernelIdeal.main_arg16) :=
  (Cert.ReferenceIdeal.RefRun.opsC_keep (after Cert.ReferenceIdeal.RefRun.opsB (after Cert.ReferenceIdeal.RefRun.opsA (launchContents m' c))) Cert.ReferenceIdeal.main_arg16 (by decide)).trans ((Cert.ReferenceIdeal.RefRun.opsB_keep (after Cert.ReferenceIdeal.RefRun.opsA (launchContents m' c)) Cert.ReferenceIdeal.main_arg16 (by decide)).trans
    ((Cert.ReferenceIdeal.RefRun.opsA_keep (launchContents m' c) Cert.ReferenceIdeal.main_arg16 (by decide)).trans (ag.h16.trans (Cert.KernelIdeal.KVal.W6_arg16 m ρ c).symm)))

/-- THE RESULT: the reference's fold read at its result is the kernel's last boundary contents read at its result. -/
theorem value_eq : after Cert.ReferenceIdeal.RefRun.ops (launchContents m' c) (Proc.devRef .tc Cert.ReferenceIdeal.main_v127) = Cert.KernelIdeal.Gen.W9 m ρ c (Proc.devRef .tc Cert.KernelIdeal.main_v72) := by
  rw [Cert.ReferenceIdeal.RefRun.after_ops]
  exact Cert.Chains.tail_agree (after Cert.ReferenceIdeal.RefRun.opsC (after Cert.ReferenceIdeal.RefRun.opsB (after Cert.ReferenceIdeal.RefRun.opsA (launchContents m' c)))) (Cert.KernelIdeal.Gen.W6 m ρ c) (rc_v102 ag) (rc_arg14 ag) (rc_arg15 ag) (rc_arg16 ag) (first_sum ag) (second_sum ag)

end Cert.Value

end
-- ==== Proof.lean ====
/-
  The certificate: a fused DeepFM forward pass — two pipelined kernels (first- and second-order interaction sums fused
  with the first matrix product over batch tiles of 256 rows; the second matrix product over tiles of 1024 rows) among
  host operations (input slicing, the two embedding lookups, two batch normalisations, the closing sums) — against the
  plain reference.  On the extended reals both programs compute, for every example b,
      first(b) + second(b) + Σ_n BN₂(BN₁(deep · W1 + c1) · W2 + c2)(b, n) + bias(b),
  where first and second are the first- and second-order interaction sums and deep is the 39·64 row of second-order
  embeddings.  The three frame claims are the generated frames (the reference's from its run); nothing was rewritten
  by the idealization, so the preservation claim is trivial; the value claim sets the kernel program's run, read at its
  result, beside the reference's run and identifies the two results (module Value).
-/
import proofs.«131473_j31112743092597_2_alg».proof.Defs
import proofs.«131473_j31112743092597_2_alg».proof.Proof.Gen.Kernel
import proofs.«131473_j31112743092597_2_alg».proof.Proof.Gen.Kernel.Frame
import proofs.«131473_j31112743092597_2_alg».proof.Proof.Gen.KernelIdeal
import proofs.«131473_j31112743092597_2_alg».proof.Proof.Gen.KernelIdeal.Frame
import proofs.«131473_j31112743092597_2_alg».proof.Proof.Gen.ReferenceIdeal
import proofs.«131473_j31112743092597_2_alg».proof.Proof.Gen.Pre_finite_inputs
import proofs.«131473_j31112743092597_2_alg».proof.Proof.KRun
import proofs.«131473_j31112743092597_2_alg».proof.Proof.RefRun
import proofs.«131473_j31112743092597_2_alg».proof.Proof.Value

set_option maxRecDepth 16384

noncomputable section

namespace Cert.Proof

open Idealize.ShloMosaic Idealize.ShloMosaic.TcCoe Idealize.SL.Sem Idealize.ShloMosaic.StableHlo

/-- The kernel's program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations none of which writes an argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.RefRun.kept_main_arg0 _),
     (h c Cert.ReferenceIdeal.main_arg1).trans (Cert.ReferenceIdeal.RefRun.kept_main_arg1 _),
     (h c Cert.ReferenceIdeal.main_arg2).trans (Cert.ReferenceIdeal.RefRun.kept_main_arg2 _),
     (h c Cert.ReferenceIdeal.main_arg3).trans (Cert.ReferenceIdeal.RefRun.kept_main_arg3 _),
     (h c Cert.ReferenceIdeal.main_arg4).trans (Cert.ReferenceIdeal.RefRun.kept_main_arg4 _),
     (h c Cert.ReferenceIdeal.main_arg5).trans (Cert.ReferenceIdeal.RefRun.kept_main_arg5 _),
     (h c Cert.ReferenceIdeal.main_arg6).trans (Cert.ReferenceIdeal.RefRun.kept_main_arg6 _),
     (h c Cert.ReferenceIdeal.main_arg7).trans (Cert.ReferenceIdeal.RefRun.kept_main_arg7 _),
     (h c Cert.ReferenceIdeal.main_arg8).trans (Cert.ReferenceIdeal.RefRun.kept_main_arg8 _),
     (h c Cert.ReferenceIdeal.main_arg9).trans (Cert.ReferenceIdeal.RefRun.kept_main_arg9 _),
     (h c Cert.ReferenceIdeal.main_arg10).trans (Cert.ReferenceIdeal.RefRun.kept_main_arg10 _),
     (h c Cert.ReferenceIdeal.main_arg11).trans (Cert.ReferenceIdeal.RefRun.kept_main_arg11 _),
     (h c Cert.ReferenceIdeal.main_arg12).trans (Cert.ReferenceIdeal.RefRun.kept_main_arg12 _),
     (h c Cert.ReferenceIdeal.main_arg13).trans (Cert.ReferenceIdeal.RefRun.kept_main_arg13 _),
     (h c Cert.ReferenceIdeal.main_arg14).trans (Cert.ReferenceIdeal.RefRun.kept_main_arg14 _),
     (h c Cert.ReferenceIdeal.main_arg15).trans (Cert.ReferenceIdeal.RefRun.kept_main_arg15 _),
     (h c Cert.ReferenceIdeal.main_arg16).trans (Cert.ReferenceIdeal.RefRun.kept_main_arg16 _)⟩)
    (Cert.ReferenceIdeal.RefRun.run_all (F := Ideal) m ρ)

/-- The idealization rewrote no operation. -/
theorem preserves : Cert.preserves_Kernel_KernelIdeal := trivial

/-- From memories agreeing on the arguments both idealized programs run, end with the arguments unchanged, and
    their results are equal as extended reals. -/
theorem algebraic : Cert.algebraic_KernelIdeal_ReferenceIdeal := by
  intro m ρ m' ρ' _ hagree
  refine ⟨fun c => Cert.KernelIdeal.Gen.W9 m ρ c (Proc.devRef .tc Cert.KernelIdeal.main_v72), Cert.KernelIdeal.KRun.run_main m ρ, ?_⟩
  refine (θ_run Cert.ReferenceIdeal.defs _ _).mono (fun r h c => ?_) (Cert.ReferenceIdeal.RefRun.run_all (F := Ideal) m' ρ')
  have ag : Cert.Value.Agree m m' c := by
    obtain ⟨h0, h1, h2, h3, h4, h5, h6, h7, h8, h9, h10, h11, h12, h13, h14, h15, h16⟩ := hagree c
    exact ⟨h0, h1, h2, h3, h4, h5, h6, h7, h8, h9, h10, h11, h12, h13, h14, h15, h16⟩
  exact ⟨(h c Cert.ReferenceIdeal.main_v127).trans (Cert.Value.value_eq ag),
     (h c Cert.ReferenceIdeal.main_arg0).trans (Cert.ReferenceIdeal.RefRun.kept_main_arg0 _),
     (h c Cert.ReferenceIdeal.main_arg1).trans (Cert.ReferenceIdeal.RefRun.kept_main_arg1 _),
     (h c Cert.ReferenceIdeal.main_arg2).trans (Cert.ReferenceIdeal.RefRun.kept_main_arg2 _),
     (h c Cert.ReferenceIdeal.main_arg3).trans (Cert.ReferenceIdeal.RefRun.kept_main_arg3 _),
     (h c Cert.ReferenceIdeal.main_arg4).trans (Cert.ReferenceIdeal.RefRun.kept_main_arg4 _),
     (h c Cert.ReferenceIdeal.main_arg5).trans (Cert.ReferenceIdeal.RefRun.kept_main_arg5 _),
     (h c Cert.ReferenceIdeal.main_arg6).trans (Cert.ReferenceIdeal.RefRun.kept_main_arg6 _),
     (h c Cert.ReferenceIdeal.main_arg7).trans (Cert.ReferenceIdeal.RefRun.kept_main_arg7 _),
     (h c Cert.ReferenceIdeal.main_arg8).trans (Cert.ReferenceIdeal.RefRun.kept_main_arg8 _),
     (h c Cert.ReferenceIdeal.main_arg9).trans (Cert.ReferenceIdeal.RefRun.kept_main_arg9 _),
     (h c Cert.ReferenceIdeal.main_arg10).trans (Cert.ReferenceIdeal.RefRun.kept_main_arg10 _),
     (h c Cert.ReferenceIdeal.main_arg11).trans (Cert.ReferenceIdeal.RefRun.kept_main_arg11 _),
     (h c Cert.ReferenceIdeal.main_arg12).trans (Cert.ReferenceIdeal.RefRun.kept_main_arg12 _),
     (h c Cert.ReferenceIdeal.main_arg13).trans (Cert.ReferenceIdeal.RefRun.kept_main_arg13 _),
     (h c Cert.ReferenceIdeal.main_arg14).trans (Cert.ReferenceIdeal.RefRun.kept_main_arg14 _),
     (h c Cert.ReferenceIdeal.main_arg15).trans (Cert.ReferenceIdeal.RefRun.kept_main_arg15 _),
     (h c Cert.ReferenceIdeal.main_arg16).trans (Cert.ReferenceIdeal.RefRun.kept_main_arg16 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
